-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32768 : Shape := ⟨2, ![4096, 32768]⟩
abbrev S128x32768 : Shape := ⟨2, ![128, 32768]⟩
abbrev S4096x128 : Shape := ⟨2, ![4096, 128]⟩
abbrev S_ : Shape := ⟨0, ![]⟩

class Facts : Prop where
  bcast_S_S4096x32768 : S_.BroadcastsInDim S4096x32768 (![] : Fin 0 → Fin S4096x32768.rank)
  reducesTo_S4096x32768_S_d0_1 : S4096x32768.ReducesTo [0, 1] S_
  h_S_ : 0 < S_.numel
  bcast_S_S128x32768 : S_.BroadcastsInDim S128x32768 (![] : Fin 0 → Fin S128x32768.rank)
  reducesTo_S128x32768_S_d0_1 : S128x32768.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S128x32768 .f32) (main_arg5 : FVec F S4096x128 .f32) (main_v13 : IVec S_ 1) (main_v16 : IVec S128x32768 1) : IVec S_ 1 :=
  let main_c_5 : IVec S_ 1 := constantI S_ 1 1#1
  let main_v17 : IVec S_ 1 := (fun x v => Host.reduce IntOp.andi x v reducesTo_S128x32768_S_d0_1 h_S_) main_v16 main_c_5
  let main_v18 : IVec S_ 1 := andi main_v13 main_v17
  let main_v19 : FVec F S128x32768 .f32 := Host.absf main_arg4
  let main_cst_6 : FVec F S_ .f32 := constant S_ .f32 0x7F800000#32
  let main_v20 : FVec F S128x32768 .f32 := broadcastInDim S128x32768 ![] bcast_S_S128x32768 main_cst_6
  let main_v21 : IVec S128x32768 1 := cmpf .olt main_v19 main_v20
  let main_c_7 : IVec S_ 1 := constantI S_ 1 1#1
  let main_v22 : IVec S_ 1 := (fun x v => Host.reduce IntOp.andi x v reducesTo_S128x32768_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  main_v28

def fn {F : FTy → Type} [FloatOps F] (main_arg0 : FVec F S4096x32768 .f32) (main_arg1 : FVec F S128x32768 .f32) (main_arg2 : FVec F S128x32768 .f32) (main_arg3 : FVec F S128x32768 .f32) (main_arg4 : FVec F S128x32768 .f32) (main_arg5 : FVec F S4096x128 .f32) : IVec S_ 1 :=
  let main_v0 : FVec F S4096x32768 .f32 := Host.absf main_arg0
  let main_cst : FVec F S_ .f32 := constant S_ .f32 0x7F800000#32
  let main_v1 : FVec F S4096x32768 .f32 := broadcastInDim S4096x32768 ![] bcast_S_S4096x32768 main_cst
  let main_v2 : IVec S4096x32768 1 := cmpf .olt main_v0 main_v1
  let main_c : IVec S_ 1 := constantI S_ 1 1#1
  let main_v3 : IVec S_ 1 := (fun x v => Host.reduce IntOp.andi x v reducesTo_S4096x32768_S_d0_1 h_S_) main_v2 main_c
  let main_v4 : FVec F S128x32768 .f32 := Host.absf main_arg1
  let main_cst_0 : FVec F S_ .f32 := constant S_ .f32 0x7F800000#32
  let main_v5 : FVec F S128x32768 .f32 := broadcastInDim S128x32768 ![] bcast_S_S128x32768 main_cst_0
  let main_v6 : IVec S128x32768 1 := cmpf .olt main_v4 main_v5
  let main_c_1 : IVec S_ 1 := constantI S_ 1 1#1
  let main_v7 : IVec S_ 1 := (fun x v => Host.reduce IntOp.andi x v reducesTo_S128x32768_S_d0_1 h_S_) main_v6 main_c_1
  let main_v8 : IVec S_ 1 := andi main_v3 main_v7
  let main_v9 : FVec F S128x32768 .f32 := Host.absf main_arg2
  let main_cst_2 : FVec F S_ .f32 := constant S_ .f32 0x7F800000#32
  let main_v10 : FVec F S128x32768 .f32 := broadcastInDim S128x32768 ![] bcast_S_S128x32768 main_cst_2
  let main_v11 : IVec S128x32768 1 := cmpf .olt main_v9 main_v10
  let main_c_3 : IVec S_ 1 := constantI S_ 1 1#1
  let main_v12 : IVec S_ 1 := (fun x v => Host.reduce IntOp.andi x v reducesTo_S128x32768_S_d0_1 h_S_) main_v11 main_c_3
  let main_v13 : IVec S_ 1 := andi main_v8 main_v12
  let main_v14 : FVec F S128x32768 .f32 := Host.absf main_arg3
  let main_cst_4 : FVec F S_ .f32 := constant S_ .f32 0x7F800000#32
  let main_v15 : FVec F S128x32768 .f32 := broadcastInDim S128x32768 ![] bcast_S_S128x32768 main_cst_4
  let main_v16 : IVec S128x32768 1 := cmpf .olt main_v14 main_v15
  fn_part1 (F := F) main_arg4 main_arg5 main_v13 main_v16
-- ==== Kernel.lean ====
abbrev S4096x32768 : Shape := ⟨2, ![4096, 32768]⟩
abbrev S128x32768 : Shape := ⟨2, ![128, 32768]⟩
abbrev S4096x128 : Shape := ⟨2, ![4096, 128]⟩
abbrev S128x1 : Shape := ⟨2, ![128, 1]⟩
abbrev S128x2048 : Shape := ⟨2, ![128, 2048]⟩
abbrev S128 : Shape := ⟨1, ![128]⟩
abbrev S2x4096x128 : Shape := ⟨3, ![2, 4096, 128]⟩
abbrev S2048x512 : Shape := ⟨2, ![2048, 512]⟩
abbrev S128x512 : Shape := ⟨2, ![128, 512]⟩
abbrev S2048x128 : Shape := ⟨2, ![2048, 128]⟩
abbrev S2x2048x128 : Shape := ⟨3, ![2, 2048, 128]⟩
abbrev S1x2048x128 : Shape := ⟨3, ![1, 2048, 128]⟩
abbrev S_ : Shape := ⟨0, ![]⟩

abbrev nBuf : Space → Nat
  | .hbm => 14
  | .vmem => 26
  | .smem => 0
  | _ => 0

abbrev bufTy : (tb : Table) → Fin (tcTables nBuf tb) → BufTy
  | .hbm, ⟨0, _⟩ => ⟨S4096x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S128x32768, .f32⟩
  | .hbm, ⟨5, _⟩ => ⟨S4096x128, .f32⟩
  | .hbm, ⟨6, _⟩ => ⟨S128x32768, .bf16⟩
  | .hbm, ⟨7, _⟩ => ⟨S128x32768, .bf16⟩
  | .hbm, ⟨8, _⟩ => ⟨S128x1, .f32⟩
  | .hbm, ⟨9, _⟩ => ⟨S2x4096x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x1, .f32⟩
  | .local _ .vmem, ⟨13, _⟩ => ⟨S128x1, .f32⟩
  | .local _ .vmem, ⟨14, _⟩ => ⟨S2048x512, .f32⟩
  | .local _ .vmem, ⟨15, _⟩ => ⟨S2048x512, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S2048x128, .f32⟩
  | .local _ .vmem, ⟨21, _⟩ => ⟨S2048x128, .f32⟩
  | .local _ .vmem, ⟨22, _⟩ => ⟨S2x2048x128, .f32⟩
  | .local _ .vmem, ⟨23, _⟩ => ⟨S2x2048x128, .f32⟩
  | .local _ .vmem, ⟨24, _⟩ => ⟨S2048x128, .f32⟩
  | .local _ .vmem, ⟨25, _⟩ => ⟨S2048x128, .f32⟩
  | _, _ => ⟨S4096x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_26 : BitVec 32 := 0#32
  let v64 : BitVec 1 := Scalar.cmpi .ne v63 c0_i32_26
  v64

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v23 : BitVec 1 := Scalar.cmpi .eq arg1 c63_i32
  let v24 : BitVec 32 := Scalar.extui v23
  let c0_i32_15 : BitVec 32 := 0#32
  let v25 : BitVec 1 := Scalar.cmpi .ne v24 c0_i32_15
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  packedbf16_S128x2048_S128x2048_0_0 : (Rect.unit (s := S128x2048) ![0, 0] S128x2048.size inb_S128x2048_S128x2048_0_0).PackedRows (EltTy.packing .bf16)
  reduces_S128x2048_S128 : S128x2048.Reduces [1] S128
  shapeCasts_S128_S128x1 : S128.ShapeCasts S128x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2x2048x128_S1x2048x128_0_0_0 : ∀ a, (![0, 0, 0] : Fin 3 → Nat) a + S1x2048x128.size a ≤ S2x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S2x2048x128_S1x2048x128_1_0_0 : ∀ a, (![1, 0, 0] : Fin 3 → Nat) a + S1x2048x128.size a ≤ S2x2048x128.size a
  reducesTo_S128x1_S_d0_1 : S128x1.ReducesTo [0, 1] S_
  h_S_ : 0 < S_.numel
  dot_S2048x512_S128x512_S2048x128_1_1_0_0_n_n_wf : DotDims.WF S2048x512 S128x512 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S128x32768.size a
  hwx0_0 : ∀ i : grid0.Coords, EltTy.bits .f32 = 32 ∨ (Rect.block (s := S128x32768) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x32768.size a
  hwx0_1 : ∀ i : grid0.Coords, EltTy.bits .f32 = 32 ∨ (Rect.block (s := S128x32768) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x32768.size a
  hwx0_2 : ∀ i : grid0.Coords, EltTy.bits .f32 = 32 ∨ (Rect.block (s := S128x32768) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x32768.size a
  hwx0_3 : ∀ i : grid0.Coords, EltTy.bits .f32 = 32 ∨ (Rect.block (s := S128x32768) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x32768.size a
  hwx0_4 : ∀ i : grid0.Coords, EltTy.bits .bf16 = 32 ∨ (Rect.block (s := S128x32768) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x32768.size a
  hwx0_5 : ∀ i : grid0.Coords, EltTy.bits .bf16 = 32 ∨ (Rect.block (s := S128x32768) S128x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S4096x32768.size a
  hwx1_0 : ∀ i : grid1.Coords, EltTy.bits .f32 = 32 ∨ (Rect.block (s := S4096x32768) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x32768.size a
  hwx1_1 : ∀ i : grid1.Coords, EltTy.bits .bf16 = 32 ∨ (Rect.block (s := S128x32768) S128x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x32768.size a
  hwx1_2 : ∀ i : grid1.Coords, EltTy.bits .bf16 = 32 ∨ (Rect.block (s := S128x32768) S128x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S4096x128.size a
  hwx1_3 : ∀ i : grid1.Coords, EltTy.bits .f32 = 32 ∨ (Rect.block (s := S4096x128) S2048x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x2048x128.size a ≤ S2x4096x128.size a
  hwx1_4 : ∀ i : grid1.Coords, EltTy.bits .f32 = 32 ∨ (Rect.block (s := S2x4096x128) S2x2048x128.size (cc1_transform_4 i) (hinb1_4 i)).WholeWords (EltTy.packing .f32)

variable [Facts₀]

def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf

abbrev win0_0 : Pipeline.Window sig grid0 :=
  Pipeline.Window.ofSpec (Memref.whole main_arg1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S128x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S128x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2x2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x32768 : Shape := ⟨2, ![4096, 32768]⟩
abbrev S128x32768 : Shape := ⟨2, ![128, 32768]⟩
abbrev S4096x128 : Shape := ⟨2, ![4096, 128]⟩
abbrev S_ : Shape := ⟨0, ![]⟩
abbrev S32768x128 : Shape := ⟨2, ![32768, 128]⟩
abbrev S1x4096x128 : Shape := ⟨3, ![1, 4096, 128]⟩
abbrev S2x4096x128 : Shape := ⟨3, ![2, 4096, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x32768, .f32⟩
  | .hbm, ⟨1, _⟩ => ⟨S128x32768, .f32⟩
  | .hbm, ⟨2, _⟩ => ⟨S128x32768, .f32⟩
  | .hbm, ⟨3, _⟩ => ⟨S128x32768, .f32⟩
  | .hbm, ⟨4, _⟩ => ⟨S128x32768, .f32⟩
  | .hbm, ⟨5, _⟩ => ⟨S4096x128, .f32⟩
  | .hbm, ⟨6, _⟩ => ⟨S_, .f32⟩
  | .hbm, ⟨7, _⟩ => ⟨S128x32768, .f32⟩
  | .hbm, ⟨8, _⟩ => ⟨S128x32768, .f32⟩
  | .hbm, ⟨9, _⟩ => ⟨S_, .f32⟩
  | .hbm, ⟨10, _⟩ => ⟨S128x32768, .f32⟩
  | .hbm, ⟨11, _⟩ => ⟨S128x32768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128x32768, .f32⟩
  | .hbm, ⟨16, _⟩ => ⟨S128x32768, .f32⟩
  | .hbm, ⟨17, _⟩ => ⟨S_, .f32⟩
  | .hbm, ⟨18, _⟩ => ⟨S128x32768, .f32⟩
  | .hbm, ⟨19, _⟩ => ⟨S128x32768, .f32⟩
  | .hbm, ⟨20, _⟩ => ⟨S128x32768, .f32⟩
  | .hbm, ⟨21, _⟩ => ⟨S128x32768, .f32⟩
  | .hbm, ⟨22, _⟩ => ⟨S128x32768, .f32⟩
  | .hbm, ⟨23, _⟩ => ⟨S128x32768, .f32⟩
  | .hbm, ⟨24, _⟩ => ⟨S128x32768, .f32⟩
  | .hbm, ⟨25, _⟩ => ⟨S128x32768, .f32⟩
  | .hbm, ⟨26, _⟩ => ⟨S128x32768, .f32⟩
  | .hbm, ⟨27, _⟩ => ⟨S128x32768, .f32⟩
  | .hbm, ⟨28, _⟩ => ⟨S32768x128, .f32⟩
  | .hbm, ⟨29, _⟩ => ⟨S4096x128, .f32⟩
  | .hbm, ⟨30, _⟩ => ⟨S4096x32768, .f32⟩
  | .hbm, ⟨31, _⟩ => ⟨S32768x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S1x4096x128, .f32⟩
  | .hbm, ⟨38, _⟩ => ⟨S1x4096x128, .f32⟩
  | .hbm, ⟨39, _⟩ => ⟨S2x4096x128, .f32⟩
  | .hbm, ⟨40, _⟩ => ⟨S128x32768, .f32⟩
  | .hbm, ⟨41, _⟩ => ⟨S128x32768, .f32⟩
  | .hbm, ⟨42, _⟩ => ⟨S128x32768, .f32⟩
  | .hbm, ⟨43, _⟩ => ⟨S128x32768, .f32⟩
  | .hbm, ⟨44, _⟩ => ⟨S_, .f32⟩
  | .hbm, ⟨45, _⟩ => ⟨S128x32768, .f32⟩
  | .hbm, ⟨46, _⟩ => ⟨S128x32768, .f32⟩
  | .hbm, ⟨47, _⟩ => ⟨S128x32768, .f32⟩
  | .hbm, ⟨48, _⟩ => ⟨S128x32768, .f32⟩
  | .hbm, ⟨49, _⟩ => ⟨S128x32768, .f32⟩
  | .hbm, ⟨50, _⟩ => ⟨S128x32768, .f32⟩
  | .hbm, ⟨51, _⟩ => ⟨S128x32768, .f32⟩
  | .hbm, ⟨52, _⟩ => ⟨S128x32768, .f32⟩
  | .hbm, ⟨53, _⟩ => ⟨S128x32768, .f32⟩
  | .hbm, ⟨54, _⟩ => ⟨S128x32768, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S128x32768, .f32⟩
  | .hbm, ⟨61, _⟩ => ⟨S128x32768, .f32⟩
  | .hbm, ⟨62, _⟩ => ⟨S_, .f32⟩
  | .hbm, ⟨63, _⟩ => ⟨S128x32768, .f32⟩
  | .hbm, ⟨64, _⟩ => ⟨S128x32768, .f32⟩
  | .hbm, ⟨65, _⟩ => ⟨S_, .f32⟩
  | .hbm, ⟨66, _⟩ => ⟨S128x32768, .f32⟩
  | .hbm, ⟨67, _⟩ => ⟨S128x32768, .f32⟩
  | .hbm, ⟨68, _⟩ => ⟨S128x32768, .f32⟩
  | .hbm, ⟨69, _⟩ => ⟨S128x32768, .f32⟩
  | .hbm, ⟨70, _⟩ => ⟨S_, .f32⟩
  | .hbm, ⟨71, _⟩ => ⟨S128x32768, .f32⟩
  | .hbm, ⟨72, _⟩ => ⟨S128x32768, .f32⟩
  | .hbm, ⟨73, _⟩ => ⟨S128x32768, .f32⟩
  | .hbm, ⟨74, _⟩ => ⟨S128x32768, .f32⟩
  | .hbm, ⟨75, _⟩ => ⟨S128x32768, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  bcast_S_S128x32768 : S_.BroadcastsInDim S128x32768 (![] : Fin 0 → Fin S128x32768.rank)
  transposes_S128x32768_S32768x128_1_0 : S128x32768.Transposes [1, 0] S32768x128
  bcast_S4096x128_S1x4096x128_1_2 : S4096x128.BroadcastsInDim S1x4096x128 (![1, 2] : Fin 2 → Fin S1x4096x128.rank)
  concatenates_S1x4096x128_S1x4096x128_S2x4096x128_d0 : Shape.Concatenates [S1x4096x128, S1x4096x128] S2x4096x128 0
  reducesTo_S128x32768_S_d0_1 : S128x32768.ReducesTo [0, 1] S_
  h_S_ : 0 < S_.numel
  dot_S4096x32768_S32768x128_S4096x128_1_0_0_1_n_n_wf : DotDims.WF S4096x32768 S32768x128 S4096x128 [1] [0] [0] [1] [] []

variable [Facts₀]

def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf

class Facts : Prop extends Facts₀ where

variable [Facts]
-- ==== Proof.R0Base.lean ====
/- The first pallas_call of the program (a 16-point grid; each point reads one 128×2048 column block of four
   arrays, writes the matching block of two bf16 arrays, and adds the block's row sums of a per-entry term into a
   128×1 accumulator that lives in a scratch buffer from the first point to the last, where it is copied out).
   This module holds what the three runs of the body and the frame built on them share: the blocks read off the
   arrays as the region finds them, the two branch conditions in closed form, the points at which the last output
   is left alone, and the region's invariant with the accumulator's buffer set apart. -/
import proofs.«157670_j57638461112382_2_alg».proof.Proof.Gen.KernelIdeal.Launch
import proofs.«157670_j57638461112382_2_alg».proof.Proof.Gen.KernelIdeal.Skeleton
import proofs.«157670_j57638461112382_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what the TensorCore's buffers hold when the region is entered: everything below is stated at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever the schedule did at a point, its current staging buffer holds the window's block there
    (a point that does not fetch has not moved the block index), for any proof data over the arrays `V` whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever the schedule did at a point, its current staging buffer holds the window's block there
    (a point that does not fetch has not moved the block index), for any proof data over the arrays `V` whose body
    leaves that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever the schedule did at a point, its current staging buffer holds the window's block there
    (a point that does not fetch has not moved the block index), for any proof data over the arrays `V` whose body
    leaves that block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever the schedule did at a point, its current staging buffer holds the window's block there
    (a point that does not fetch has not moved the block index), for any proof data over the arrays `V` whose body
    leaves that block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions -/

/-- The first `scf.if` (reset the accumulator): the grid coordinate is 0. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if` (copy the accumulator out): the grid coordinate is 15. -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where a window is left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second condition fails, the last output is idle (nothing is stored into it) -/
theorem idleAt0_6 : ∀ t : Fin cfg0.N, ¬cond0_1 (grid0.coords t) → cfg0.idle 6 (grid0.coords t) = true := by decide +kernel
/-- and is not written back; -/
theorem noFlush0_6 : ∀ t : Fin cfg0.N, ¬cond0_1 (grid0.coords t) → (cfg0.win 6).flush t = false := by decide +kernel
/-- where it holds, the window is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
/-- The accumulator's buffer: a whole scoped buffer of the kernel's own. -/
abbrev scM0_0 : Memref sig .tc .vmem S128x1 .f32 := Memref.whole cc0_scratch0
/-- Views through which contents are stated: the accumulator's, and one staging buffer of each output (which one
    does not matter: a covering list of stores reads back the same through any view). -/
abbrev VS0_0 : View sig .tc .vmem S128x1 .f32 := scM0_0.view
abbrev VO0_4 : View sig .tc .vmem S128x2048 .bf16 := (Memref.whole cc0_stg4_0 : Memref sig .tc .vmem S128x2048 .bf16).view
abbrev VO0_5 : View sig .tc .vmem S128x2048 .bf16 := (Memref.whole cc0_stg5_0 : Memref sig .tc .vmem S128x2048 .bf16).view
abbrev VO0_6 : View sig .tc .vmem S128x1 .f32 := (Memref.whole cc0_stg6_0 : Memref sig .tc .vmem S128x1 .f32).view

/-! ## The region's invariant -/

/-- The scoped buffers the first kernel never touches (the second kernel's staging and scratch buffers), each whole at
    some contents: carried through every point as one conjunct. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region's invariant as the launch states it, with the accumulator's buffer set apart as a memref owned at some
    contents: the accumulator, the untouched scoped buffers, the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole]; unfold rest0; try rfl

end Cert.KernelIdeal.Hand

end
-- ==== Proof.R0RunA.lean ====
/- The body at the grid's first point: the accumulator is reset to zero before this block's row sums are added, and
   nothing is copied out.
   The run is a triple of the whole body on any whole memrefs: the four inputs at named contents and handed back as
   they were, the two bf16 outputs at anything and handed back with this point's stores written (the last output's
   buffer is not touched and does not appear), the accumulator at anything and handed back with its stores written. What the stores are is found by
   running the body; the lists of pieces are the witness. -/
import proofs.«157670_j57638461112382_2_alg».proof.Proof.R0Base

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case the first \`scf.if\` taken, the second not, with the proof
    that from the buffers as described above the body runs to any continuation that accepts them with those pieces
    written. -/
noncomputable def kernelRun0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) :
    Σ' (L4 : List (View.Piece (Elt F) S128x2048 .bf16)) (L5 : List (View.Piece (Elt F) S128x2048 .bf16)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Hand

end
-- ==== Proof.R0RunB.lean ====
/- The body at a point that is neither the first nor the last: the accumulator, at what the point before left in it,
   receives this block's row sums; nothing is reset and nothing is copied out.
   The run is a triple of the whole body on any whole memrefs: the four inputs at named contents and handed back as
   they were, the two bf16 outputs at anything and handed back with this point's stores written (the last output's
   buffer is not touched and does not appear), the accumulator at named contents and handed back with its stores written. What the stores are is found by
   running the body; the lists of pieces are the witness. -/
import proofs.«157670_j57638461112382_2_alg».proof.Proof.R0RunA

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case neither \`scf.if\` taken, with the proof
    that from the buffers as described above the body runs to any continuation that accepts them with those pieces
    written. -/
noncomputable def kernelRun0_B (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) :
    Σ' (L4 : List (View.Piece (Elt F) S128x2048 .bf16)) (L5 : List (View.Piece (Elt F) S128x2048 .bf16)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Hand

end
-- ==== Proof.R0RunC.lean ====
/- The body at the grid's last point: the accumulator, at what the point before left in it, receives this block's row
   sums and is then copied into the last output's buffer.
   The run is a triple of the whole body on any whole memrefs: the four inputs at named contents and handed back as
   they were, the two bf16 outputs at anything and handed back with this point's stores written, the last output likewise, the accumulator at named contents and handed back with its stores written. What the stores are is found by
   running the body; the lists of pieces are the witness. -/
import proofs.«157670_j57638461112382_2_alg».proof.Proof.R0RunB

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case the first \`scf.if\` not taken, the second taken, with the proof
    that from the buffers as described above the body runs to any continuation that accepts them with those pieces
    written. -/
noncomputable def kernelRun0_C (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    Σ' (L4 : List (View.Piece (Elt F) S128x2048 .bf16)) (L5 : List (View.Piece (Elt F) S128x2048 .bf16)) (L6 : List (View.Piece (Elt F) S128x1 .f32)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.KernelIdeal.Hand

end
-- ==== Proof.R0Frame.lean ====
/- The first pallas_call's region, from the three runs of its body: what each case leaves in the buffers it
   writes (its stores cover them, so any earlier contents are gone), what the outputs and the accumulator hold after
   each of the 16 points (by recursion on the point: the accumulator is carried from one point to the next), the
   invariant between points, the proof data and the body obligation of the pipeline library, and the two entailments
   that tie the invariant to what the launch hands over and takes back. -/
import proofs.«157670_j57638461112382_2_alg».proof.Proof.R0RunC

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what the TensorCore's buffers hold when the region is entered
variable (V : (c : Dev nD) → (b : Ref sig .tc) → Buf (Elt F) ((c : Thread nD τ).loc b))

/-! ## What each case leaves -/

/-- Case A: the stores into the first bf16 output tile its buffer, so every index lies in one of them. -/
theorem cover0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x2048.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S128x2048.size (by sl_kernel_rfl) y

/-- Case A: what the body leaves in the first bf16 output — its stores read back (over anything: they cover). -/
def out0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x2048 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A: the stores into the second bf16 output tile its buffer, so every index lies in one of them. -/
theorem cover0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x2048.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S128x2048.size (by sl_kernel_rfl) y

/-- Case A: what the body leaves in the second bf16 output — its stores read back (over anything: they cover). -/
def out0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x2048 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A: the stores into the accumulator tile its buffer, so every index lies in one of them. -/
theorem scover0_A_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x1.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S128x1.size (by sl_kernel_rfl) y

/-- Case A: what the body leaves in the accumulator — its stores read back (over anything: they cover). -/
def sout0_A_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x1 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

/-- Case A stores nothing into the last output: the window is idle there and not written back, and this
    placeholder (nothing read back) is consulted by nobody. -/
def out0_A_6 : Vec F S128x1 .f32 :=
  VO0_6.read (Elt F) (VO0_6.writes (Elt F) VO0_6.junk [])

/-- Case B: the stores into the first bf16 output tile its buffer, so every index lies in one of them. -/
theorem cover0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_B c i arg1 harg1 arg2 harg2 arg3 harg3 arg4 harg4 arg5 harg5 arg6 harg6 arg7 harg7 arg8 harg8 hc0 hc1 x0 x1 x2 x3 xs0).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).1 S128x2048.size (by sl_kernel_rfl) y

/-- Case B: what the body leaves in the first bf16 output — its stores read back (over anything: they cover). -/
def out0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0).1)

/-- Case B: the stores into the second bf16 output tile its buffer, so every index lies in one of them. -/
theorem cover0_B_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_B c i arg1 harg1 arg2 harg2 arg3 harg3 arg4 harg4 arg5 harg5 arg6 harg6 arg7 harg7 arg8 harg8 hc0 hc1 x0 x1 x2 x3 xs0).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).2.1 S128x2048.size (by sl_kernel_rfl) y

/-- Case B: what the body leaves in the second bf16 output — its stores read back (over anything: they cover). -/
def out0_B_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0).2.1)

/-- Case B: the stores into the accumulator tile its buffer, so every index lies in one of them. -/
theorem scover0_B_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_B c i arg1 harg1 arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).2.2.1 S128x1.size (by sl_kernel_rfl) y

/-- Case B: what the body leaves in the accumulator — its stores read back (over anything: they cover). -/
def sout0_B_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x1 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0).2.2.1)

/-- Case B stores nothing into the last output: the window is idle there and not written back, and this
    placeholder (nothing read back) is consulted by nobody. -/
def out0_B_6 : Vec F S128x1 .f32 :=
  VO0_6.read (Elt F) (VO0_6.writes (Elt F) VO0_6.junk [])

/-- Case C: the stores into the first bf16 output tile its buffer, so every index lies in one of them. -/
theorem cover0_C_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_C c i arg1 harg1 arg2 harg2 arg3 harg3 arg4 harg4 arg5 harg5 arg6 harg6 arg7 harg7 arg8 harg8 hc0 hc1 x0 x1 x2 x3 xs0).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).1 S128x2048.size (by sl_kernel_rfl) y

/-- Case C: what the body leaves in the first bf16 output — its stores read back (over anything: they cover). -/
def out0_C_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0).1)

/-- Case C: the stores into the second bf16 output tile its buffer, so every index lies in one of them. -/
theorem cover0_C_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_C c i arg1 harg1 arg2 harg2 arg3 harg3 arg4 harg4 arg5 harg5 arg6 harg6 arg7 harg7 arg8 harg8 hc0 hc1 x0 x1 x2 x3 xs0).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.1 S128x2048.size (by sl_kernel_rfl) y

/-- Case C: what the body leaves in the second bf16 output — its stores read back (over anything: they cover). -/
def out0_C_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0).2.1)

/-- Case C: the stores into the last output tile its buffer, so every index lies in one of them. -/
theorem cover0_C_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_C c i arg1 harg1 arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.2.1 S128x1.size (by sl_kernel_rfl) y

/-- Case C: what the body leaves in the last output — its stores read back (over anything: they cover). -/
def out0_C_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x1 .f32 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 xs0).2.2.1)

/-- Case C: the stores into the accumulator tile its buffer, so every index lies in one of them. -/
theorem scover0_C_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_C c i arg1 harg1 arg2 harg2 arg3 harg3 arg4 harg4 arg5 harg5 arg6 harg6 arg7 harg7 arg8 harg8 hc0 hc1 x0 x1 x2 x3 xs0).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.2.2.1 S128x1.size (by sl_kernel_rfl) y

/-- Case C: what the body leaves in the accumulator — its stores read back (over anything: they cover). -/
def sout0_C_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x1 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0).2.2.2.1)

/-! ## What the outputs and the accumulator hold after each point -/

/-- After the body at position `n`: the two bf16 outputs' buffers, the last output's buffer and the accumulator, as
    the case the point is in leaves them — the first point resets, the last copies out, the others only add —, the
    accumulator read at what the point before left in it. -/
def outsAt0 (c : Dev nD) : (n : ℕ) → n < cfg0.N → Vec F S128x2048 .bf16 × Vec F S128x2048 .bf16 × Vec F S128x1 .f32 × Vec F S128x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : (n + 1) % 16 = 15 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

/-- At the first point: the resetting case. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t), out0_A_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (by exfalso; (try dsimp only at h0); have hN : n + 1 < 16 := lt_of_lt_of_eq hn (show cfg0.N = 16 from N_0); omega)

/-- At a point strictly between the first and the last: the adding case, over what the point before left. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2, out0_B_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- At the last point: the copying case, over what the point before left. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start what the launch hands over (the accumulator's buffer at anything); afterwards
    the accumulator's buffer at what the point before left in it; throughout, the untouched scoped buffers and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2) ∗ rest0 c) ∗ (∃ r, prngReg c r)) := by
  cases n with
  | zero => exact absurd rfl hz
  | succ n => rfl

/-! ## The proof data -/

/-- The region's proof data on core `c`: the arrays as the region finds them; after the body at a point each input's
    buffer still at its block and each output's at what `outsAt0` says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem aft0_0 (c : Dev nD) (t : Fin cfg0.N) : (dat0 V c).after 0 t = iblk0 V c 0 t := by dsimp only [dat0]
theorem aft0_1 (c : Dev nD) (t : Fin cfg0.N) : (dat0 V c).after 1 t = iblk0 V c 1 t := by dsimp only [dat0]
theorem aft0_2 (c : Dev nD) (t : Fin cfg0.N) : (dat0 V c).after 2 t = iblk0 V c 2 t := by dsimp only [dat0]
theorem aft0_3 (c : Dev nD) (t : Fin cfg0.N) : (dat0 V c).after 3 t = iblk0 V c 3 t := by dsimp only [dat0]
theorem aft0_4 (c : Dev nD) (t : Fin cfg0.N) : (dat0 V c).after 4 t = (outsAt0 V c t.val t.isLt).1 := by dsimp only [dat0]
theorem aft0_5 (c : Dev nD) (t : Fin cfg0.N) : (dat0 V c).after 5 t = (outsAt0 V c t.val t.isLt).2.1 := by dsimp only [dat0]
theorem aft0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (aft0_0 V c) t d
theorem before0_1 (c : Dev nD) (t : Fin cfg0.N) (d) : (dat0 V c).before 1 t d = iblk0 V c 1 t :=
  before0_1_of V (dat0 V c) (A_eq0 V c 1) (aft0_1 V c) t d
theorem before0_2 (c : Dev nD) (t : Fin cfg0.N) (d) : (dat0 V c).before 2 t d = iblk0 V c 2 t :=
  before0_2_of V (dat0 V c) (A_eq0 V c 2) (aft0_2 V c) t d
theorem before0_3 (c : Dev nD) (t : Fin cfg0.N) (d) : (dat0 V c).before 3 t d = iblk0 V c 3 t :=
  before0_3_of V (dat0 V c) (A_eq0 V c 3) (aft0_3 V c) t d

/-! ## The body obligation -/

/-- What the body is called with at point `t`: the invariant, the owed tallies, each window's current buffer at what
    it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the point's position says which of the three cases
    it is in; that case's run applies: the invariant lends it the accumulator's buffer (at anything at the first
    point, else at what the point before left) and takes it back at this point's contents, the outputs' buffers come
    back with stores that cover them, and the last output, where the body does not touch it, is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], aft0_0]
  rw [show (dat0 V c).leavesExact 1 t = owns (c : Thread nD τ) (ms0_1 t) fullShare ((dat0 V c).after 1 t) from by
    unfold Dat.leavesExact; rw [liveAt0_1 t], aft0_1]
  rw [show (dat0 V c).leavesExact 2 t = owns (c : Thread nD τ) (ms0_2 t) fullShare ((dat0 V c).after 2 t) from by
    unfold Dat.leavesExact; rw [liveAt0_2 t], aft0_2]
  rw [show (dat0 V c).leavesExact 3 t = owns (c : Thread nD τ) (ms0_3 t) fullShare ((dat0 V c).after 3 t) from by
    unfold Dat.leavesExact; rw [liveAt0_3 t], aft0_3]
  rw [show (dat0 V c).leavesExact 4 t = owns (c : Thread nD τ) (ms0_4 t) fullShare ((dat0 V c).after 4 t) from by
    unfold Dat.leavesExact; rw [liveAt0_4 t], aft0_4]
  rw [show (dat0 V c).leavesExact 5 t = owns (c : Thread nD τ) (ms0_5 t) fullShare ((dat0 V c).after 5 t) from by
    unfold Dat.leavesExact; rw [liveAt0_5 t], aft0_5]
  by_cases h0 : t.val % 16 = 0
  · have h1 : ¬t.val % 16 = 15 := by omega
    have hz : t.val = 0 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 out0_A_5 sout0_A_0; (try dsimp only)
    rw [PhiS0_castSucc V c t, PhiS0_zero V c _ _ hz, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, H6⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    iexact H6
  by_cases h1 : t.val % 16 = 15
  · have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], aft0_6]
    rw [outsAt0_C V c t h0 h1]
    unfold out0_C_4 out0_C_5 out0_C_6 sout0_C_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _)
  · have hz : t.val ≠ 0 := by omega
    rw [Dat.leavesExact_idle (dat0 V c) 6 t (idleAt0_6 t (fun h => h1 ((hcond0_1 t).mp h))) (noFlush0_6 t (fun h => h1 ((hcond0_1 t).mp h)))]
    rw [outsAt0_B V c t h0 h1]
    unfold out0_B_4 out0_B_5 sout0_B_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, H6⟩
    iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _)
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- In particular after the last point. -/
theorem hout0 (c : Dev nD) : (dat0 V c).Φ (Fin.last cfg0.N) ⊢ Pipeline.ΦA spec0 c :=
  Phi_out0 V c _ (by rw [Fin.val_last]; have : cfg0.N = 16 := N_0; omega)

end Region

end Cert.KernelIdeal.Hand

end
-- ==== Proof.R1Base.lean ====
/- Region 1 (the second pallas_call, the matmul kernel on the 2 x 64 grid), shared definitions: the blocks of the
   five windows read off the contents the region is entered with, the closed forms of the kernel's two
   conditions over the grid, where the output window is idle, the staging and scratch memrefs by name, and
   the class invariant with the two accumulators kept apart from the fourteen other scoped buffers. -/
import proofs.«157670_j57638461112382_2_alg».proof.Proof.Gen.KernelIdeal.Launch
import proofs.«157670_j57638461112382_2_alg».proof.Proof.Gen.KernelIdeal.Skeleton
import proofs.«157670_j57638461112382_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it
    is not fetched the block index has not moved (window 3 moves only with the first grid coordinate). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The kernel's two conditions over the grid -/

/-- The first conditional's condition (second grid coordinate is 0), from the coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

/-- The second conditional's condition (second grid coordinate is 63). -/
abbrev cond1_1 (i : grid1.Coords) : Prop := k1_cond2 i = 1#1
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails nothing is stored into the output window: idle, and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S2x2048x128 .f32 := (Memref.whole cc1_stg4_0 : Memref sig .tc .vmem S2x2048x128 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x2048x128 .f32 := win1_4.stage (cfg1.slots t 4)
abbrev hs1_4 (t : Fin cfg1.N) : (ms1_4 t).IsWhole := hstage1_4 ((cfg1.slots t 4).cast nbuf1_4)
/-- The two accumulators: whole scoped buffers of the kernel's own, carried from point to point. -/
abbrev scM1_0 : Memref sig .tc .vmem S2048x128 .f32 := Memref.whole cc1_scratch0
abbrev scM1_1 : Memref sig .tc .vmem S2048x128 .f32 := Memref.whole cc1_scratch1
abbrev VS1_0 : View sig .tc .vmem S2048x128 .f32 := scM1_0.view
abbrev VS1_1 : View sig .tc .vmem S2048x128 .f32 := scM1_1.view

/-- The two rectangles the last point of a row stores into the output block: plane 0 and plane 1. -/
abbrev r1_lo : Rect S2x2048x128 := Rect.unit (s := S2x2048x128) ![0, 0, 0] S1x2048x128.size inb_S2x2048x128_S1x2048x128_0_0_0
abbrev r1_hi : Rect S2x2048x128 := Rect.unit (s := S2x2048x128) ![1, 0, 0] S1x2048x128.size inb_S2x2048x128_S1x2048x128_1_0_0

/-! ## The class invariant with the accumulators apart -/

/-- The fourteen scoped buffers this kernel never touches (the first pallas_call's staging buffers and its
    scratch), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f))

theorem PhiA1_elim (c : Dev nD) :
    (Pipeline.ΦA spec1 c : sProp 𝕄)
      ⊢ iprop(iprop(rest1 c ∗ (∃ d, owns (c : Thread nD τ) scM1_0 fullShare d) ∗ (∃ d, owns (c : Thread nD τ) scM1_1 fullShare d)) ∗ (∃ r, prngReg c r)) := by
  unfold Pipeline.ΦA rest1; rw [scopedRest1_eq]; simp only [scM1_0, scM1_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14 HS0 HS1]
  · isplitl [R1 R2 R3 R4 R5 R6 R7 R8 R9 R10 R11 R12 R13 R14]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    isplitl [HS0]; · iexact HS0
    iexact HS1
  iexact Hg

theorem PhiA1_intro (c : Dev nD) :
    iprop(iprop(rest1 c ∗ (∃ d, owns (c : Thread nD τ) scM1_0 fullShare d) ∗ (∃ d, owns (c : Thread nD τ) scM1_1 fullShare d)) ∗ (∃ r, prngReg c r))
      ⊢ (Pipeline.ΦA spec1 c : sProp 𝕄) := by
  unfold Pipeline.ΦA rest1; rw [scopedRest1_eq]; simp only [scM1_0, scM1_1, owns_whole]
  iintro ⟨⟨⟨R1, R2, R3, R4, R5, R6, R7, R8, R9, R10, R11, R12, R13, R14⟩, HS0, HS1⟩, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- The class invariant: the fourteen other scoped buffers, each accumulator owned at some contents, and the
    generator register at some state. -/
theorem PhiA1_eq (c : Dev nD) :
    (Pipeline.ΦA spec1 c : sProp 𝕄)
      = iprop(iprop(rest1 c ∗ (∃ d, owns (c : Thread nD τ) scM1_0 fullShare d) ∗ (∃ d, owns (c : Thread nD τ) scM1_1 fullShare d)) ∗ (∃ r, prngReg c r)) :=
  BI.equiv_iff.mp ⟨PhiA1_elim c, PhiA1_intro c⟩

end Cert.KernelIdeal.Hand

end
-- ==== Proof.R1RunA.lean ====
/- Region 1, the kernel body at a first point of a row (second grid coordinate 0): both accumulators are
   cleared and then receive this point's two partial products; nothing is stored into the output block. The
   stores each buffer ends with are found by running the body. -/
import proofs.«157670_j57638461112382_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition holds and the second fails: on whole memrefs, the inputs at their
    contents, the output block at contents handed back untouched, the accumulators at anything, it runs to the
    continuation with the inputs as they were and each accumulator with its list of stores (last first) written. -/
noncomputable def kernelRun1_A (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) :
    Σ' (L4 : List (View.Piece (Elt F) S2x2048x128 .f32)) (LS0 : List (View.Piece (Elt F) S2048x128 .f32)), { LS1 : List (View.Piece (Elt F) S2048x128 .f32) //
      ∀ (xi4 : Vec F S2x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.R1RunB.lean ====
/- Region 1, the kernel body at an inner point of a row (second grid coordinate strictly between 0 and 63):
   each accumulator, holding what the point before left, receives this point's partial product added to it;
   nothing is stored into the output block. -/
import proofs.«157670_j57638461112382_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where both conditions fail: the accumulators enter at named contents `xs0`, `xs1`. -/
noncomputable def kernelRun1_B (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    Σ' (L4 : List (View.Piece (Elt F) S2x2048x128 .f32)) (LS0 : List (View.Piece (Elt F) S2048x128 .f32)), { LS1 : List (View.Piece (Elt F) S2048x128 .f32) //
      ∀ (xi4 : Vec F S2x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.R1RunC.lean ====
/- Region 1, the kernel body at the last point of a row (second grid coordinate 63): the accumulators receive
   the last partial products, and the two planes of the output block are stored from them and the noise block. -/
import proofs.«157670_j57638461112382_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition fails and the second holds: the output block enters at anything and
    leaves with its list of stores written. -/
noncomputable def kernelRun1_C (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    Σ' (L4 : List (View.Piece (Elt F) S2x2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.R1Frame.lean ====
/- Region 1, the frame: what the output block and the two accumulators hold after each grid point (by
   recursion on the point, through the three cases of the two conditions), the proof data of the pipeline, the
   body obligation at a generic point, and the invariant's two ends. The accumulators are cleared at every
   first point of a row, so what such a point leaves does not depend on the point before. -/
import proofs.«157670_j57638461112382_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The closed forms as the cases' hypotheses -/

theorem isA1 (t : Fin cfg1.N) (h0 : t.val % 64 = 0) : cond1_0 (grid1.coords t) := (hcond1_0 t).mpr h0
theorem notA1 (t : Fin cfg1.N) (h0 : ¬t.val % 64 = 0) : ¬cond1_0 (grid1.coords t) := fun h => h0 ((hcond1_0 t).mp h)
theorem isC1 (t : Fin cfg1.N) (h1 : t.val % 64 = 63) : cond1_1 (grid1.coords t) := (hcond1_1 t).mpr h1
theorem notC1 (t : Fin cfg1.N) (h1 : ¬t.val % 64 = 63) : ¬cond1_1 (grid1.coords t) := fun h => h1 ((hcond1_1 t).mp h)
theorem notC1_of_A (t : Fin cfg1.N) (h0 : t.val % 64 = 0) : ¬cond1_1 (grid1.coords t) := fun h => by
  have h1 := (hcond1_1 t).mp h; omega

/-! ## What each case leaves -/

/-- Case A: the stores into the first accumulator cover it. -/
theorem scover1_A_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) (y : S2048x128.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S2048x128.size (by sl_kernel_rfl) y

/-- What case A leaves in the first accumulator: its stores read back. -/
def sout1_A_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)

/-- Case A: the stores into the second accumulator cover it. -/
theorem scover1_A_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) (y : S2048x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S2048x128.size (by sl_kernel_rfl) y

/-- What case A leaves in the second accumulator. -/
def sout1_A_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) : Vec F S2048x128 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)

/-- Case B: the stores into the first accumulator cover it. -/
theorem scover1_B_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S2048x128.size (by sl_kernel_rfl) y

/-- What case B leaves in the first accumulator: its stores read back. -/
def sout1_B_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)

/-- Case B: the stores into the second accumulator cover it. -/
theorem scover1_B_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S2048x128.size (by sl_kernel_rfl) y

/-- What case B leaves in the second accumulator. -/
def sout1_B_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)

/-- Case C: the stores into the first accumulator cover it. -/
theorem scover1_C_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S2048x128.size (by sl_kernel_rfl) y

/-- What case C leaves in the first accumulator: its stores read back. -/
def sout1_C_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)

/-- Case C: the stores into the second accumulator cover it. -/
theorem scover1_C_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S2048x128.size (by sl_kernel_rfl) y

/-- What case C leaves in the second accumulator. -/
def sout1_C_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)

/-- Case C: the two plane stores tile the output block. -/
theorem cover1_C_4 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2x2048x128.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S1x2048x128.size (by sl_kernel_rfl) y

/-- What case C leaves in the output block: its two stores read back. -/
def out1_C_4 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2x2048x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

/-- Where nothing is stored into the output block its contents are never consulted: a placeholder. -/
def idle1_4 : Vec F S2x2048x128 .f32 := VO1_4.read (Elt F) VO1_4.junk

/-! ## Point by point -/

/-- A first point of a row: the output block untouched, the accumulators at this point's products over zero. -/
def ptA1 (c : Dev nD) (t : Fin cfg1.N) (h0 : t.val % 64 = 0) : Vec F S2x2048x128 .f32 × Vec F S2048x128 .f32 × Vec F S2048x128 .f32 :=
  (idle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (isA1 t h0) (notC1_of_A t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (isA1 t h0) (notC1_of_A t h0) (iblk1 V c 0 t) (iblk1 V c 1 t) (iblk1 V c 2 t) (iblk1 V c 3 t))

/-- An inner point: the accumulators at this point's products over what the point before left (`p0`, `p1`). -/
def ptB1 (c : Dev nD) (t : Fin cfg1.N) (h0 : ¬t.val % 64 = 0) (h1 : ¬t.val % 64 = 63) (p0 p1 : Vec F S2048x128 .f32) : Vec F S2x2048x128 .f32 × Vec F S2048x128 .f32 × Vec F S2048x128 .f32 :=
  (idle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (notC1 t h1) (iblk1 V c 0 t) (iblk1 V c 1 t) (iblk1 V c 2 t) (iblk1 V c 3 t) p0 p1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (notC1 t h1) (iblk1 V c 0 t) (iblk1 V c 1 t) (iblk1 V c 2 t) (iblk1 V c 3 t) p0 p1)

/-- A last point of a row: the same, and the output block stored. -/
def ptC1 (c : Dev nD) (t : Fin cfg1.N) (h0 : ¬t.val % 64 = 0) (h1 : t.val % 64 = 63) (p0 p1 : Vec F S2048x128 .f32) : Vec F S2x2048x128 .f32 × Vec F S2048x128 .f32 × Vec F S2048x128 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1)

/-- What the output block's staging buffer and the two accumulators hold after the body at position `n`. -/
def outsAt1 (c : Dev nD) : (n : ℕ) → n < cfg1.N → Vec F S2x2048x128 .f32 × Vec F S2048x128 .f32 × Vec F S2048x128 .f32
  | 0, hn => ptA1 V c ⟨0, hn⟩ (Nat.zero_mod _)
  | n + 1, hn =>
    if h0 : (n + 1) % 64 = 0 then ptA1 V c ⟨n + 1, hn⟩ h0
    else if h1 : (n + 1) % 64 = 63 then
      ptC1 V c ⟨n + 1, hn⟩ h0 h1 (outsAt1 c n (Nat.lt_of_succ_lt hn)).2.1 (outsAt1 c n (Nat.lt_of_succ_lt hn)).2.2
    else
      ptB1 V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 64 = 0) :
    outsAt1 V c t.val t.isLt = ptA1 V c t h0 := by
  obtain ⟨n, hn⟩ := t
  cases n with
  | zero => exact rfl
  | succ n => exact (dif_pos h0).trans rfl

theorem outsAt1_B (c : Dev nD) (t : Fin cfg1.N) (h0 : ¬t.val % 64 = 0) (h1 : ¬t.val % 64 = 63) :
    outsAt1 V c t.val t.isLt = ptB1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 64 = 0) (h1 : t.val % 64 = 63) :
    outsAt1 V c t.val t.isLt = ptC1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant -/

/-- Before position `n`: at the region's entry the class invariant (the accumulators at anything); afterwards the
    fourteen other scoped buffers, each accumulator at what the point before left, the generator register. -/
def PhiS1 (c : Dev nD) : (n : ℕ) → n ≤ cfg1.N → sProp 𝕄
  | 0, _ => Pipeline.ΦA spec1 c
  | n + 1, hn => iprop(iprop(rest1 c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- What the body leaves in the four input windows: their blocks. -/
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t :=
  ⟨after1_0 V c t, after1_1 V c t, after1_2 V c t, after1_3 V c t⟩

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is
    in; the invariant hands the body the accumulators (at anything where they are cleared first, else at what the
    point before left) and takes them back at this point's contents; an idle output block goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 64 = 0
  · rw [Dat.leavesExact_idle (dat1 V c) 4 t (idleAt1_4 t (notC1_of_A t h0)) (noFlush1_4 t (notC1_of_A t h0))]
    rw [outsAt1_A V c t h0]
    unfold ptA1 sout1_A_0 sout1_A_1; (try dsimp only)
    by_cases hz : t.val = 0
    · rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (isA1 t h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (isA1 t h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 64 = 63
    · rw [show (dat1 V c).leavesExact 4 t = owns (c : Thread nD τ) (ms1_4 t) fullShare ((dat1 V c).after 4 t) from by
        unfold Dat.leavesExact; rw [liveAt1_4 t (isC1 t h1)], after1_4]
      rw [outsAt1_C V c t h0 h1]
      unfold ptC1 out1_C_4 sout1_C_0 sout1_C_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (notA1 t h0) (isC1 t h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (notC1 t h1)) (noFlush1_4 t (notC1 t h1))]
      rw [outsAt1_B V c t h0 h1]
      unfold ptB1 sout1_B_0 sout1_B_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (notA1 t h0) (notC1 t h1) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.Assemble.lean ====
import proofs.«157670_j57638461112382_2_alg».proof.Proof.R0Frame
import proofs.«157670_j57638461112382_2_alg».proof.Proof.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions and the host tail as one run

  @main is: region 0 (the weight transform and the divergence's row sums), region 1 (the two products accumulated over
  the reduction axis, then the two samples), and four host operations (the sum of the row sums and its division by the
  sample count). The buffers' contents at each boundary are a fold from the launch memory: a region leaves its windows'
  arrays at what its write-backs leave and every other buffer as it was; the host tail is its operations applied. -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what region 0 is entered with. -/
abbrev E0 : (c : Dev nD) → (b : Ref sig .tc) → Buf (Elt F) ((c : Thread nD τ).loc b) := fun c b => W0 m c (Proc.devRef .tc b)
/-- After region 0: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What region 1 is entered with. -/
abbrev E1 : (c : Dev nD) → (b : Ref sig .tc) → Buf (Elt F) ((c : Thread nD τ).loc b) := fun c b => W1 m c (Proc.devRef .tc b)
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c (Proc.devRef .tc b)
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the host tail. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (E0 m) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (E1 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (E1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .host (hseg hostOps2 hostOps2_sub hostOps2_fresh' (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds, in every unscoped buffer of every core, the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (StableHlo.after hostOps2 (W2 m c)) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.Frames.lean ====
import proofs.«157670_j57638461112382_2_alg».proof.Proof.Assemble
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched -/

variable (m : (ℓ : Loc nD τ sig) → Buf (Elt F) ℓ) (ρ : Dev nD → PrngReg)

/-- The host tail writes only its own four results. -/
theorem W3_keep (c : Dev nD) (b : Ref sig .tc) (h0 : b ≠ main_cst) (h1 : b ≠ main_v2) (h2 : b ≠ main_cst_0) (h3 : b ≠ main_v3) :
    W3 m c (Proc.devRef .tc b) = W2 m c (Proc.devRef .tc b) :=
  StableHlo.after_of_forall_not_mem (b := Proc.devRef .tc b) _ _ (List.forall_iff_forall_mem.mp (by
    simp only [hostOps2, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

/-- `main_arg0` ends as launched: the host tail does not write it, and each region either stages it through an input window or bypasses it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_keep m c main_arg0 (by decide) (by decide) (by decide) (by decide)
    _ = W1 m c (Proc.devRef .tc main_arg0) := (W2_arr m c 0).trans (((dat1 (E1 m) c).arrAt_in 0 rfl _).trans (A_eq1 (E1 m) c 0))
    _ = W0 m c (Proc.devRef .tc main_arg0) := W1_of_ne m c main_arg0 (by decide)
    _ = m ((c : Thread nD τ).loc main_arg0) := rfl

/-- `main_arg1` ends as launched: the host tail does not write it, and each region either stages it through an input window or bypasses it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_keep m c main_arg1 (by decide) (by decide) (by decide) (by decide)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl

/-- `main_arg2` ends as launched: the host tail does not write it, and each region either stages it through an input window or bypasses it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_keep m c main_arg2 (by decide) (by decide) (by decide) (by decide)
    _ = W1 m c (Proc.devRef .tc main_arg2) := W2_of_ne m c main_arg2 (by decide)
    _ = W0 m c (Proc.devRef .tc main_arg2) := (W1_arr m c 1).trans (((dat0 (E0 m) c).arrAt_in 1 rfl _).trans (A_eq0 (E0 m) c 1))
    _ = m ((c : Thread nD τ).loc main_arg2) := rfl

/-- `main_arg3` ends as launched: the host tail does not write it, and each region either stages it through an input window or bypasses it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_keep m c main_arg3 (by decide) (by decide) (by decide) (by decide)
    _ = W1 m c (Proc.devRef .tc main_arg3) := W2_of_ne m c main_arg3 (by decide)
    _ = W0 m c (Proc.devRef .tc main_arg3) := (W1_arr m c 2).trans (((dat0 (E0 m) c).arrAt_in 2 rfl _).trans (A_eq0 (E0 m) c 2))
    _ = m ((c : Thread nD τ).loc main_arg3) := rfl

/-- `main_arg4` ends as launched: the host tail does not write it, and each region either stages it through an input window or bypasses it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_keep m c main_arg4 (by decide) (by decide) (by decide) (by decide)
    _ = W1 m c (Proc.devRef .tc main_arg4) := W2_of_ne m c main_arg4 (by decide)
    _ = W0 m c (Proc.devRef .tc main_arg4) := (W1_arr m c 3).trans (((dat0 (E0 m) c).arrAt_in 3 rfl _).trans (A_eq0 (E0 m) c 3))
    _ = m ((c : Thread nD τ).loc main_arg4) := rfl

/-- `main_arg5` ends as launched: the host tail does not write it, and each region either stages it through an input window or bypasses it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_keep m c main_arg5 (by decide) (by decide) (by decide) (by decide)
    _ = W1 m c (Proc.devRef .tc main_arg5) := (W2_arr m c 3).trans (((dat1 (E1 m) c).arrAt_in 3 rfl _).trans (A_eq1 (E1 m) c 3))
    _ = W0 m c (Proc.devRef .tc main_arg5) := W1_of_ne m c main_arg5 (by decide)
    _ = m ((c : Thread nD τ).loc main_arg5) := rfl

/-- THE FRAME at any `F`: every weakly fair execution of @main terminates, nothing faulting, and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.KernelIdeal.Hand

end
-- ==== Proof.WR0Base.lean ====
/- The first pallas_call of the program (a 16-point grid; each point reads one 128×2048 column block of four
   arrays, writes the matching block of two bf16 arrays, and adds the block's row sums of a per-entry term into a
   128×1 accumulator that lives in a scratch buffer from the first point to the last, where it is copied out).
   This module holds what the three runs of the body and the frame built on them share: the blocks read off the
   arrays as the region finds them, the two branch conditions in closed form, the points at which the last output
   is left alone, and the region's invariant with the accumulator's buffer set apart. -/
import proofs.«157670_j57638461112382_2_alg».proof.Proof.Gen.Kernel.Launch
import proofs.«157670_j57638461112382_2_alg».proof.Proof.Gen.Kernel.Skeleton
import proofs.«157670_j57638461112382_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a 2048-long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what the TensorCore's buffers hold when the region is entered: everything below is stated at this parameter
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever the schedule did at a point, its current staging buffer holds the window's block there
    (a point that does not fetch has not moved the block index), for any proof data over the arrays `V` whose body
    leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever the schedule did at a point, its current staging buffer holds the window's block there
    (a point that does not fetch has not moved the block index), for any proof data over the arrays `V` whose body
    leaves that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever the schedule did at a point, its current staging buffer holds the window's block there
    (a point that does not fetch has not moved the block index), for any proof data over the arrays `V` whose body
    leaves that block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever the schedule did at a point, its current staging buffer holds the window's block there
    (a point that does not fetch has not moved the block index), for any proof data over the arrays `V` whose body
    leaves that block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The two branch conditions -/

/-- The first `scf.if` (reset the accumulator): the grid coordinate is 0. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if` (copy the accumulator out): the grid coordinate is 15. -/
abbrev cond0_1 (i : grid0.Coords) : Prop := k0_cond2 i = 1#1
/-- It holds at point 15 only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where a window is left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Where the second condition fails, the last output is idle (nothing is stored into it) -/
theorem idleAt0_6 : ∀ t : Fin cfg0.N, ¬cond0_1 (grid0.coords t) → cfg0.idle 6 (grid0.coords t) = true := by decide +kernel
/-- and is not written back; -/
theorem noFlush0_6 : ∀ t : Fin cfg0.N, ¬cond0_1 (grid0.coords t) → (cfg0.win 6).flush t = false := by decide +kernel
/-- where it holds, the window is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x1 .f32 := win0_6.stage (cfg0.slots t 6)
abbrev hs0_6 (t : Fin cfg0.N) : (ms0_6 t).IsWhole := hstage0_6 ((cfg0.slots t 6).cast nbuf0_6)
/-- The accumulator's buffer: a whole scoped buffer of the kernel's own. -/
abbrev scM0_0 : Memref sig .tc .vmem S128x1 .f32 := Memref.whole cc0_scratch0
/-- Views through which contents are stated: the accumulator's, and one staging buffer of each output (which one
    does not matter: a covering list of stores reads back the same through any view). -/
abbrev VS0_0 : View sig .tc .vmem S128x1 .f32 := scM0_0.view
abbrev VO0_4 : View sig .tc .vmem S128x2048 .bf16 := (Memref.whole cc0_stg4_0 : Memref sig .tc .vmem S128x2048 .bf16).view
abbrev VO0_5 : View sig .tc .vmem S128x2048 .bf16 := (Memref.whole cc0_stg5_0 : Memref sig .tc .vmem S128x2048 .bf16).view
abbrev VO0_6 : View sig .tc .vmem S128x1 .f32 := (Memref.whole cc0_stg6_0 : Memref sig .tc .vmem S128x1 .f32).view

/-! ## The region's invariant -/

/-- The scoped buffers the first kernel never touches (the second kernel's staging and scratch buffers), each whole at
    some contents: carried through every point as one conjunct. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The region's invariant as the launch states it, with the accumulator's buffer set apart as a memref owned at some
    contents: the accumulator, the untouched scoped buffers, the generator register at some state. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_eq]; simp only [scM0_0, owns_whole]; unfold rest0; try rfl

end Cert.Kernel.Hand

end
-- ==== Proof.WR0RunA.lean ====
/- The body at the grid's first point: the accumulator is reset to zero before this block's row sums are added, and
   nothing is copied out.
   The run is a triple of the whole body on any whole memrefs: the four inputs at named contents and handed back as
   they were, the two bf16 outputs at anything and handed back with this point's stores written (the last output's
   buffer is not touched and does not appear), the accumulator at anything and handed back with its stores written. What the stores are is found by
   running the body; the lists of pieces are the witness. -/
import proofs.«157670_j57638461112382_2_alg».proof.Proof.WR0Base

-- membership in a rectangle with a 2048-long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case the first \`scf.if\` taken, the second not, with the proof
    that from the buffers as described above the body runs to any continuation that accepts them with those pieces
    written. -/
noncomputable def kernelRun0_A (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) :
    Σ' (L4 : List (View.Piece (Elt F) S128x2048 .bf16)) (L5 : List (View.Piece (Elt F) S128x2048 .bf16)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Hand

end
-- ==== Proof.WR0RunB.lean ====
/- The body at a point that is neither the first nor the last: the accumulator, at what the point before left in it,
   receives this block's row sums; nothing is reset and nothing is copied out.
   The run is a triple of the whole body on any whole memrefs: the four inputs at named contents and handed back as
   they were, the two bf16 outputs at anything and handed back with this point's stores written (the last output's
   buffer is not touched and does not appear), the accumulator at named contents and handed back with its stores written. What the stores are is found by
   running the body; the lists of pieces are the witness. -/
import proofs.«157670_j57638461112382_2_alg».proof.Proof.WR0RunA

-- membership in a rectangle with a 2048-long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case neither \`scf.if\` taken, with the proof
    that from the buffers as described above the body runs to any continuation that accepts them with those pieces
    written. -/
noncomputable def kernelRun0_B (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) :
    Σ' (L4 : List (View.Piece (Elt F) S128x2048 .bf16)) (L5 : List (View.Piece (Elt F) S128x2048 .bf16)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Hand

end
-- ==== Proof.WR0RunC.lean ====
/- The body at the grid's last point: the accumulator, at what the point before left in it, receives this block's row
   sums and is then copied into the last output's buffer.
   The run is a triple of the whole body on any whole memrefs: the four inputs at named contents and handed back as
   they were, the two bf16 outputs at anything and handed back with this point's stores written, the last output likewise, the accumulator at named contents and handed back with its stores written. What the stores are is found by
   running the body; the lists of pieces are the witness. -/
import proofs.«157670_j57638461112382_2_alg».proof.Proof.WR0RunB

-- membership in a rectangle with a 2048-long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: closing the definition walks it past the default budget)
set_option maxHeartbeats 1000000 in
/-- The stores the body makes into each buffer it writes, as pieces (last first), in the case the first \`scf.if\` not taken, the second taken, with the proof
    that from the buffers as described above the body runs to any continuation that accepts them with those pieces
    written. -/
noncomputable def kernelRun0_C (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    Σ' (L4 : List (View.Piece (Elt F) S128x2048 .bf16)) (L5 : List (View.Piece (Elt F) S128x2048 .bf16)) (L6 : List (View.Piece (Elt F) S128x1 .f32)), { LS0 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f LS0)) -∗ K ⟨⟩))
          ⊢ wp frame (wpE (defs₀ (F := F)) Variants.none c none) E (cc0__prep_kernel i arg1 harg1 arg2 harg2 arg3 harg3 arg4 harg4 arg5 harg5 arg6 harg6 arg7 harg7 arg8 harg8) K } := by
  refine ⟨?_, ?_, ?_, ?_, fun E K => ?run⟩
  case run =>
    simp only [cc0__prep_kernel_eq_skeleton]; unfold cc0__prep_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

end Cert.Kernel.Hand

end
-- ==== Proof.WR0Frame.lean ====
/- The first pallas_call's region, from the three runs of its body: what each case leaves in the buffers it
   writes (its stores cover them, so any earlier contents are gone), what the outputs and the accumulator hold after
   each of the 16 points (by recursion on the point: the accumulator is carried from one point to the next), the
   invariant between points, the proof data and the body obligation of the pipeline library, and the two entailments
   that tie the invariant to what the launch hands over and takes back. -/
import proofs.«157670_j57638461112382_2_alg».proof.Proof.WR0RunC

-- membership in a rectangle with a 2048-long axis is decided structurally, one step per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what the TensorCore's buffers hold when the region is entered
variable (V : (c : Dev nD) → (b : Ref sig .tc) → Buf (Elt F) ((c : Thread nD τ).loc b))

/-! ## What each case leaves -/

/-- Case A: the stores into the first bf16 output tile its buffer, so every index lies in one of them. -/
theorem cover0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x2048.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S128x2048.size (by sl_kernel_rfl) y

/-- Case A: what the body leaves in the first bf16 output — its stores read back (over anything: they cover). -/
def out0_A_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x2048 .bf16 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A: the stores into the second bf16 output tile its buffer, so every index lies in one of them. -/
theorem cover0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x2048.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S128x2048.size (by sl_kernel_rfl) y

/-- Case A: what the body leaves in the second bf16 output — its stores read back (over anything: they cover). -/
def out0_A_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x2048 .bf16 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A: the stores into the accumulator tile its buffer, so every index lies in one of them. -/
theorem scover0_A_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) (y : S128x1.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S128x1.size (by sl_kernel_rfl) y

/-- Case A: what the body leaves in the accumulator — its stores read back (over anything: they cover). -/
def sout0_A_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) : Vec F S128x1 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

/-- Case A stores nothing into the last output: the window is idle there and not written back, and this
    placeholder (nothing read back) is consulted by nobody. -/
def out0_A_6 : Vec F S128x1 .f32 :=
  VO0_6.read (Elt F) (VO0_6.writes (Elt F) VO0_6.junk [])

/-- Case B: the stores into the first bf16 output tile its buffer, so every index lies in one of them. -/
theorem cover0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_B c i arg1 harg1 arg2 harg2 arg3 harg3 arg4 harg4 arg5 harg5 arg6 harg6 arg7 harg7 arg8 harg8 hc0 hc1 x0 x1 x2 x3 xs0).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).1 S128x2048.size (by sl_kernel_rfl) y

/-- Case B: what the body leaves in the first bf16 output — its stores read back (over anything: they cover). -/
def out0_B_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0).1)

/-- Case B: the stores into the second bf16 output tile its buffer, so every index lies in one of them. -/
theorem cover0_B_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_B c i arg1 harg1 arg2 harg2 arg3 harg3 arg4 harg4 arg5 harg5 arg6 harg6 arg7 harg7 arg8 harg8 hc0 hc1 x0 x1 x2 x3 xs0).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).2.1 S128x2048.size (by sl_kernel_rfl) y

/-- Case B: what the body leaves in the second bf16 output — its stores read back (over anything: they cover). -/
def out0_B_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0).2.1)

/-- Case B: the stores into the accumulator tile its buffer, so every index lies in one of them. -/
theorem scover0_B_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_B c i arg1 harg1 arg2 harg2 arg3 harg3 arg4 harg4 arg5 harg5 arg6 harg6 arg7 harg7 arg8 harg8 hc0 hc1 x0 x1 x2 x3 xs0).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0).2.2.1 S128x1.size (by sl_kernel_rfl) y

/-- Case B: what the body leaves in the accumulator — its stores read back (over anything: they cover). -/
def sout0_B_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) : Vec F S128x1 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0).2.2.1)

/-- Case B stores nothing into the last output: the window is idle there and not written back, and this
    placeholder (nothing read back) is consulted by nobody. -/
def out0_B_6 : Vec F S128x1 .f32 :=
  VO0_6.read (Elt F) (VO0_6.writes (Elt F) VO0_6.junk [])

/-- Case C: the stores into the first bf16 output tile its buffer, so every index lies in one of them. -/
theorem cover0_C_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_C c i arg1 harg1 arg2 harg2 arg3 harg3 arg4 harg4 arg5 harg5 arg6 harg6 arg7 harg7 arg8 harg8 hc0 hc1 x0 x1 x2 x3 xs0).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).1 S128x2048.size (by sl_kernel_rfl) y

/-- Case C: what the body leaves in the first bf16 output — its stores read back (over anything: they cover). -/
def out0_C_4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0).1)

/-- Case C: the stores into the second bf16 output tile its buffer, so every index lies in one of them. -/
theorem cover0_C_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x2048.Idx) :
    ∃ pc ∈ (kernelRun0_C c i arg1 harg1 arg2 harg2 arg3 harg3 arg4 harg4 arg5 harg5 arg6 harg6 arg7 harg7 arg8 harg8 hc0 hc1 x0 x1 x2 x3 xs0).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.1 S128x2048.size (by sl_kernel_rfl) y

/-- Case C: what the body leaves in the second bf16 output — its stores read back (over anything: they cover). -/
def out0_C_5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x2048 .bf16 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0).2.1)

/-- Case C: the stores into the last output tile its buffer, so every index lies in one of them. -/
theorem cover0_C_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_C c i arg1 harg1 arg2 harg2 arg3 harg3 arg4 harg4 arg5 harg5 arg6 harg6 arg7 harg7 arg8 harg8 hc0 hc1 x0 x1 x2 x3 xs0).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.2.1 S128x1.size (by sl_kernel_rfl) y

/-- Case C: what the body leaves in the last output — its stores read back (over anything: they cover). -/
def out0_C_6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x1 .f32 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 xs0).2.2.1)

/-- Case C: the stores into the accumulator tile its buffer, so every index lies in one of them. -/
theorem scover0_C_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) (y : S128x1.Idx) :
    ∃ pc ∈ (kernelRun0_C c i arg1 harg1 arg2 harg2 arg3 harg3 arg4 harg4 arg5 harg5 arg6 harg6 arg7 harg7 arg8 harg8 hc0 hc1 x0 x1 x2 x3 xs0).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0).2.2.2.1 S128x1.size (by sl_kernel_rfl) y

/-- Case C: what the body leaves in the accumulator — its stores read back (over anything: they cover). -/
def sout0_C_0 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) : Vec F S128x1 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0).2.2.2.1)

/-! ## What the outputs and the accumulator hold after each point -/

/-- After the body at position `n`: the two bf16 outputs' buffers, the last output's buffer and the accumulator, as
    the case the point is in leaves them — the first point resets, the last copies out, the others only add —, the
    accumulator read at what the point before left in it. -/
def outsAt0 (c : Dev nD) : (n : ℕ) → n < cfg0.N → Vec F S128x2048 .bf16 × Vec F S128x2048 .bf16 × Vec F S128x1 .f32 × Vec F S128x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_6, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h1 : (n + 1) % 16 = 15 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2, out0_B_6, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => (fun h => by (try dsimp only at h); have hN : n + 1 < 16 := lt_of_lt_of_eq hn (show cfg0.N = 16 from N_0); omega) ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.2)

/-- At the first point: the resetting case. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t), out0_A_6, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (by exfalso; (try dsimp only at h0); have hN : n + 1 < 16 := lt_of_lt_of_eq hn (show cfg0.N = 16 from N_0); omega)

/-- At a point strictly between the first and the last: the adding case, over what the point before left. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2, out0_B_6, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

/-- At the last point: the copying case, over what the point before left. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the start what the launch hands over (the accumulator's buffer at anything); afterwards
    the accumulator's buffer at what the point before left in it; throughout, the untouched scoped buffers and the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2) ∗ rest0 c) ∗ (∃ r, prngReg c r)) := by
  cases n with
  | zero => exact absurd rfl hz
  | succ n => rfl

/-! ## The proof data -/

/-- The region's proof data on core `c`: the arrays as the region finds them; after the body at a point each input's
    buffer still at its block and each output's at what `outsAt0` says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
    | ⟨6, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem aft0_0 (c : Dev nD) (t : Fin cfg0.N) : (dat0 V c).after 0 t = iblk0 V c 0 t := by dsimp only [dat0]
theorem aft0_1 (c : Dev nD) (t : Fin cfg0.N) : (dat0 V c).after 1 t = iblk0 V c 1 t := by dsimp only [dat0]
theorem aft0_2 (c : Dev nD) (t : Fin cfg0.N) : (dat0 V c).after 2 t = iblk0 V c 2 t := by dsimp only [dat0]
theorem aft0_3 (c : Dev nD) (t : Fin cfg0.N) : (dat0 V c).after 3 t = iblk0 V c 3 t := by dsimp only [dat0]
theorem aft0_4 (c : Dev nD) (t : Fin cfg0.N) : (dat0 V c).after 4 t = (outsAt0 V c t.val t.isLt).1 := by dsimp only [dat0]
theorem aft0_5 (c : Dev nD) (t : Fin cfg0.N) : (dat0 V c).after 5 t = (outsAt0 V c t.val t.isLt).2.1 := by dsimp only [dat0]
theorem aft0_6 (c : Dev nD) (t : Fin cfg0.N) : (dat0 V c).after 6 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (aft0_0 V c) t d
theorem before0_1 (c : Dev nD) (t : Fin cfg0.N) (d) : (dat0 V c).before 1 t d = iblk0 V c 1 t :=
  before0_1_of V (dat0 V c) (A_eq0 V c 1) (aft0_1 V c) t d
theorem before0_2 (c : Dev nD) (t : Fin cfg0.N) (d) : (dat0 V c).before 2 t d = iblk0 V c 2 t :=
  before0_2_of V (dat0 V c) (A_eq0 V c 2) (aft0_2 V c) t d
theorem before0_3 (c : Dev nD) (t : Fin cfg0.N) (d) : (dat0 V c).before 3 t d = iblk0 V c 3 t :=
  before0_3_of V (dat0 V c) (A_eq0 V c 3) (aft0_3 V c) t d

/-! ## The body obligation -/

/-- What the body is called with at point `t`: the invariant, the owed tallies, each window's current buffer at what
    it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' buffers hold their blocks; the point's position says which of the three cases
    it is in; that case's run applies: the invariant lends it the accumulator's buffer (at anything at the first
    point, else at what the point before left) and takes it back at this point's contents, the outputs' buffers come
    back with stores that cover them, and the last output, where the body does not touch it, is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], aft0_0]
  rw [show (dat0 V c).leavesExact 1 t = owns (c : Thread nD τ) (ms0_1 t) fullShare ((dat0 V c).after 1 t) from by
    unfold Dat.leavesExact; rw [liveAt0_1 t], aft0_1]
  rw [show (dat0 V c).leavesExact 2 t = owns (c : Thread nD τ) (ms0_2 t) fullShare ((dat0 V c).after 2 t) from by
    unfold Dat.leavesExact; rw [liveAt0_2 t], aft0_2]
  rw [show (dat0 V c).leavesExact 3 t = owns (c : Thread nD τ) (ms0_3 t) fullShare ((dat0 V c).after 3 t) from by
    unfold Dat.leavesExact; rw [liveAt0_3 t], aft0_3]
  rw [show (dat0 V c).leavesExact 4 t = owns (c : Thread nD τ) (ms0_4 t) fullShare ((dat0 V c).after 4 t) from by
    unfold Dat.leavesExact; rw [liveAt0_4 t], aft0_4]
  rw [show (dat0 V c).leavesExact 5 t = owns (c : Thread nD τ) (ms0_5 t) fullShare ((dat0 V c).after 5 t) from by
    unfold Dat.leavesExact; rw [liveAt0_5 t], aft0_5]
  by_cases h0 : t.val % 16 = 0
  · have h1 : ¬t.val % 16 = 15 := by omega
    have hz : t.val = 0 := by omega
    rw [Dat.leavesExact_idle (dat0 V c) 6 t (idleAt0_6 t (fun h => h1 ((hcond0_1 t).mp h))) (noFlush0_6 t (fun h => h1 ((hcond0_1 t).mp h)))]
    rw [outsAt0_A V c t h0 h1]
    unfold out0_A_4 out0_A_5 sout0_A_0; (try dsimp only)
    rw [PhiS0_castSucc V c t, PhiS0_zero V c _ _ hz, PhiA0_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, H6⟩
    iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _)
    iexact H6
  by_cases h1 : t.val % 16 = 15
  · have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], aft0_6]
    rw [outsAt0_C V c t h0 h1]
    unfold out0_C_4 out0_C_5 out0_C_6 sout0_C_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    iintro ⟨H0, H1, H2, H3, ⟨%e4, H4⟩, ⟨%e5, H5⟩, ⟨%e6, H6⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_C_5 c _ _ _ _ _ _ _ _ _ _ _ _ _ _ _ _ _ _ _ _ _ _ _ _)
    unfold owns; iexists _; isplitr
    swap; · iexact H6
    ipureintro; exact View.read_writes_of_cover _ _ _ _ _ (cover0_C_6 c _ _ _ _ _ _ _ _ _ _ _ _ _ _ _ _ _ _ _ _ _ _ _ _)
  · have hz : t.val ≠ 0 := by omega
    rw [Dat.leavesExact_idle (dat0 V c) 6 t (idleAt0_6 t (fun h => h1 ((hcond0_1 t).mp h))) (noFlush0_6 t (fun h => h1 ((hcond0_1 t).mp h)))]
    rw [outsAt0_B V c t h0 h1]
    unfold out0_B_4 out0_B_5 sout0_B_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, H6⟩
    iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%e4, H4⟩, ⟨%e5, H5⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _)
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- In particular after the last point. -/
theorem hout0 (c : Dev nD) : (dat0 V c).Φ (Fin.last cfg0.N) ⊢ Pipeline.ΦA spec0 c :=
  Phi_out0 V c _ (by rw [Fin.val_last]; have : cfg0.N = 16 := N_0; omega)

end Region

end Cert.Kernel.Hand

end
-- ==== Proof.WR1Base.lean ====
/- Region 1 (the second pallas_call, the matmul kernel on the 2 x 64 grid), shared definitions: the blocks of the
   five windows read off the contents the region is entered with, the closed forms of the kernel's two
   conditions over the grid, where the output window is idle, the staging and scratch memrefs by name, and
   the class invariant with the two accumulators kept apart from the fourteen other scoped buffers. -/
import proofs.«157670_j57638461112382_2_alg».proof.Proof.Gen.Kernel.Launch
import proofs.«157670_j57638461112382_2_alg».proof.Proof.Gen.Kernel.Skeleton
import proofs.«157670_j57638461112382_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it
    is not fetched the block index has not moved (window 3 moves only with the first grid coordinate). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The kernel's two conditions over the grid -/

/-- The first conditional's condition (second grid coordinate is 0), from the coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 64 = 0 :=
  (by decide +kernel : ∀ t : Fin grid1.N, cond1_0 (grid1.coords t) ↔ t.val % 64 = 0)

/-- The second conditional's condition (second grid coordinate is 63). -/
abbrev cond1_1 (i : grid1.Coords) : Prop := k1_cond2 i = 1#1
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails nothing is stored into the output window: idle, and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the window is live. -/
theorem liveAt1_4 : ∀ t : Fin cfg1.N, cond1_1 (grid1.coords t) → cfg1.idle 4 (grid1.coords t) = false := by decide +kernel

/-! ## The memrefs the body is called with -/

/-- One staging buffer of the output window, through which its contents are stated. -/
abbrev VO1_4 : View sig .tc .vmem S2x2048x128 .f32 := (Memref.whole cc1_stg4_0 : Memref sig .tc .vmem S2x2048x128 .f32).view
abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x2048x128 .f32 := win1_4.stage (cfg1.slots t 4)
abbrev hs1_4 (t : Fin cfg1.N) : (ms1_4 t).IsWhole := hstage1_4 ((cfg1.slots t 4).cast nbuf1_4)
/-- The two accumulators: whole scoped buffers of the kernel's own, carried from point to point. -/
abbrev scM1_0 : Memref sig .tc .vmem S2048x128 .f32 := Memref.whole cc1_scratch0
abbrev scM1_1 : Memref sig .tc .vmem S2048x128 .f32 := Memref.whole cc1_scratch1
abbrev VS1_0 : View sig .tc .vmem S2048x128 .f32 := scM1_0.view
abbrev VS1_1 : View sig .tc .vmem S2048x128 .f32 := scM1_1.view

/-- The two rectangles the last point of a row stores into the output block: plane 0 and plane 1. -/
abbrev r1_lo : Rect S2x2048x128 := Rect.unit (s := S2x2048x128) ![0, 0, 0] S1x2048x128.size inb_S2x2048x128_S1x2048x128_0_0_0
abbrev r1_hi : Rect S2x2048x128 := Rect.unit (s := S2x2048x128) ![1, 0, 0] S1x2048x128.size inb_S2x2048x128_S1x2048x128_1_0_0

/-! ## The class invariant with the accumulators apart -/

/-- The fourteen scoped buffers this kernel never touches (the first pallas_call's staging buffers and its
    scratch), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_scratch0), ((c : Thread nD τ).loc cc0_scratch0) ↦{fullShare} f))

theorem PhiA1_elim (c : Dev nD) :
    (Pipeline.ΦA spec1 c : sProp 𝕄)
      ⊢ iprop(iprop(rest1 c ∗ (∃ d, owns (c : Thread nD τ) scM1_0 fullShare d) ∗ (∃ d, owns (c : Thread nD τ) scM1_1 fullShare d)) ∗ (∃ r, prngReg c r)) := by
  unfold Pipeline.ΦA rest1; rw [scopedRest1_eq]; simp only [scM1_0, scM1_1, owns_whole]
  iintro ⟨⟨R1, R2, R3, R4, R5, R6, R7, R8, R9, R10, R11, R12, R13, R14, HS0, HS1⟩, Hg⟩
  isplitl [R1 R2 R3 R4 R5 R6 R7 R8 R9 R10 R11 R12 R13 R14 HS0 HS1]
  · isplitl [R1 R2 R3 R4 R5 R6 R7 R8 R9 R10 R11 R12 R13 R14]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    isplitl [HS0]; · iexact HS0
    iexact HS1
  iexact Hg

theorem PhiA1_intro (c : Dev nD) :
    iprop(iprop(rest1 c ∗ (∃ d, owns (c : Thread nD τ) scM1_0 fullShare d) ∗ (∃ d, owns (c : Thread nD τ) scM1_1 fullShare d)) ∗ (∃ r, prngReg c r))
      ⊢ (Pipeline.ΦA spec1 c : sProp 𝕄) := by
  unfold Pipeline.ΦA rest1; rw [scopedRest1_eq]; simp only [scM1_0, scM1_1, owns_whole]
  iintro ⟨⟨⟨R1, R2, R3, R4, R5, R6, R7, R8, R9, R10, R11, R12, R13, R14⟩, HS0, HS1⟩, Hg⟩
  isplitl [R1 R2 R3 R4 R5 R6 R7 R8 R9 R10 R11 R12 R13 R14 HS0 HS1]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [HS0]; · iexact HS0
    iexact HS1
  iexact Hg

/-- The class invariant: the fourteen other scoped buffers, each accumulator owned at some contents, and the
    generator register at some state. -/
theorem PhiA1_eq (c : Dev nD) :
    (Pipeline.ΦA spec1 c : sProp 𝕄)
      = iprop(iprop(rest1 c ∗ (∃ d, owns (c : Thread nD τ) scM1_0 fullShare d) ∗ (∃ d, owns (c : Thread nD τ) scM1_1 fullShare d)) ∗ (∃ r, prngReg c r)) :=
  BI.equiv_iff.mp ⟨PhiA1_elim c, PhiA1_intro c⟩

end Cert.Kernel.Hand

end
-- ==== Proof.WR1RunA.lean ====
/- Region 1, the kernel body at a first point of a row (second grid coordinate 0): both accumulators are
   cleared and then receive this point's two partial products; nothing is stored into the output block. The
   stores each buffer ends with are found by running the body. -/
import proofs.«157670_j57638461112382_2_alg».proof.Proof.WR1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition holds and the second fails: on whole memrefs, the inputs at their
    contents, the output block at contents handed back untouched, the accumulators at anything, it runs to the
    continuation with the inputs as they were and each accumulator with its list of stores (last first) written. -/
noncomputable def kernelRun1_A (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) :
    Σ' (L4 : List (View.Piece (Elt F) S2x2048x128 .f32)) (LS0 : List (View.Piece (Elt F) S2048x128 .f32)), { LS1 : List (View.Piece (Elt F) S2048x128 .f32) //
      ∀ (xi4 : Vec F S2x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.WR1RunB.lean ====
/- Region 1, the kernel body at an inner point of a row (second grid coordinate strictly between 0 and 63):
   each accumulator, holding what the point before left, receives this point's partial product added to it;
   nothing is stored into the output block. -/
import proofs.«157670_j57638461112382_2_alg».proof.Proof.WR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where both conditions fail: the accumulators enter at named contents `xs0`, `xs1`. -/
noncomputable def kernelRun1_B (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    Σ' (L4 : List (View.Piece (Elt F) S2x2048x128 .f32)) (LS0 : List (View.Piece (Elt F) S2048x128 .f32)), { LS1 : List (View.Piece (Elt F) S2048x128 .f32) //
      ∀ (xi4 : Vec F S2x2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, ?_, fun xi4 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.WR1RunC.lean ====
/- Region 1, the kernel body at the last point of a row (second grid coordinate 63): the accumulators receive
   the last partial products, and the two planes of the output block are stored from them and the noise block. -/
import proofs.«157670_j57638461112382_2_alg».proof.Proof.WR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition fails and the second holds: the output block enters at anything and
    leaves with its list of stores written. -/
noncomputable def kernelRun1_C (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    Σ' (L4 : List (View.Piece (Elt F) S2x2048x128 .f32)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.WR1Frame.lean ====
/- Region 1, the frame: what the output block and the two accumulators hold after each grid point (by
   recursion on the point, through the three cases of the two conditions), the proof data of the pipeline, the
   body obligation at a generic point, and the invariant's two ends. The accumulators are cleared at every
   first point of a row, so what such a point leaves does not depend on the point before. -/
import proofs.«157670_j57638461112382_2_alg».proof.Proof.WR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The closed forms as the cases' hypotheses -/

theorem isA1 (t : Fin cfg1.N) (h0 : t.val % 64 = 0) : cond1_0 (grid1.coords t) := (hcond1_0 t).mpr h0
theorem notA1 (t : Fin cfg1.N) (h0 : ¬t.val % 64 = 0) : ¬cond1_0 (grid1.coords t) := fun h => h0 ((hcond1_0 t).mp h)
theorem isC1 (t : Fin cfg1.N) (h1 : t.val % 64 = 63) : cond1_1 (grid1.coords t) := (hcond1_1 t).mpr h1
theorem notC1 (t : Fin cfg1.N) (h1 : ¬t.val % 64 = 63) : ¬cond1_1 (grid1.coords t) := fun h => h1 ((hcond1_1 t).mp h)
theorem notC1_of_A (t : Fin cfg1.N) (h0 : t.val % 64 = 0) : ¬cond1_1 (grid1.coords t) := fun h => by
  have h1 := (hcond1_1 t).mp h; omega

/-! ## What each case leaves -/

/-- Case A: the stores into the first accumulator cover it. -/
theorem scover1_A_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) (y : S2048x128.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S2048x128.size (by sl_kernel_rfl) y

/-- What case A leaves in the first accumulator: its stores read back. -/
def sout1_A_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) : Vec F S2048x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)

/-- Case A: the stores into the second accumulator cover it. -/
theorem scover1_A_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) (y : S2048x128.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S2048x128.size (by sl_kernel_rfl) y

/-- What case A leaves in the second accumulator. -/
def sout1_A_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) : Vec F S2048x128 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)

/-- Case B: the stores into the first accumulator cover it. -/
theorem scover1_B_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S2048x128.size (by sl_kernel_rfl) y

/-- What case B leaves in the first accumulator: its stores read back. -/
def sout1_B_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)

/-- Case B: the stores into the second accumulator cover it. -/
theorem scover1_B_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S2048x128.size (by sl_kernel_rfl) y

/-- What case B leaves in the second accumulator. -/
def sout1_B_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)

/-- Case C: the stores into the first accumulator cover it. -/
theorem scover1_C_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S2048x128.size (by sl_kernel_rfl) y

/-- What case C leaves in the first accumulator: its stores read back. -/
def sout1_C_0 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)

/-- Case C: the stores into the second accumulator cover it. -/
theorem scover1_C_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2048x128.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S2048x128.size (by sl_kernel_rfl) y

/-- What case C leaves in the second accumulator. -/
def sout1_C_1 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2048x128 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)

/-- Case C: the two plane stores tile the output block. -/
theorem cover1_C_4 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) (y : S2x2048x128.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S1x2048x128.size (by sl_kernel_rfl) y

/-- What case C leaves in the output block: its two stores read back. -/
def out1_C_4 (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) : Vec F S2x2048x128 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

/-- Where nothing is stored into the output block its contents are never consulted: a placeholder. -/
def idle1_4 : Vec F S2x2048x128 .f32 := VO1_4.read (Elt F) VO1_4.junk

/-! ## Point by point -/

/-- A first point of a row: the output block untouched, the accumulators at this point's products over zero. -/
def ptA1 (c : Dev nD) (t : Fin cfg1.N) (h0 : t.val % 64 = 0) : Vec F S2x2048x128 .f32 × Vec F S2048x128 .f32 × Vec F S2048x128 .f32 :=
  (idle1_4, sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (isA1 t h0) (notC1_of_A t h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (isA1 t h0) (notC1_of_A t h0) (iblk1 V c 0 t) (iblk1 V c 1 t) (iblk1 V c 2 t) (iblk1 V c 3 t))

/-- An inner point: the accumulators at this point's products over what the point before left (`p0`, `p1`). -/
def ptB1 (c : Dev nD) (t : Fin cfg1.N) (h0 : ¬t.val % 64 = 0) (h1 : ¬t.val % 64 = 63) (p0 p1 : Vec F S2048x128 .f32) : Vec F S2x2048x128 .f32 × Vec F S2048x128 .f32 × Vec F S2048x128 .f32 :=
  (idle1_4, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (notC1 t h1) (iblk1 V c 0 t) (iblk1 V c 1 t) (iblk1 V c 2 t) (iblk1 V c 3 t) p0 p1, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (notC1 t h1) (iblk1 V c 0 t) (iblk1 V c 1 t) (iblk1 V c 2 t) (iblk1 V c 3 t) p0 p1)

/-- A last point of a row: the same, and the output block stored. -/
def ptC1 (c : Dev nD) (t : Fin cfg1.N) (h0 : ¬t.val % 64 = 0) (h1 : t.val % 64 = 63) (p0 p1 : Vec F S2048x128 .f32) : Vec F S2x2048x128 .f32 × Vec F S2048x128 .f32 × Vec F S2048x128 .f32 :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (notA1 t h0) (isC1 t h1) (iblk1 V c 0 t) (iblk1 V c 1 t) (iblk1 V c 2 t) (iblk1 V c 3 t) p0 p1)

/-- What the output block's staging buffer and the two accumulators hold after the body at position `n`. -/
def outsAt1 (c : Dev nD) : (n : ℕ) → n < cfg1.N → Vec F S2x2048x128 .f32 × Vec F S2048x128 .f32 × Vec F S2048x128 .f32
  | 0, hn => ptA1 V c ⟨0, hn⟩ (Nat.zero_mod _)
  | n + 1, hn =>
    if h0 : (n + 1) % 64 = 0 then ptA1 V c ⟨n + 1, hn⟩ h0
    else if h1 : (n + 1) % 64 = 63 then
      ptC1 V c ⟨n + 1, hn⟩ h0 h1 (outsAt1 c n (Nat.lt_of_succ_lt hn)).2.1 (outsAt1 c n (Nat.lt_of_succ_lt hn)).2.2
    else
      ptB1 V c ⟨n + 1, hn⟩ h0 h1 (outsAt1 c n (Nat.lt_of_succ_lt hn)).2.1 (outsAt1 c n (Nat.lt_of_succ_lt hn)).2.2

theorem outsAt1_A (c : Dev nD) (t : Fin cfg1.N) (h0 : t.val % 64 = 0) :
    outsAt1 V c t.val t.isLt = ptA1 V c t h0 := by
  obtain ⟨n, hn⟩ := t
  cases n with
  | zero => exact rfl
  | succ n => exact (dif_pos h0).trans rfl

theorem outsAt1_B (c : Dev nD) (t : Fin cfg1.N) (h0 : ¬t.val % 64 = 0) (h1 : ¬t.val % 64 = 63) :
    outsAt1 V c t.val t.isLt = ptB1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 64 = 0) (h1 : t.val % 64 = 63) :
    outsAt1 V c t.val t.isLt = ptC1 V c t h0 h1 (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant -/

/-- Before position `n`: at the region's entry the class invariant (the accumulators at anything); afterwards the
    fourteen other scoped buffers, each accumulator at what the point before left, the generator register. -/
def PhiS1 (c : Dev nD) : (n : ℕ) → n ≤ cfg1.N → sProp 𝕄
  | 0, _ => Pipeline.ΦA spec1 c
  | n + 1, hn => iprop(iprop(rest1 c ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 c ∗ owns (c : Thread nD τ) scM1_0 fullShare ((outsAt1 V c n hn).2.1) ∗ owns (c : Thread nD τ) scM1_1 fullShare ((outsAt1 V c n hn).2.2)) ∗ (∃ r, prngReg c r)) := rfl

theorem PhiS1_pos (c : Dev nD) (n : ℕ) (h : n ≤ cfg1.N) (hz : n ≠ 0) :
    PhiS1 V c n h = iprop(iprop(rest1 c ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- What the body leaves in the four input windows: their blocks. -/
theorem after1_in (c : Dev nD) (t : Fin cfg1.N) :
    (dat1 V c).after 0 t = iblk1 V c 0 t ∧ (dat1 V c).after 1 t = iblk1 V c 1 t ∧ (dat1 V c).after 2 t = iblk1 V c 2 t ∧ (dat1 V c).after 3 t = iblk1 V c 3 t :=
  ⟨after1_0 V c t, after1_1 V c t, after1_2 V c t, after1_3 V c t⟩

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is
    in; the invariant hands the body the accumulators (at anything where they are cleared first, else at what the
    point before left) and takes them back at this point's contents; an idle output block goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 64 = 0
  · rw [Dat.leavesExact_idle (dat1 V c) 4 t (idleAt1_4 t (notC1_of_A t h0)) (noFlush1_4 t (notC1_of_A t h0))]
    rw [outsAt1_A V c t h0]
    unfold ptA1 sout1_A_0 sout1_A_1; (try dsimp only)
    by_cases hz : t.val = 0
    · rw [PhiS1_castSucc V c t, PhiS1_zero V c _ _ hz, PhiA1_eq]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (isA1 t h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ (isA1 t h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 64 = 63
    · rw [show (dat1 V c).leavesExact 4 t = owns (c : Thread nD τ) (ms1_4 t) fullShare ((dat1 V c).after 4 t) from by
        unfold Dat.leavesExact; rw [liveAt1_4 t (isC1 t h1)], after1_4]
      rw [outsAt1_C V c t h0 h1]
      unfold ptC1 out1_C_4 sout1_C_0 sout1_C_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ (notA1 t h0) (isC1 t h1) (iblk1 V c 0 t) (iblk1 V c 1 t) (iblk1 V c 2 t) (iblk1 V c 3 t) _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _)
    · rw [Dat.leavesExact_idle (dat1 V c) 4 t (idleAt1_4 t (notC1 t h1)) (noFlush1_4 t (notC1 t h1))]
      rw [outsAt1_B V c t h0 h1]
      unfold ptB1 sout1_B_0 sout1_B_1; (try dsimp only)
      rw [PhiS1_castSucc V c t, PhiS1_pos V c _ _ hz]
      iintro ⟨⟨⟨HR, HS0, HS1⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ (notA1 t h0) (notC1 t h1) (iblk1 V c 0 t) (iblk1 V c 1 t) (iblk1 V c 2 t) (iblk1 V c 3 t) _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR HS0 HS1]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.WAssemble.lean ====
import proofs.«157670_j57638461112382_2_alg».proof.Proof.WR0Frame
import proofs.«157670_j57638461112382_2_alg».proof.Proof.WR1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two regions and the host tail as one run

  @main is: region 0 (the weight transform and the divergence's row sums), region 1 (the two products accumulated over
  the reduction axis, then the two samples), and four host operations (the sum of the row sums and its division by the
  sample count). The buffers' contents at each boundary are a fold from the launch memory: a region leaves its windows'
  arrays at what its write-backs leave and every other buffer as it was; the host tail is its operations applied. -/

variable (m : (ℓ : Loc nD τ sig) → Buf (Elt F) ℓ) (ρ : Dev nD → PrngReg)

/-- Core `c`'s buffers at launch. -/
abbrev W0 : Dev nD → Valuation τ sig (Elt F) := fun c b => m ((c : Dev nD), b)
/-- The same read at the TensorCore's references: what region 0 is entered with. -/
abbrev E0 : (c : Dev nD) → (b : Ref sig .tc) → Buf (Elt F) ((c : Thread nD τ).loc b) := fun c b => W0 m c (Proc.devRef .tc b)
/-- After region 0: its arrays at what the pipeline leaves, every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What region 1 is entered with. -/
abbrev E1 : (c : Dev nD) → (b : Ref sig .tc) → Buf (Elt F) ((c : Thread nD τ).loc b) := fun c b => W1 m c (Proc.devRef .tc b)
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev E2 : (c : Dev nD) → (b : Ref sig .tc) → Buf (Elt F) ((c : Thread nD τ).loc b) := fun c b => W2 m c (Proc.devRef .tc b)
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After the host tail. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h.trans (hin0 (E0 m) c)
  hout c := by
    rw [Pipeline.ownSems0_none]
    have h : (Pipeline.ΦA spec0 c : sProp 𝕄) ⊢ iprop((∃ r, prngReg c r) ∗ BI.emp ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (E1 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (E1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .host (hseg hostOps2 hostOps2_sub hostOps2_fresh' (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds, in every unscoped buffer of every core, the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (StableHlo.after hostOps2 (W2 m c)) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.WFrames.lean ====
import proofs.«157670_j57638461112382_2_alg».proof.Proof.WAssemble
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched -/

variable (m : (ℓ : Loc nD τ sig) → Buf (Elt F) ℓ) (ρ : Dev nD → PrngReg)

/-- The host tail writes only its own four results. -/
theorem W3_keep (c : Dev nD) (b : Ref sig .tc) (h0 : b ≠ main_cst) (h1 : b ≠ main_v2) (h2 : b ≠ main_cst_0) (h3 : b ≠ main_v3) :
    W3 m c (Proc.devRef .tc b) = W2 m c (Proc.devRef .tc b) :=
  StableHlo.after_of_forall_not_mem (b := Proc.devRef .tc b) _ _ (List.forall_iff_forall_mem.mp (by
    simp only [hostOps2, List.Forall, StableHlo.nullary_writes, StableHlo.binary_writes, Finset.mem_singleton]
    exact ⟨StableHlo.devRef_ne_of_ne h0, StableHlo.devRef_ne_of_ne h1, StableHlo.devRef_ne_of_ne h2, StableHlo.devRef_ne_of_ne h3⟩))

/-- `main_arg0` ends as launched: the host tail does not write it, and each region either stages it through an input window or bypasses it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_keep m c main_arg0 (by decide) (by decide) (by decide) (by decide)
    _ = W1 m c (Proc.devRef .tc main_arg0) := (W2_arr m c 0).trans (((dat1 (E1 m) c).arrAt_in 0 rfl _).trans (A_eq1 (E1 m) c 0))
    _ = W0 m c (Proc.devRef .tc main_arg0) := W1_of_ne m c main_arg0 (by decide)
    _ = m ((c : Thread nD τ).loc main_arg0) := rfl

/-- `main_arg1` ends as launched: the host tail does not write it, and each region either stages it through an input window or bypasses it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_keep m c main_arg1 (by decide) (by decide) (by decide) (by decide)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl

/-- `main_arg2` ends as launched: the host tail does not write it, and each region either stages it through an input window or bypasses it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_keep m c main_arg2 (by decide) (by decide) (by decide) (by decide)
    _ = W1 m c (Proc.devRef .tc main_arg2) := W2_of_ne m c main_arg2 (by decide)
    _ = W0 m c (Proc.devRef .tc main_arg2) := (W1_arr m c 1).trans (((dat0 (E0 m) c).arrAt_in 1 rfl _).trans (A_eq0 (E0 m) c 1))
    _ = m ((c : Thread nD τ).loc main_arg2) := rfl

/-- `main_arg3` ends as launched: the host tail does not write it, and each region either stages it through an input window or bypasses it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_keep m c main_arg3 (by decide) (by decide) (by decide) (by decide)
    _ = W1 m c (Proc.devRef .tc main_arg3) := W2_of_ne m c main_arg3 (by decide)
    _ = W0 m c (Proc.devRef .tc main_arg3) := (W1_arr m c 2).trans (((dat0 (E0 m) c).arrAt_in 2 rfl _).trans (A_eq0 (E0 m) c 2))
    _ = m ((c : Thread nD τ).loc main_arg3) := rfl

/-- `main_arg4` ends as launched: the host tail does not write it, and each region either stages it through an input window or bypasses it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_keep m c main_arg4 (by decide) (by decide) (by decide) (by decide)
    _ = W1 m c (Proc.devRef .tc main_arg4) := W2_of_ne m c main_arg4 (by decide)
    _ = W0 m c (Proc.devRef .tc main_arg4) := (W1_arr m c 3).trans (((dat0 (E0 m) c).arrAt_in 3 rfl _).trans (A_eq0 (E0 m) c 3))
    _ = m ((c : Thread nD τ).loc main_arg4) := rfl

/-- `main_arg5` ends as launched: the host tail does not write it, and each region either stages it through an input window or bypasses it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_keep m c main_arg5 (by decide) (by decide) (by decide) (by decide)
    _ = W1 m c (Proc.devRef .tc main_arg5) := (W2_arr m c 3).trans (((dat1 (E1 m) c).arrAt_in 3 rfl _).trans (A_eq1 (E1 m) c 3))
    _ = W0 m c (Proc.devRef .tc main_arg5) := W1_of_ne m c main_arg5 (by decide)
    _ = m ((c : Thread nD τ).loc main_arg5) := rfl

/-- THE FRAME at any `F`: every weakly fair execution of @main terminates, nothing faulting, and the six argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

end Cert.Kernel.Hand

end
-- ==== Proof.Spec.lean ====
/-
  The mathematics both programs compute, on the extended reals, stated once.

  A Bayesian linear layer with a spike-and-slab posterior.  From the weights' means `w`, deviations `σ`,
  inclusion probabilities `s` and the prior deviations `p` (all [128, 32768]), an input `x` [4096, 32768] and noise
  `e` [4096, 128]:
    * the pre-activation's mean      m(b,j) = Σ_k x(b,k) · (clip s(j,k) · w(j,k)),
    * its variance                   v(b,j) = Σ_k x(b,k)² · varW(j,k),
    * the two samples                m ± e · √v, stacked on a leading axis of extent 2,
    * the divergence                 ( -½ · Σ gauss + Σ spike ) / 4096, summed over all 128 · 32768 weights.
  The scalar functions below are written with the extended reals' own operations and the float words the two
  programs share, so that either program's term at an index unfolds to them.
-/
import Idealize.ShloMosaic.PureOps.Ideal
import Idealize.ShloMosaic.Lib.ValueIdx

noncomputable section

open scoped BigOperators

namespace Cert.Spec

open Idealize.ShloMosaic Idealize.ShloMosaic.ValueIdx

/-! ## The float words the two programs share, as the extended reals they denote -/

def cZero : EReal := Ideal.ofBits .f32 0x00000000#32
def cEps : EReal := Ideal.ofBits .f32 0x2B8CBCCC#32
def cLo : EReal := Ideal.ofBits .f32 0x358637BD#32
def cHi : EReal := Ideal.ofBits .f32 0x3F7FFFEF#32
def cOne : EReal := Ideal.ofBits .f32 0x3F800000#32
def cNine : EReal := Ideal.ofBits .f32 0x3F666666#32
def cTenth : EReal := Ideal.ofBits .f32 0x3DCCCCCD#32
def cNegHalf : EReal := Ideal.ofBits .f32 0xBF000000#32
def cCount : EReal := Ideal.ofBits .f32 0x45800000#32

/-! ## One weight -/

/-- The posterior deviation, floored: max (max σ 0) ε. -/
def sg (σ : EReal) : EReal := max (max σ cZero) cEps
/-- The inclusion probability, clipped into [lo, hi]: min hi (max lo s). -/
def clip (s : EReal) : EReal := min cHi (max cLo s)
/-- The weight's mean under the posterior. -/
def meanW (s w : EReal) : EReal := clip s * w
/-- The weight's variance under the posterior: s σ² + s w² − (s w)². -/
def varW (σ s w : EReal) : EReal := (clip s * (sg σ * sg σ) + clip s * (w * w)) - meanW s w * meanW s w
/-- The Gaussian part of one weight's divergence term, the slab's variance written `v`. -/
def gaussWith (v σ s w p : EReal) : EReal :=
  clip s * ((((cOne + Ideal.log (sg σ * sg σ)) - Ideal.log (p * p)) - Ideal.div (w * w) (p * p)) - Ideal.div v (p * p))
/-- With the variance as the square of the floored deviation. -/
def gaussSq (σ s w p : EReal) : EReal := gaussWith (sg σ * sg σ) σ s w p
/-- With the variance as the exponential of its logarithm. -/
def gaussExpLog (σ s w p : EReal) : EReal := gaussWith (Ideal.exp (Ideal.log (sg σ * sg σ))) σ s w p
/-- The Bernoulli part of one weight's divergence term. -/
def spikeT (s : EReal) : EReal :=
  (cOne - clip s) * Ideal.log (Ideal.div (cOne - clip s) cNine) + clip s * Ideal.log (Ideal.div (clip s) cTenth)

/-! ## The arrays -/

abbrev SW : Shape := ⟨2, ![128, 32768]⟩
abbrev SX : Shape := ⟨2, ![4096, 32768]⟩
abbrev SE : Shape := ⟨2, ![4096, 128]⟩
abbrev SO : Shape := ⟨3, ![2, 4096, 128]⟩

/-- The pre-activation's mean at batch row `b`, unit `j`. -/
def meanAt (x : SX.Idx → EReal) (w s : SW.Idx → EReal) (b : Fin 4096) (j : Fin 128) : EReal :=
  ∑ k : Fin 32768, x (ix2 b k) * meanW (s (ix2 j k)) (w (ix2 j k))
/-- The pre-activation's variance at batch row `b`, unit `j`. -/
def varAt (x : SX.Idx → EReal) (w σ s : SW.Idx → EReal) (b : Fin 4096) (j : Fin 128) : EReal :=
  ∑ k : Fin 32768, (x (ix2 b k) * x (ix2 b k)) * varW (σ (ix2 j k)) (s (ix2 j k)) (w (ix2 j k))
/-- The two samples m + e √v (leading coordinate 0) and m − e √v (leading coordinate 1). -/
def out (x : SX.Idx → EReal) (w σ s : SW.Idx → EReal) (e : SE.Idx → EReal) : SO.Idx → EReal := fun i =>
  if (i 0).val = 0 then meanAt x w s (i 1) (i 2) + e (ix2 (i 1) (i 2)) * Ideal.sqrt (varAt x w σ s (i 1) (i 2))
  else meanAt x w s (i 1) (i 2) - e (ix2 (i 1) (i 2)) * Ideal.sqrt (varAt x w σ s (i 1) (i 2))
/-- The divergence, as ONE sum over all the weights of each part (the grouping of the plain formula). -/
def kl (w σ s p : SW.Idx → EReal) : EReal :=
  Ideal.div ((cNegHalf * (cZero + ∑ i : SW.Idx, gaussExpLog (σ i) (s i) (w i) (p i))) + (cZero + ∑ i : SW.Idx, spikeT (s i))) cCount

end Cert.Spec

end
-- ==== Proof.Tail.lean ====
import proofs.«157670_j57638461112382_2_alg».proof.Proof.Frames
import proofs.«157670_j57638461112382_2_alg».proof.Proof.Spec
import Idealize.ShloMosaic.Lib.StableHlo.Run
import Idealize.ShloMosaic.PureOps.Ideal
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two results, read off the fold

  The first result is region 1's output array as its write-backs leave it; the second is the host tail applied to the
  row sums region 0 leaves: their total, from the zero word, divided by the sample count. -/

section
variable (m : (ℓ : Loc nD τ sig) → Buf (Elt F) ℓ)

/-- The stacked samples are what region 1's pipeline leaves in its output array. -/
theorem W3_main_v1 (c : Dev nD) : W3 m c (Proc.devRef .tc main_v1) = (dat1 (E1 m) c).arrAt 4 cfg1.N :=
  (W3_keep m c main_v1 (by decide) (by decide) (by decide) (by decide)).trans (W2_arr m c 4)

/-- Region 1 does not touch the row sums: they are what region 0's pipeline leaves. -/
theorem W2_main_v0_2 (c : Dev nD) : W2 m c (Proc.devRef .tc main_v0_2) = (dat0 (E0 m) c).arrAt 6 cfg0.N :=
  (W2_of_ne m c main_v0_2 (by decide)).trans (W1_arr m c 6)

/-- The mean weights region 1 reads are what region 0's pipeline leaves in its first output array, -/
theorem E1_main_v0_0 (c : Dev nD) : E1 m c main_v0_0 = (dat0 (E0 m) c).arrAt 4 cfg0.N := W1_arr m c 4
/-- and the variance weights what it leaves in its second. -/
theorem E1_main_v0_1 (c : Dev nD) : E1 m c main_v0_1 = (dat0 (E0 m) c).arrAt 5 cfg0.N := W1_arr m c 5
/-- The input and the noise reach region 1 as launched. -/
theorem E1_main_arg0 (c : Dev nD) : E1 m c main_arg0 = m ((c : Thread nD τ).loc main_arg0) := W1_of_ne m c main_arg0 (by decide)
theorem E1_main_arg5 (c : Dev nD) : E1 m c main_arg5 = m ((c : Thread nD τ).loc main_arg5) := W1_of_ne m c main_arg5 (by decide)
end

variable (m : (ℓ : Loc nD τ sig) → Buf (Elt Idealize.ShloMosaic.Ideal) ℓ)

/-- An f32 array of shape `s` at the exact values. -/
abbrev IArr (s : Shape) : Type := (⟨s, .f32⟩ : BufTy).Contents (Elt Idealize.ShloMosaic.Ideal)

/-- The row sums region 0 leaves, as an array of extended reals. -/
def klRows (c : Dev nD) : IArr S128x1 := (dat0 (E0 m) c).arrAt 6 cfg0.N

/-- The divergence: the zero word plus the total of the row sums, divided by the sample count. -/
theorem W3_main_v3 (c : Dev nD) (i : S_.Idx) :
    (W3 (F := Idealize.ShloMosaic.Ideal) m c (Proc.devRef .tc main_v3) : IArr S_) i
      = Idealize.ShloMosaic.Ideal.div (Cert.Spec.cZero + ∑ j : S128x1.Idx, klRows m c j) Cert.Spec.cCount := by
  have e : (W3 (F := Idealize.ShloMosaic.Ideal) m c (Proc.devRef .tc main_v3) : IArr S_)
      = (Host.divf (F := Idealize.ShloMosaic.Ideal) : IArr S_ → IArr S_ → IArr S_)
          (((fun x v => Host.reduceAdd (F := Idealize.ShloMosaic.Ideal) (φ := .f32) x v reducesTo_S128x1_S_d0_1 h_S_) : IArr S128x1 → IArr S_ → IArr S_)
            (W2 m c (Proc.devRef .tc main_v0_2)) (constant (F := Idealize.ShloMosaic.Ideal) S_ .f32 0x00000000#32))
          (constant (F := Idealize.ShloMosaic.Ideal) S_ .f32 0x45800000#32) := by
    dsimp only [W3]
    show StableHlo.after hostOps2 _ (Proc.devRef .tc main_v3) = _
    after_results
  rw [e, W2_main_v0_2]
  show (Host.divf (F := Idealize.ShloMosaic.Ideal) : IArr S_ → IArr S_ → IArr S_) (((fun x v => Host.reduceAdd (F := Idealize.ShloMosaic.Ideal) (φ := .f32) x v reducesTo_S128x1_S_d0_1 h_S_) : IArr S128x1 → IArr S_ → IArr S_) (klRows m c) (constant (F := Idealize.ShloMosaic.Ideal) S_ .f32 0x00000000#32)) (constant (F := Idealize.ShloMosaic.Ideal) S_ .f32 0x45800000#32) i = _
  generalize klRows m c = y0
  simp only [Host.divf, Host.reduceAdd, Ideal.hostDivf_def, Ideal.hostReduceAdd_def]
  rw [Ideal.hostReduceAdd_total reducesTo_S128x1_S_d0_1 (fun b => b.elim0) y0 _ _]
  rfl

end Cert.KernelIdeal.Hand

end
-- ==== Proof.Consts.lean ====
/-
  The float words the two programs share, as the extended reals their patterns denote.  Each pattern is unfolded
  here and nowhere else; every other module reads the constants through the statements below.
-/
import proofs.«157670_j57638461112382_2_alg».proof.Proof.Spec

noncomputable section

namespace Cert.Alg

open Idealize.ShloMosaic Cert.Spec

theorem cZero_eq : cZero = 0 := by
  simp [cZero, Ideal.ofBits, Ideal.ieee]

theorem cOne_eq : cOne = 1 := by
  simp [cOne, Ideal.ofBits, Ideal.ieee, -EReal.coe_mul]; norm_num

theorem cNegHalf_eq : cNegHalf = ((-1 / 2 : ℝ) : EReal) := by
  simp [cNegHalf, Ideal.ofBits, Ideal.ieee, -EReal.coe_mul]; norm_num

theorem cCount_eq : cCount = ((4096 : ℝ) : EReal) := by
  simp [cCount, Ideal.ofBits, Ideal.ieee, -EReal.coe_mul]; norm_num

theorem cEps_eq : cEps = ((9223372 / 2 ^ 63 : ℝ) : EReal) := by
  simp [cEps, Ideal.ofBits, Ideal.ieee, -EReal.coe_mul]; norm_num

theorem cLo_eq : cLo = ((8796093 / 2 ^ 43 : ℝ) : EReal) := by
  simp [cLo, Ideal.ofBits, Ideal.ieee, -EReal.coe_mul]; norm_num

theorem cHi_eq : cHi = ((16777199 / 2 ^ 24 : ℝ) : EReal) := by
  simp [cHi, Ideal.ofBits, Ideal.ieee, -EReal.coe_mul]; norm_num

theorem cNine_eq : cNine = ((15099494 / 2 ^ 24 : ℝ) : EReal) := by
  simp [cNine, Ideal.ofBits, Ideal.ieee, -EReal.coe_mul]; norm_num

theorem cTenth_eq : cTenth = ((13421773 / 2 ^ 27 : ℝ) : EReal) := by
  simp [cTenth, Ideal.ofBits, Ideal.ieee, -EReal.coe_mul]; norm_num

/-! ## The forms the algebra uses -/

theorem cEps_pos : ∃ ε : ℝ, 0 < ε ∧ cEps = (ε : EReal) :=
  ⟨9223372 / 2 ^ 63, by norm_num, cEps_eq⟩

theorem cLo_cHi : ∃ lo hi : ℝ, 0 < lo ∧ lo ≤ hi ∧ hi < 1 ∧ cLo = (lo : EReal) ∧ cHi = (hi : EReal) :=
  ⟨8796093 / 2 ^ 43, 16777199 / 2 ^ 24, by norm_num, by norm_num, by norm_num, cLo_eq, cHi_eq⟩

theorem cNine_pos : ∃ a : ℝ, 0 < a ∧ cNine = (a : EReal) :=
  ⟨15099494 / 2 ^ 24, by norm_num, cNine_eq⟩

theorem cTenth_pos : ∃ a : ℝ, 0 < a ∧ cTenth = (a : EReal) :=
  ⟨13421773 / 2 ^ 27, by norm_num, cTenth_eq⟩

/-! ## The infinity word, against which the inputs' finiteness is tested -/

theorem cInf : Ideal.ofBits .f32 0x7F800000#32 = (⊤ : EReal) := by
  simp [Ideal.ofBits, Ideal.ieee]

theorem lt_cInf_iff (x : EReal) : x < Ideal.ofBits .f32 0x7F800000#32 ↔ x ≠ ⊤ := by
  rw [cInf, lt_top_iff_ne_top]

/-- An extended real whose absolute value `max x (-x)` is below the infinity word is a real number. -/
theorem abs_lt_cInf_iff (x : EReal) :
    max x (-x) < Ideal.ofBits .f32 0x7F800000#32 ↔ ∃ r : ℝ, x = (r : EReal) := by
  rw [cInf]
  constructor
  · intro h
    induction x using EReal.rec with
    | bot => simp at h
    | coe r => exact ⟨r, rfl⟩
    | top => simp at h
  · rintro ⟨r, rfl⟩
    rw [← EReal.coe_neg, max_lt_iff]
    exact ⟨EReal.coe_lt_top r, EReal.coe_lt_top (-r)⟩

end Cert.Alg

end
-- ==== Proof.Algebra.lean ====
/-
  The algebra on the extended reals that joins the two programs' formulas for the layer, under the precondition
  that every input entry is a real number.  Pure mathematics: no program appears here.

    * multiplication by a real distributes over a finite sum of extended reals none of which is `⊤`
      (for a negative factor this is exactly what fails when `⊤` and `⊥` both occur);
    * the floored deviation and the clipped probability are positive reals, so `exp (log (sg² ))` is `sg²`;
    * one weight's Gaussian term is never `⊤` (it is `⊥` when the prior deviation is `0`, a real otherwise);
    * one weight's variance is a nonnegative real, so clamping the variance sum at `0` changes nothing;
    * the regrouping of the divergence from row-tile partial sums to one sum.
-/
import proofs.«157670_j57638461112382_2_alg».proof.Proof.Consts

noncomputable section

open scoped BigOperators

namespace Cert.Alg

open Idealize.ShloMosaic Cert.Spec

/-! ## A real factor and a sum with no `⊤` -/

/-- Multiplication by a real distributes over a sum of two extended reals neither of which is `⊤`. -/
theorem coe_mul_add_of_ne_top (c : ℝ) {x y : EReal} (hx : x ≠ ⊤) (hy : y ≠ ⊤) :
    (c : EReal) * (x + y) = (c : EReal) * x + (c : EReal) * y := by
  rcases lt_trichotomy c 0 with hc | hc | hc
  · induction x using EReal.rec with
    | bot =>
      rw [EReal.bot_add, EReal.coe_mul_bot_of_neg hc]
      induction y using EReal.rec with
      | bot => rw [EReal.coe_mul_bot_of_neg hc]; rfl
      | coe y => rw [← EReal.coe_mul, EReal.top_add_coe]
      | top => exact absurd rfl hy
    | coe x =>
      induction y using EReal.rec with
      | bot => rw [EReal.add_bot, EReal.coe_mul_bot_of_neg hc, ← EReal.coe_mul, EReal.coe_add_top]
      | coe y => rw [← EReal.coe_add, ← EReal.coe_mul, ← EReal.coe_mul, ← EReal.coe_mul, ← EReal.coe_add, mul_add]
      | top => exact absurd rfl hy
    | top => exact absurd rfl hx
  · subst hc; simp
  · exact EReal.left_distrib_of_nonneg_of_ne_top (EReal.coe_nonneg.2 hc.le) (EReal.coe_ne_top c) x y

/-- A finite sum of extended reals none of which is `⊤` is not `⊤`. -/
theorem sum_ne_top {ι : Type*} (S : Finset ι) (a : ι → EReal) (h : ∀ i ∈ S, a i ≠ ⊤) :
    ∑ i ∈ S, a i ≠ ⊤ := by
  classical
  induction S using Finset.induction_on with
  | empty => simp
  | insert j S hj ih =>
    rw [Finset.sum_insert hj]
    exact EReal.add_ne_top (h j (Finset.mem_insert_self j S))
      (ih fun i hi => h i (Finset.mem_insert_of_mem hi))

/-- Multiplication by a real distributes over a finite sum of extended reals none of which is `⊤`. -/
theorem mul_sum_of_ne_top {ι : Type*} (S : Finset ι) (c : ℝ) (a : ι → EReal) (h : ∀ i ∈ S, a i ≠ ⊤) :
    (c : EReal) * ∑ i ∈ S, a i = ∑ i ∈ S, (c : EReal) * a i := by
  classical
  induction S using Finset.induction_on with
  | empty => simp
  | insert j S hj ih =>
    have hS : ∀ i ∈ S, a i ≠ ⊤ := fun i hi => h i (Finset.mem_insert_of_mem hi)
    rw [Finset.sum_insert hj, Finset.sum_insert hj,
      coe_mul_add_of_ne_top c (h j (Finset.mem_insert_self j S)) (sum_ne_top S a hS), ih hS]

/-! ## The floored deviation and the clipped probability are positive reals -/

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

theorem sg_real (σ : ℝ) : ∃ r : ℝ, 0 < r ∧ sg (σ : EReal) = (r : EReal) := by
  obtain ⟨ε, hε, he⟩ := cEps_pos
  refine ⟨max (max σ 0) ε, lt_max_of_lt_right hε, ?_⟩
  rw [sg, cZero_eq, he, ← EReal.coe_zero, coe_max', coe_max']

theorem clip_real (s : ℝ) : ∃ c : ℝ, 0 < c ∧ c < 1 ∧ clip (s : EReal) = (c : EReal) := by
  obtain ⟨lo, hi, hlo, hlohi, hhi, elo, ehi⟩ := cLo_cHi
  refine ⟨min hi (max lo s), lt_min (lt_of_lt_of_le hlo hlohi) (lt_max_of_lt_left hlo),
    min_lt_of_left_lt hhi, ?_⟩
  rw [clip, elo, ehi, coe_max', coe_min']

/-! ## `exp ∘ log` on the square of the floored deviation -/

theorem log_coe_pos {a : ℝ} (ha : 0 < a) : Ideal.log (a : EReal) = ((Real.log a : ℝ) : EReal) := by
  rw [Ideal.log_coe, if_neg (not_le.2 ha)]

theorem exp_log_sq (σ : ℝ) : Ideal.exp (Ideal.log (sg σ * sg σ)) = sg σ * sg σ := by
  obtain ⟨r, hr, e⟩ := sg_real σ
  rw [e, ← EReal.coe_mul, log_coe_pos (mul_pos hr hr), Ideal.exp_coe, Real.exp_log (mul_pos hr hr)]

theorem gaussExpLog_eq (σ s w p : ℝ) :
    gaussExpLog (σ : EReal) (s : EReal) (w : EReal) (p : EReal) = gaussSq (σ : EReal) (s : EReal) (w : EReal) (p : EReal) := by
  rw [gaussExpLog, gaussSq, exp_log_sq]

/-! ## One weight's Gaussian term is never `⊤` -/

theorem div_coe_coe (a : ℝ) {b : ℝ} (hb : b ≠ 0) : Ideal.div (a : EReal) (b : EReal) = ((a * (1 / b) : ℝ) : EReal) := by
  rw [Ideal.div_coe hb, ← EReal.coe_mul]

theorem div_zero_of_pos {x : EReal} (hx : 0 < x) : Ideal.div x 0 = ⊤ := by
  rw [Ideal.div, if_pos rfl, if_pos hx]

/-- Off a zero prior deviation the Gaussian term is a real. -/
theorem gaussSq_real (σ s w : ℝ) {p : ℝ} (hp : p ≠ 0) :
    ∃ t : ℝ, gaussSq (σ : EReal) (s : EReal) (w : EReal) (p : EReal) = (t : EReal) := by
  obtain ⟨r, hr, er⟩ := sg_real σ
  obtain ⟨c, hc, _, ec⟩ := clip_real s
  have hpp : 0 < p * p := mul_self_pos.2 hp
  refine ⟨c * ((((1 + Real.log (r * r)) - Real.log (p * p)) - (w * w) * (1 / (p * p))) - (r * r) * (1 / (p * p))), ?_⟩
  rw [gaussSq, gaussWith, er, ec, cOne_eq, ← EReal.coe_mul, ← EReal.coe_mul, ← EReal.coe_mul,
    log_coe_pos (mul_pos hr hr), log_coe_pos hpp, div_coe_coe _ hpp.ne', div_coe_coe _ hpp.ne',
    ← EReal.coe_one, ← EReal.coe_add, ← EReal.coe_sub, ← EReal.coe_sub, ← EReal.coe_sub, ← EReal.coe_mul]

/-- At a zero prior deviation the Gaussian term is `⊥`: its last subtrahend is `sg² / 0 = ⊤`. -/
theorem gaussSq_zero (σ s w : ℝ) :
    gaussSq (σ : EReal) (s : EReal) (w : EReal) ((0 : ℝ) : EReal) = ⊥ := by
  obtain ⟨r, hr, er⟩ := sg_real σ
  obtain ⟨c, hc, _, ec⟩ := clip_real s
  have h0 : ((0 : ℝ) : EReal) * ((0 : ℝ) : EReal) = 0 := by rw [EReal.coe_zero, mul_zero]
  have hrr : (0 : EReal) < (r : EReal) * (r : EReal) := by
    rw [← EReal.coe_mul]; exact EReal.coe_pos.2 (mul_pos hr hr)
  rw [gaussSq, gaussWith, er, ec, h0, div_zero_of_pos hrr, EReal.sub_top, EReal.coe_mul_bot_of_pos hc]

theorem gaussSq_ne_top (σ s w p : ℝ) :
    gaussSq (σ : EReal) (s : EReal) (w : EReal) (p : EReal) ≠ ⊤ := by
  by_cases hp : p = 0
  · subst hp; rw [gaussSq_zero]; exact bot_ne_top
  · obtain ⟨t, ht⟩ := gaussSq_real σ s w hp
    rw [ht]; exact EReal.coe_ne_top t

theorem spikeT_real (s : ℝ) : ∃ r : ℝ, spikeT (s : EReal) = (r : EReal) := by
  obtain ⟨c, hc, hc1, ec⟩ := clip_real s
  obtain ⟨n, hn, en⟩ := cNine_pos
  obtain ⟨d, hd, ed⟩ := cTenth_pos
  have h1c : 0 < 1 - c := sub_pos.2 hc1
  have hn' : 0 < (1 - c) * (1 / n) := mul_pos h1c (one_div_pos.2 hn)
  have hd' : 0 < c * (1 / d) := mul_pos hc (one_div_pos.2 hd)
  refine ⟨(1 - c) * Real.log ((1 - c) * (1 / n)) + c * Real.log (c * (1 / d)), ?_⟩
  rw [spikeT, ec, cOne_eq, en, ed, ← EReal.coe_one, ← EReal.coe_sub, div_coe_coe _ hn.ne', div_coe_coe _ hd.ne',
    log_coe_pos hn', log_coe_pos hd', ← EReal.coe_mul, ← EReal.coe_mul, ← EReal.coe_add]

/-! ## One weight's variance is a nonnegative real -/

theorem varW_real (σ s w : ℝ) : ∃ v : ℝ, 0 ≤ v ∧ varW (σ : EReal) (s : EReal) (w : EReal) = (v : EReal) := by
  obtain ⟨r, hr, er⟩ := sg_real σ
  obtain ⟨c, hc, hc1, ec⟩ := clip_real s
  refine ⟨(c * (r * r) + c * (w * w)) - (c * w) * (c * w), ?_, ?_⟩
  · have e : (c * (r * r) + c * (w * w)) - (c * w) * (c * w) = c * (r * r) + c * (1 - c) * (w * w) := by ring
    rw [e]
    exact add_nonneg (mul_nonneg hc.le (mul_self_nonneg r))
      (mul_nonneg (mul_nonneg hc.le (sub_nonneg.2 hc1.le)) (mul_self_nonneg w))
  · rw [varW, meanW, er, ec, ← EReal.coe_mul, ← EReal.coe_mul, ← EReal.coe_mul, ← EReal.coe_mul, ← EReal.coe_mul,
      ← EReal.coe_mul, ← EReal.coe_add, ← EReal.coe_sub]

theorem varW_nonneg (σ s w : ℝ) : (0 : EReal) ≤ varW (σ : EReal) (s : EReal) (w : EReal) := by
  obtain ⟨v, hv, e⟩ := varW_real σ s w
  rw [e]; exact EReal.coe_nonneg.2 hv

theorem sq_mul_nonneg (x : ℝ) (v : EReal) (hv : 0 ≤ v) : (0 : EReal) ≤ ((x : EReal) * (x : EReal)) * v := by
  refine EReal.mul_nonneg ?_ hv
  rw [← EReal.coe_mul]; exact EReal.coe_nonneg.2 (mul_self_nonneg x)

/-! ## Clamping a nonnegative value at `0` before the square root -/

theorem sqrt_max_zero (v : EReal) (hv : 0 ≤ v) : Ideal.sqrt (max v cZero) = Ideal.sqrt v := by
  rw [cZero_eq, max_eq_left hv]

/-! ## Regrouping the divergence: row-tile partial sums against one sum -/

theorem regroup {R T B : ℕ} (c : ℝ) (g s : Fin R → Fin T → Fin B → EReal) (hg : ∀ r t l, g r t l ≠ ⊤) :
    ∑ r, ∑ t, ((c : EReal) * (0 + ∑ l, g r t l) + (0 + ∑ l, s r t l))
      = (c : EReal) * (0 + ∑ r, ∑ t, ∑ l, g r t l) + (0 + ∑ r, ∑ t, ∑ l, s r t l) := by
  have h1 : ∀ r t, ∑ l, g r t l ≠ ⊤ := fun r t => sum_ne_top _ _ fun l _ => hg r t l
  have h2 : ∀ r, ∑ t, ∑ l, g r t l ≠ ⊤ := fun r => sum_ne_top _ _ fun t _ => h1 r t
  simp only [zero_add]
  rw [mul_sum_of_ne_top _ c _ fun r _ => h2 r]
  simp only [Finset.sum_add_distrib]
  congr 1
  exact Finset.sum_congr rfl fun r _ => (mul_sum_of_ne_top _ c _ fun t _ => h1 r t).symm

end Cert.Alg

end
-- ==== Proof.Bridge.lean ====
/-
  Array-level laws joining what the accumulators hold to the specification: a sum over 32768 places cut into
  equal tiles, an accumulator that adds one tile's contribution per step, the nonnegativity of the
  pre-activation's variance, and the divergence assembled from per-row, per-tile partial sums.
-/
import proofs.«157670_j57638461112382_2_alg».proof.Proof.Algebra

noncomputable section

open scoped BigOperators

namespace Cert.Alg

open Idealize.ShloMosaic Idealize.ShloMosaic.ValueIdx Cert.Spec

/-! ## A sum cut into equal tiles -/

theorem tile_lt {T B : ℕ} (t : Fin T) (l : Fin B) : t.val * B + l.val < T * B :=
  calc t.val * B + l.val < t.val * B + B := Nat.add_lt_add_left l.isLt _
    _ = (t.val + 1) * B := (Nat.succ_mul _ _).symm
    _ ≤ T * B := Nat.mul_le_mul_right B t.isLt

theorem sum_tiles {M : Type*} [AddCommMonoid M] (T B : ℕ) (f : Fin (T * B) → M) :
    ∑ k, f k = ∑ t : Fin T, ∑ l : Fin B, f ⟨t.val * B + l.val, tile_lt t l⟩ := by
  rw [← Fintype.sum_prod_type', ← finProdFinEquiv.sum_comp]
  refine Finset.sum_congr rfl fun x _ => ?_
  congr 1
  apply Fin.ext
  show x.2.val + B * x.1.val = x.1.val * B + x.2.val
  rw [Nat.mul_comm, Nat.add_comm]

theorem sum_tiles_16 {M : Type*} [AddCommMonoid M] (f : Fin 32768 → M) :
    ∑ k : Fin 32768, f k = ∑ t : Fin 16, ∑ l : Fin 2048, f ⟨t.val * 2048 + l.val, by omega⟩ :=
  sum_tiles 16 2048 f

theorem sum_tiles_64 {M : Type*} [AddCommMonoid M] (f : Fin 32768 → M) :
    ∑ k : Fin 32768, f k = ∑ t : Fin 64, ∑ l : Fin 512, f ⟨t.val * 512 + l.val, by omega⟩ :=
  sum_tiles 64 512 f

/-! ## An accumulator that adds one contribution per step -/

theorem acc_eq_bdd {M : Type*} [AddCommMonoid M] (N : ℕ) (z : M) (a acc : ℕ → M) (h0 : acc 0 = z + a 0)
    (hs : ∀ k, k + 1 < N → acc (k + 1) = acc k + a (k + 1)) :
    ∀ n, n < N → acc n = z + ∑ k ∈ Finset.range (n + 1), a k := by
  intro n
  induction n with
  | zero => intro _; rw [h0, Finset.sum_range_one]
  | succ n ih =>
    intro hn
    rw [hs n hn, ih (Nat.lt_of_succ_lt hn), Finset.sum_range_succ _ (n + 1), add_assoc]

theorem acc_eq {M : Type*} [AddCommMonoid M] (z : M) (a acc : ℕ → M) (h0 : acc 0 = z + a 0)
    (hs : ∀ k, acc (k + 1) = acc k + a (k + 1)) (n : ℕ) :
    acc n = z + ∑ k ∈ Finset.range (n + 1), a k :=
  acc_eq_bdd (n + 1) z a acc h0 (fun k _ => hs k) n (Nat.lt_succ_self n)

/-- After the 64th step the accumulator holds the whole sum over the 32768 places. -/
theorem acc_63 {M : Type*} [AddCommMonoid M] (z : M) (f : Fin 32768 → M) (a acc : ℕ → M)
    (ha : ∀ (k : ℕ) (hk : k < 64), a k = ∑ l : Fin 512, f ⟨k * 512 + l.val, by omega⟩)
    (h0 : acc 0 = z + a 0) (hs : ∀ k, k + 1 < 64 → acc (k + 1) = acc k + a (k + 1)) :
    acc 63 = z + ∑ k : Fin 32768, f k := by
  rw [acc_eq_bdd 64 z a acc h0 hs 63 (by norm_num), ← Fin.sum_univ_eq_sum_range, sum_tiles_64]
  congr 1
  exact Finset.sum_congr rfl fun t _ => ha t.val t.isLt

theorem acc_63_cZero (f : Fin 32768 → EReal) (a acc : ℕ → EReal)
    (ha : ∀ (k : ℕ) (hk : k < 64), a k = ∑ l : Fin 512, f ⟨k * 512 + l.val, by omega⟩)
    (h0 : acc 0 = cZero + a 0) (hs : ∀ k, k + 1 < 64 → acc (k + 1) = acc k + a (k + 1)) :
    acc 63 = ∑ k : Fin 32768, f k := by
  rw [acc_63 cZero f a acc ha h0 hs, cZero_eq, zero_add]

/-! ## The pre-activation's variance is nonnegative -/

theorem varAt_nonneg (x : SX.Idx → EReal) (w σ s : SW.Idx → EReal)
    (hx : ∀ i, ∃ r : ℝ, x i = (r : EReal)) (hw : ∀ i, ∃ r : ℝ, w i = (r : EReal))
    (hσ : ∀ i, ∃ r : ℝ, σ i = (r : EReal)) (hs : ∀ i, ∃ r : ℝ, s i = (r : EReal))
    (b : Fin 4096) (j : Fin 128) : (0 : EReal) ≤ varAt x w σ s b j := by
  rw [varAt]
  refine Finset.sum_nonneg fun k _ => ?_
  obtain ⟨x', ex⟩ := hx (ix2 b k)
  obtain ⟨w', ew⟩ := hw (ix2 j k)
  obtain ⟨σ', eσ⟩ := hσ (ix2 j k)
  obtain ⟨s', es⟩ := hs (ix2 j k)
  rw [ex, ew, eσ, es]
  exact sq_mul_nonneg x' _ (varW_nonneg σ' s' w')

theorem sqrt_clamp (x : SX.Idx → EReal) (w σ s : SW.Idx → EReal)
    (hx : ∀ i, ∃ r : ℝ, x i = (r : EReal)) (hw : ∀ i, ∃ r : ℝ, w i = (r : EReal))
    (hσ : ∀ i, ∃ r : ℝ, σ i = (r : EReal)) (hs : ∀ i, ∃ r : ℝ, s i = (r : EReal))
    (b : Fin 4096) (j : Fin 128) :
    Ideal.sqrt (max (varAt x w σ s b j) cZero) = Ideal.sqrt (varAt x w σ s b j) :=
  sqrt_max_zero _ (varAt_nonneg x w σ s hx hw hσ hs b j)

/-! ## The divergence from per-row, per-tile partial sums -/

theorem gaussExpLog_eq' {σ s w p : EReal} (hσ : ∃ r : ℝ, σ = (r : EReal)) (hs : ∃ r : ℝ, s = (r : EReal))
    (hw : ∃ r : ℝ, w = (r : EReal)) (hp : ∃ r : ℝ, p = (r : EReal)) : gaussExpLog σ s w p = gaussSq σ s w p := by
  obtain ⟨_, rfl⟩ := hσ; obtain ⟨_, rfl⟩ := hs; obtain ⟨_, rfl⟩ := hw; obtain ⟨_, rfl⟩ := hp
  exact gaussExpLog_eq _ _ _ _

theorem gaussSq_ne_top' {σ s w p : EReal} (hσ : ∃ r : ℝ, σ = (r : EReal)) (hs : ∃ r : ℝ, s = (r : EReal))
    (hw : ∃ r : ℝ, w = (r : EReal)) (hp : ∃ r : ℝ, p = (r : EReal)) : gaussSq σ s w p ≠ ⊤ := by
  obtain ⟨_, rfl⟩ := hσ; obtain ⟨_, rfl⟩ := hs; obtain ⟨_, rfl⟩ := hw; obtain ⟨_, rfl⟩ := hp
  exact gaussSq_ne_top _ _ _ _

/-- The regrouping law with plain inner sums. -/
theorem regroup' {R T B : ℕ} (c : ℝ) (g s : Fin R → Fin T → Fin B → EReal) (hg : ∀ r t l, g r t l ≠ ⊤) :
    ∑ r, ∑ t, ((c : EReal) * (∑ l, g r t l) + ∑ l, s r t l)
      = (c : EReal) * (∑ r, ∑ t, ∑ l, g r t l) + ∑ r, ∑ t, ∑ l, s r t l := by
  have h := regroup c g s hg
  simp only [zero_add] at h
  exact h

/-- Row `r`'s contribution from lane tile `t` (2048 places): `-½` times the tile's Gaussian sum, plus the
    tile's Bernoulli sum. -/
def Tt (w σ s p : SW.Idx → EReal) (t : ℕ) (ht : t < 16) (r : Fin 128) : EReal :=
  cNegHalf * (∑ l : Fin 2048, gaussSq (σ (ix2 r ⟨t * 2048 + l.val, by omega⟩)) (s (ix2 r ⟨t * 2048 + l.val, by omega⟩))
      (w (ix2 r ⟨t * 2048 + l.val, by omega⟩)) (p (ix2 r ⟨t * 2048 + l.val, by omega⟩)))
    + ∑ l : Fin 2048, spikeT (s (ix2 r ⟨t * 2048 + l.val, by omega⟩))

theorem kl_bridge (w σ s p : SW.Idx → EReal)
    (hw : ∀ i, ∃ r : ℝ, w i = (r : EReal)) (hσ : ∀ i, ∃ r : ℝ, σ i = (r : EReal))
    (hs : ∀ i, ∃ r : ℝ, s i = (r : EReal)) (hp : ∀ i, ∃ r : ℝ, p i = (r : EReal))
    (A : ℕ → Fin 128 → EReal)
    (hA0 : ∀ r, A 0 r = cZero + Tt w σ s p 0 (by norm_num) r)
    (hAs : ∀ n (h : n + 1 < 16) r, A (n + 1) r = A n r + Tt w σ s p (n + 1) h r) :
    Ideal.div (cZero + ∑ r : Fin 128, A 15 r) cCount = kl w σ s p := by
  have hA : ∀ r, A 15 r = ∑ t : Fin 16, Tt w σ s p t.val t.isLt r := by
    intro r
    have h := acc_eq_bdd 16 cZero (fun k => if h : k < 16 then Tt w σ s p k h r else 0) (fun n => A n r)
      (by show A 0 r = cZero + _; rw [hA0 r, dif_pos (by norm_num : 0 < 16)])
      (fun k hk => by show A (k + 1) r = A k r + _; rw [hAs k hk r, dif_pos hk]) 15 (by norm_num)
    rw [show A 15 r = _ from h, cZero_eq, zero_add, ← Fin.sum_univ_eq_sum_range]
    exact Finset.sum_congr rfl fun t _ => dif_pos t.isLt
  have eG : ∑ i : SW.Idx, gaussExpLog (σ i) (s i) (w i) (p i)
      = ∑ r : Fin 128, ∑ t : Fin 16, ∑ l : Fin 2048,
          gaussSq (σ (ix2 r ⟨t.val * 2048 + l.val, by omega⟩)) (s (ix2 r ⟨t.val * 2048 + l.val, by omega⟩))
            (w (ix2 r ⟨t.val * 2048 + l.val, by omega⟩)) (p (ix2 r ⟨t.val * 2048 + l.val, by omega⟩)) := by
    rw [sum_idx2]
    refine Finset.sum_congr rfl fun r _ => ?_
    rw [sum_tiles_16]
    refine Finset.sum_congr rfl fun t _ => Finset.sum_congr rfl fun l _ => ?_
    exact gaussExpLog_eq' (hσ _) (hs _) (hw _) (hp _)
  have eS : ∑ i : SW.Idx, spikeT (s i)
      = ∑ r : Fin 128, ∑ t : Fin 16, ∑ l : Fin 2048, spikeT (s (ix2 r ⟨t.val * 2048 + l.val, by omega⟩)) := by
    rw [sum_idx2]
    refine Finset.sum_congr rfl fun r _ => ?_
    rw [sum_tiles_16]
  rw [kl, eG, eS]
  refine congrArg (fun z => Ideal.div z cCount) ?_
  simp only [hA, Tt, cZero_eq, zero_add, cNegHalf_eq]
  exact regroup' (-1 / 2) _ _ fun r t l => gaussSq_ne_top' (hσ _) (hs _) (hw _) (hp _)

end Cert.Alg

end
-- ==== Proof.R0Value.lean ====
/- What the first pallas_call's region leaves, in terms of the body's arithmetic: at every point the two bf16
   outputs' buffers hold fixed functions of that point's input blocks, and the accumulator follows the recurrence
   "zero at the first point, then add each block's contribution in order"; at the last point its contents are what the
   last output's buffer receives. Each case's stores are read off its run once, over arbitrary buffers and contents;
   the recurrence is then an induction on the point. -/
import proofs.«157670_j57638461112382_2_alg».proof.Proof.R0Frame
import Idealize.ShloMosaic.Lib.Pipeline.Value

-- membership in a rectangle with a 2048-long axis is decided structurally, one step per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of this body: the origin. -/
theorem hz2 : (![0, 0] : Fin 2 → Nat) = fun _ => 0 := funext fun a => by fin_cases a <;> rfl

/-! ## Each case's stores, read off its run -/

/-- Case A: the first bf16 output's buffer ends at the one whole-block store's payload, a function of the input blocks alone. -/
theorem out0_A_4_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) :
    out0_A_4 c i arg1 harg1 arg2 harg2 arg3 harg3 arg4 harg4 arg5 harg5 arg6 harg6 arg7 harg7 arg8 harg8 hc0 hc1 x0 x1 x2 x3 = k0_pay6 x2 x0 := by
  unfold out0_A_4
  rw [View.read_writes_eq_canon _ _ _ (cover0_A_4 c i arg1 harg1 arg2 harg2 arg3 harg3 arg4 harg4 arg5 harg5 arg6 harg6 arg7 harg7 arg8 harg8 hc0 hc1 x0 x1 x2 x3)]
  unfold kernelRun0_A
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case A: the second bf16 output's buffer ends at the one whole-block store's payload, a function of the input blocks alone. -/
theorem out0_A_5_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) :
    out0_A_5 c i arg1 harg1 arg2 harg2 arg3 harg3 arg4 harg4 arg5 harg5 arg6 harg6 arg7 harg7 arg8 harg8 hc0 hc1 x0 x1 x2 x3 = k0_pay7 x1 x2 x0 := by
  unfold out0_A_5
  rw [View.read_writes_eq_canon _ _ _ (cover0_A_5 c i arg1 harg1 arg2 harg2 arg3 harg3 arg4 harg4 arg5 harg5 arg6 harg6 arg7 harg7 arg8 harg8 hc0 hc1 x0 x1 x2 x3)]
  unfold kernelRun0_A
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case A: the accumulator ends at this block's contribution added to the zero column the reset stored (the body
    reads the reset's store back before adding). -/
theorem sout0_A_0_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : cond0_0 i) (hc1 : ¬cond0_1 i)
    (x0 : Vec F S128x2048 .f32) (x1 : Vec F S128x2048 .f32) (x2 : Vec F S128x2048 .f32) (x3 : Vec F S128x2048 .f32) :
    sout0_A_0 c i arg1 harg1 arg2 harg2 arg3 harg3 arg4 harg4 arg5 harg5 arg6 harg6 arg7 harg7 arg8 harg8 hc0 hc1 x0 x1 x2 x3 = k0_pay1 (k0_pay3 x2) (k0_pay9 x1 x0 x3) (k0_pay10 x1 x3) k0_pay2 := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S128x1) hz2, View.readCov_unit_zero (S := S128x1) _ hz2]
  simp only [View.readAt_eq_ld, harg1.read_unread, harg2.read_unread, harg3.read_unread, harg4.read_unread, View.ld_unit_zero (S := S128x2048) hz2]

/-- Case B: the first bf16 output's buffer ends at the one whole-block store's payload, a function of the input blocks alone. -/
theorem out0_B_4_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) :
    out0_B_4 c i arg1 harg1 arg2 harg2 arg3 harg3 arg4 harg4 arg5 harg5 arg6 harg6 arg7 harg7 arg8 harg8 hc0 hc1 x0 x1 x2 x3 xs0 = k0_pay6 x2 x0 := by
  unfold out0_B_4
  rw [View.read_writes_eq_canon _ _ _ (cover0_B_4 c i arg1 harg1 arg2 harg2 arg3 harg3 arg4 harg4 arg5 harg5 arg6 harg6 arg7 harg7 arg8 harg8 hc0 hc1 x0 x1 x2 x3 xs0)]
  unfold kernelRun0_B
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case B: the second bf16 output's buffer ends at the one whole-block store's payload, a function of the input blocks alone. -/
theorem out0_B_5_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) :
    out0_B_5 c i arg1 harg1 arg2 harg2 arg3 harg3 arg4 harg4 arg5 harg5 arg6 harg6 arg7 harg7 arg8 harg8 hc0 hc1 x0 x1 x2 x3 xs0 = k0_pay7 x1 x2 x0 := by
  unfold out0_B_5
  rw [View.read_writes_eq_canon _ _ _ (cover0_B_5 c i arg1 harg1 arg2 harg2 arg3 harg3 arg4 harg4 arg5 harg5 arg6 harg6 arg7 harg7 arg8 harg8 hc0 hc1 x0 x1 x2 x3 xs0)]
  unfold kernelRun0_B
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case B: the accumulator ends at this block's contribution added to what it held. -/
theorem sout0_B_0_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : ¬cond0_1 i)
    (x0 : Vec F S128x2048 .f32) (x1 : Vec F S128x2048 .f32) (x2 : Vec F S128x2048 .f32) (x3 : Vec F S128x2048 .f32) (xs0 : Vec F S128x1 .f32) :
    sout0_B_0 c i arg1 harg1 arg2 harg2 arg3 harg3 arg4 harg4 arg5 harg5 arg6 harg6 arg7 harg7 arg8 harg8 hc0 hc1 x0 x1 x2 x3 xs0 = k0_pay1 (k0_pay3 x2) (k0_pay9 x1 x0 x3) (k0_pay10 x1 x3) xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0)]
  unfold kernelRun0_B
  dsimp only
  (try sl_unfold_words)
  rw [View.canon_unit_zero (S := S128x1) hz2]
  simp only [View.readAt_eq_ld, harg1.read_unread, harg2.read_unread, harg3.read_unread, harg4.read_unread, harg8.read_unread, View.ld_unit_zero (S := S128x2048) hz2, View.ld_unit_zero (S := S128x1) hz2]

/-- Case C: the first bf16 output's buffer ends at the one whole-block store's payload, a function of the input blocks alone. -/
theorem out0_C_4_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    out0_C_4 c i arg1 harg1 arg2 harg2 arg3 harg3 arg4 harg4 arg5 harg5 arg6 harg6 arg7 harg7 arg8 harg8 hc0 hc1 x0 x1 x2 x3 xs0 = k0_pay6 x2 x0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0)]
  unfold kernelRun0_C
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case C: the second bf16 output's buffer ends at the one whole-block store's payload, a function of the input blocks alone. -/
theorem out0_C_5_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    out0_C_5 c i arg1 harg1 arg2 harg2 arg3 harg3 arg4 harg4 arg5 harg5 arg6 harg6 arg7 harg7 arg8 harg8 hc0 hc1 x0 x1 x2 x3 xs0 = k0_pay7 x1 x2 x0 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0)]
  unfold kernelRun0_C
  dsimp only
  (try sl_unfold_words)
  rw [View.canon_unit_zero (S := S128x2048) hz2]
  simp only [View.readAt_eq_ld, harg1.read_unread, harg2.read_unread, harg3.read_unread, harg4.read_unread, View.ld_unit_zero (S := S128x2048) hz2]

/-- Case C: the accumulator ends at this block's contribution added to what it held. -/
theorem sout0_C_0_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    sout0_C_0 c i arg1 harg1 arg2 harg2 arg3 harg3 arg4 harg4 arg5 harg5 arg6 harg6 arg7 harg7 arg8 harg8 hc0 hc1 x0 x1 x2 x3 xs0 = k0_pay1 (k0_pay3 x2) (k0_pay9 x1 x0 x3) (k0_pay10 x1 x3) xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0)]
  unfold kernelRun0_C
  dsimp only
  (try sl_unfold_words)
  rw [View.canon_unit_zero (S := S128x1) hz2]
  simp only [View.readAt_eq_ld, harg1.read_unread, harg2.read_unread, harg3.read_unread, harg4.read_unread, harg8.read_unread, View.ld_unit_zero (S := S128x2048) hz2, View.ld_unit_zero (S := S128x1) hz2]

/-- Case C: the last output's buffer ends at the accumulator's final contents (read back after the addition). -/
theorem out0_C_6_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x1 .f32) (harg7 : arg7.IsWhole) (arg8 : Memref sig .tc .vmem S128x1 .f32) (harg8 : arg8.IsWhole) (hc0 : ¬cond0_0 i) (hc1 : cond0_1 i)
    (x0 : Vec F S128x2048 .f32) (x1 : Vec F S128x2048 .f32) (x2 : Vec F S128x2048 .f32) (x3 : Vec F S128x2048 .f32) (xs0 : Vec F S128x1 .f32) :
    out0_C_6 c i arg1 harg1 arg2 harg2 arg3 harg3 arg4 harg4 arg5 harg5 arg6 harg6 arg7 harg7 arg8 harg8 hc0 hc1 x0 x1 x2 x3 xs0 = k0_pay1 (k0_pay3 x2) (k0_pay9 x1 x0 x3) (k0_pay10 x1 x3) xs0 := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero (S := S128x1) hz2, View.readCov_unit_zero (S := S128x1) _ hz2]
  simp only [View.readAt_eq_ld, harg1.read_unread, harg2.read_unread, harg3.read_unread, harg4.read_unread, harg8.read_unread, View.ld_unit_zero (S := S128x2048) hz2, View.ld_unit_zero (S := S128x1) hz2]

section Region
variable (V : (c : Dev nD) → (b : Ref sig .tc) → Buf (Elt F) ((c : Thread nD τ).loc b))

/-! ## The windows after the body -/

/-- The four inputs' buffers are left at their blocks. -/
theorem after0_in (c : Dev nD) (t : Fin cfg0.N) :
    (dat0 V c).after 0 t = iblk0 V c 0 t ∧ (dat0 V c).after 1 t = iblk0 V c 1 t ∧ (dat0 V c).after 2 t = iblk0 V c 2 t ∧ (dat0 V c).after 3 t = iblk0 V c 3 t :=
  ⟨aft0_0 V c t, aft0_1 V c t, aft0_2 V c t, aft0_3 V c t⟩

/-- After the body at any point, the first bf16 output's buffer holds the rounded product of two input blocks: whichever case the point is in, the case's
    one covering store has that payload. -/
theorem after0_4 (c : Dev nD) (t : Fin cfg0.N) : (dat0 V c).after 4 t = (k0_pay6 (iblk0 V c 2 t) (iblk0 V c 0 t) : Vec F S128x2048 .bf16) := by
  have hN : t.val < 16 := lt_of_lt_of_eq t.isLt (show cfg0.N = 16 from N_0)
  rw [aft0_4]
  by_cases h0 : t.val % 16 = 0
  · have h1 : ¬t.val % 16 = 15 := by omega
    rw [outsAt0_A V c t h0 h1]
    dsimp only
    exact out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t)
  by_cases h1 : t.val % 16 = 15
  · rw [outsAt0_C V c t h0 h1]
    dsimp only
    exact out0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2
  · rw [outsAt0_B V c t h0 h1]
    dsimp only
    exact out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2

/-- After the body at any point, the second bf16 output's buffer holds its rounded function of three input blocks: whichever case the point is in, the case's
    one covering store has that payload. -/
theorem after0_5 (c : Dev nD) (t : Fin cfg0.N) : (dat0 V c).after 5 t = (k0_pay7 (iblk0 V c 1 t) (iblk0 V c 2 t) (iblk0 V c 0 t) : Vec F S128x2048 .bf16) := by
  have hN : t.val < 16 := lt_of_lt_of_eq t.isLt (show cfg0.N = 16 from N_0)
  rw [aft0_5]
  by_cases h0 : t.val % 16 = 0
  · have h1 : ¬t.val % 16 = 15 := by omega
    rw [outsAt0_A V c t h0 h1]
    dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t)
  by_cases h1 : t.val % 16 = 15
  · rw [outsAt0_C V c t h0 h1]
    dsimp only
    exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.2
  · rw [outsAt0_B V c t h0 h1]
    dsimp only
    exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.2

/-! ## The accumulator -/

/-- One point's update of the accumulator: the block's contribution added to what it held. -/
def step0 (c : Dev nD) (t : Fin cfg0.N) (prev : Vec F S128x1 .f32) : Vec F S128x1 .f32 :=
  k0_pay1 (k0_pay3 (iblk0 V c 2 t)) (k0_pay9 (iblk0 V c 1 t) (iblk0 V c 0 t) (iblk0 V c 3 t)) (k0_pay10 (iblk0 V c 1 t) (iblk0 V c 3 t)) prev

/-- The accumulator after point `n`: the updates of points 0 … n in order, starting from the zero column. -/
def acc0 (c : Dev nD) : (n : ℕ) → n < cfg0.N → Vec F S128x1 .f32
  | 0, h => step0 V c ⟨0, h⟩ k0_pay2
  | n + 1, h => step0 V c ⟨n + 1, h⟩ (acc0 c n (Nat.lt_of_succ_lt h))

/-- What the accumulator's buffer holds after each point is that recurrence: by induction on the point, each step the
    case's store read off its run. -/
theorem sAt0_eq (c : Dev nD) : ∀ (n : ℕ) (hn : n < cfg0.N), (outsAt0 V c n hn).2.2.2 = acc0 V c n hn := by
  intro n
  induction n with
  | zero =>
    intro hn
    have h0 : (⟨0, hn⟩ : Fin cfg0.N).val % 16 = 0 := Nat.zero_mod 16
    have h1 : ¬(⟨0, hn⟩ : Fin cfg0.N).val % 16 = 15 := by dsimp only; omega
    exact (congrArg (fun p => p.2.2.2) (outsAt0_A V c (⟨0, hn⟩ : Fin cfg0.N) h0 h1)).trans
      (sout0_A_0_eq c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) (ms0_3 (⟨0, hn⟩ : Fin cfg0.N)) (hs0_3 (⟨0, hn⟩ : Fin cfg0.N)) (ms0_4 (⟨0, hn⟩ : Fin cfg0.N)) (hs0_4 (⟨0, hn⟩ : Fin cfg0.N)) (ms0_5 (⟨0, hn⟩ : Fin cfg0.N)) (hs0_5 (⟨0, hn⟩ : Fin cfg0.N)) (ms0_6 (⟨0, hn⟩ : Fin cfg0.N)) (hs0_6 (⟨0, hn⟩ : Fin cfg0.N)) scM0_0 (Memref.isWhole_whole _) ((hcond0_0 (⟨0, hn⟩ : Fin cfg0.N)).mpr h0) (fun h => h1 ((hcond0_1 (⟨0, hn⟩ : Fin cfg0.N)).mp h)) (iblk0 V c 0 (⟨0, hn⟩ : Fin cfg0.N)) (iblk0 V c 1 (⟨0, hn⟩ : Fin cfg0.N)) (iblk0 V c 2 (⟨0, hn⟩ : Fin cfg0.N)) (iblk0 V c 3 (⟨0, hn⟩ : Fin cfg0.N)))
  | succ n ih =>
    intro hn
    have hN : n + 1 < 16 := lt_of_lt_of_eq hn (show cfg0.N = 16 from N_0)
    have h0 : ¬(⟨n + 1, hn⟩ : Fin cfg0.N).val % 16 = 0 := by dsimp only; omega
    by_cases h1 : (⟨n + 1, hn⟩ : Fin cfg0.N).val % 16 = 15
    · exact ((congrArg (fun p => p.2.2.2) (outsAt0_C V c (⟨n + 1, hn⟩ : Fin cfg0.N) h0 h1)).trans
        (sout0_C_0_eq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) (fun h => h0 ((hcond0_0 (⟨n + 1, hn⟩ : Fin cfg0.N)).mp h)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2)).trans
        (congrArg (step0 V c (⟨n + 1, hn⟩ : Fin cfg0.N)) (ih (Nat.lt_of_succ_lt hn)))
    · exact ((congrArg (fun p => p.2.2.2) (outsAt0_B V c (⟨n + 1, hn⟩ : Fin cfg0.N) h0 h1)).trans
        (sout0_B_0_eq c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) scM0_0 (Memref.isWhole_whole _) (fun h => h0 ((hcond0_0 (⟨n + 1, hn⟩ : Fin cfg0.N)).mp h)) (fun h => h1 ((hcond0_1 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2)).trans
        (congrArg (step0 V c (⟨n + 1, hn⟩ : Fin cfg0.N)) (ih (Nat.lt_of_succ_lt hn)))

/-- At the last point the last output's buffer receives the accumulator's final contents: both are the same update of
    what the point before left. -/
theorem after0_6_last (c : Dev nD) (t : Fin cfg0.N) (ht : t.val % 16 = 15) : (dat0 V c).after 6 t = acc0 V c t.val t.isLt := by
  have hN : t.val < 16 := lt_of_lt_of_eq t.isLt (show cfg0.N = 16 from N_0)
  have h0 : ¬t.val % 16 = 0 := by omega
  have eT := outsAt0_C V c t h0 ht
  exact ((aft0_6 V c t).trans (congrArg (fun p => p.2.2.1) eT)).trans
    ((out0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr ht) (iblk0 V c 0 t) (iblk0 V c 1 t) (iblk0 V c 2 t) (iblk0 V c 3 t) (outsAt0 V c (t.val - 1) (Nat.lt_of_le_of_lt (Nat.sub_le _ _) t.isLt)).2.2.2).trans
      (((congrArg (fun p => p.2.2.2) eT).trans (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr ht) (iblk0 V c 0 t) (iblk0 V c 1 t) (iblk0 V c 2 t) (iblk0 V c 3 t) (outsAt0 V c (t.val - 1) (Nat.lt_of_le_of_lt (Nat.sub_le _ _) t.isLt)).2.2.2)).symm.trans
        (sAt0_eq V c t.val t.isLt)))

end Region

end Cert.KernelIdeal.Hand

end
-- ==== Proof.K0Value.lean ====
/-
  What the first kernel leaves in its three output arrays, at the extended reals.  Each of its 16 points reads the
  [128, 2048] column block of the four weight arrays at the point's own position, writes the matching block of the
  first two outputs — each weight's posterior mean and variance — and the blocks tile the [128, 32768] arrays; the
  third output, [128, 1], is written once, at the last point, with what the accumulator then holds.
-/
import proofs.«157670_j57638461112382_2_alg».proof.Proof.R0Value
import proofs.«157670_j57638461112382_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payloads of the first kernel at an index -/

theorem pay3_at (s : Vec Ideal S128x2048 .f32) (j : S128x2048.Idx) :
    k0_pay3 (F := Ideal) s j = Cert.Spec.clip (s j) := rfl

theorem pay5_at (σ : Vec Ideal S128x2048 .f32) (j : S128x2048.Idx) :
    k0_pay5 (F := Ideal) σ j = Cert.Spec.sg (σ j) * Cert.Spec.sg (σ j) := rfl

theorem pay6_at (s w : Vec Ideal S128x2048 .f32) (j : S128x2048.Idx) :
    k0_pay6 (F := Ideal) s w j = Cert.Spec.meanW (s j) (w j) := rfl

theorem pay7_at (σ s w : Vec Ideal S128x2048 .f32) (j : S128x2048.Idx) :
    k0_pay7 (F := Ideal) σ s w j = Cert.Spec.varW (σ j) (s j) (w j) := rfl

theorem pay9_at (σ w p : Vec Ideal S128x2048 .f32) (j : S128x2048.Idx) :
    k0_pay9 (F := Ideal) σ w p j
      = ((Cert.Spec.cOne + Ideal.log (Cert.Spec.sg (σ j) * Cert.Spec.sg (σ j))) - Ideal.log (p j * p j))
        - Ideal.div (w j * w j) (p j * p j) := rfl

theorem pay10_at (σ p : Vec Ideal S128x2048 .f32) (j : S128x2048.Idx) :
    k0_pay10 (F := Ideal) σ p j = Ideal.div (Cert.Spec.sg (σ j) * Cert.Spec.sg (σ j)) (p j * p j) := rfl

/-! ## Where a block sits in its array -/

/-- The block index of every window at every point: the six [128, 2048] windows move along the columns with the point,
    the [128, 1] window stays. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = 0 :=
  (by decide +kernel : ∀ t : Fin grid0.N, _)

/-- The column of the array under column `l` of the block at point `t`. -/
def colAt (t : Fin cfg0.N) (l : Fin 2048) : Fin 32768 :=
  ⟨t.val * 2048 + l.val, by have ht : t.val < 16 := t.isLt; have hl := l.isLt; omega⟩

theorem emb0_4 (t : Fin cfg0.N) (r : Fin 128) (l : Fin 2048) :
    ((cfg0.win 4).blk t).view.emb (ix2 r l) = ix2 r (colAt t l) := by
  obtain ⟨e00, e01, e10, e11, e20, e21, e30, e31, e40, e41, e50, e51, e60, e61⟩ := idx_facts0 t
  funext a; apply Fin.ext
  match a with
  | ⟨0, _⟩ => show win0_4.index t (0 : Fin 2) * 128 + 1 * r.val = r.val; omega
  | ⟨1, _⟩ => show win0_4.index t (1 : Fin 2) * 2048 + 1 * l.val = t.val * 2048 + l.val; omega

variable (V : (c : Dev nD) → (b : Ref sig .tc) → Buf (Elt Ideal) ((c : Thread nD τ).loc b))

theorem iblk0_0_at (c : Dev nD) (t : Fin cfg0.N) (r : Fin 128) (l : Fin 2048) :
    iblk0 V c 0 t (ix2 r l) = V c main_arg1 (ix2 r (colAt t l)) := by
  obtain ⟨e00, e01, e10, e11, e20, e21, e30, e31, e40, e41, e50, e51, e60, e61⟩ := idx_facts0 t
  unfold iblk0
  show V c main_arg1 (((cfg0.win 0).blk t).view.emb (ix2 r l)) = _
  congr 1
  funext a; apply Fin.ext
  match a with
  | ⟨0, _⟩ => show win0_0.index t (0 : Fin 2) * 128 + 1 * r.val = r.val; omega
  | ⟨1, _⟩ => show win0_0.index t (1 : Fin 2) * 2048 + 1 * l.val = t.val * 2048 + l.val; omega

theorem iblk0_2_at (c : Dev nD) (t : Fin cfg0.N) (r : Fin 128) (l : Fin 2048) :
    iblk0 V c 2 t (ix2 r l) = V c main_arg3 (ix2 r (colAt t l)) := by
  obtain ⟨e00, e01, e10, e11, e20, e21, e30, e31, e40, e41, e50, e51, e60, e61⟩ := idx_facts0 t
  unfold iblk0
  show V c main_arg3 (((cfg0.win 2).blk t).view.emb (ix2 r l)) = _
  congr 1
  funext a; apply Fin.ext
  match a with
  | ⟨0, _⟩ => show win0_2.index t (0 : Fin 2) * 128 + 1 * r.val = r.val; omega
  | ⟨1, _⟩ => show win0_2.index t (1 : Fin 2) * 2048 + 1 * l.val = t.val * 2048 + l.val; omega

/-- What the first output array ends holding: each weight's posterior mean. -/
abbrev G0_4 (c : Dev nD) : S128x32768.Idx → EReal := fun i => Cert.Spec.meanW (V c main_arg3 i) (V c main_arg1 i)

theorem flushed0_4 (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4]
  funext j
  obtain ⟨r, l, rfl⟩ : ∃ (r : Fin 128) (l : Fin 2048), j = ix2 r l := ⟨j 0, j 1, eq_ix2 j⟩
  show k0_pay6 (F := Ideal) (iblk0 V c 2 t) (iblk0 V c 0 t) (ix2 r l) = G0_4 V c (((cfg0.win 4).blk t).view.emb (ix2 r l))
  rw [pay6_at, iblk0_2_at, iblk0_0_at, emb0_4]

theorem mem_blk0_4 (t : Fin cfg0.N) (i : S128x32768.Idx) :
    i ∈ ((cfg0.win 4).blk t).view.set ↔ ∀ a : Fin 2, win0_4.index t a * S128x2048.size a ≤ (i a).val ∧ (i a).val < win0_4.index t a * S128x2048.size a + S128x2048.size a := by
  show i ∈ ((View.whole main_v0_0).slice (win0_4.rect t)).set ↔ _
  rw [View.set_slice_whole, Rect.mem_set_unit]
  exact Iff.rfl

theorem cover0_4 (i : S128x32768.Idx) : ∃ t : Fin cfg0.N, (cfg0.win 4).flush t = true ∧ i ∈ ((cfg0.win 4).blk t).view.set := by
  obtain ⟨r, k, rfl⟩ : ∃ (r : Fin 128) (k : Fin 32768), i = ix2 r k := ⟨i 0, i 1, eq_ix2 i⟩
  have hk := k.isLt
  have hr := r.isLt
  refine ⟨⟨k.val / 2048, by show k.val / 2048 < 16; omega⟩, flush0_4 _, ?_⟩
  obtain ⟨e00, e01, e10, e11, e20, e21, e30, e31, e40, e41, e50, e51, e60, e61⟩ := idx_facts0 ⟨k.val / 2048, by show k.val / 2048 < 16; omega⟩
  rw [mem_blk0_4]
  intro a
  match a with
  | ⟨0, _⟩ => show win0_4.index _ (0 : Fin 2) * 128 ≤ r.val ∧ r.val < win0_4.index _ (0 : Fin 2) * 128 + 128; omega
  | ⟨1, _⟩ => show win0_4.index _ (1 : Fin 2) * 2048 ≤ k.val ∧ k.val < win0_4.index _ (1 : Fin 2) * 2048 + 2048; simp only [] at e41; omega

theorem arr0_4 (c : Dev nD) : (dat0 V c).arrAt 4 cfg0.N = fun i => Cert.Spec.meanW (V c main_arg3 i) (V c main_arg1 i) :=
  (dat0 V c).arrAt_eq_of_cover 4 (G0_4 V c) (fun t _ => flushed0_4 V c t) cover0_4

theorem iblk0_1_at (c : Dev nD) (t : Fin cfg0.N) (r : Fin 128) (l : Fin 2048) :
    iblk0 V c 1 t (ix2 r l) = V c main_arg2 (ix2 r (colAt t l)) := by
  obtain ⟨e00, e01, e10, e11, e20, e21, e30, e31, e40, e41, e50, e51, e60, e61⟩ := idx_facts0 t
  unfold iblk0
  show V c main_arg2 (((cfg0.win 1).blk t).view.emb (ix2 r l)) = _
  congr 1
  funext a; apply Fin.ext
  match a with
  | ⟨0, _⟩ => show win0_1.index t (0 : Fin 2) * 128 + 1 * r.val = r.val; omega
  | ⟨1, _⟩ => show win0_1.index t (1 : Fin 2) * 2048 + 1 * l.val = t.val * 2048 + l.val; omega

theorem iblk0_3_at (c : Dev nD) (t : Fin cfg0.N) (r : Fin 128) (l : Fin 2048) :
    iblk0 V c 3 t (ix2 r l) = V c main_arg4 (ix2 r (colAt t l)) := by
  obtain ⟨e00, e01, e10, e11, e20, e21, e30, e31, e40, e41, e50, e51, e60, e61⟩ := idx_facts0 t
  unfold iblk0
  show V c main_arg4 (((cfg0.win 3).blk t).view.emb (ix2 r l)) = _
  congr 1
  funext a; apply Fin.ext
  match a with
  | ⟨0, _⟩ => show win0_3.index t (0 : Fin 2) * 128 + 1 * r.val = r.val; omega
  | ⟨1, _⟩ => show win0_3.index t (1 : Fin 2) * 2048 + 1 * l.val = t.val * 2048 + l.val; omega

/-! ## The second output array: each weight's posterior variance -/

theorem emb0_5 (t : Fin cfg0.N) (r : Fin 128) (l : Fin 2048) :
    ((cfg0.win 5).blk t).view.emb (ix2 r l) = ix2 r (colAt t l) := by
  obtain ⟨e00, e01, e10, e11, e20, e21, e30, e31, e40, e41, e50, e51, e60, e61⟩ := idx_facts0 t
  funext a; apply Fin.ext
  match a with
  | ⟨0, _⟩ => show win0_5.index t (0 : Fin 2) * 128 + 1 * r.val = r.val; omega
  | ⟨1, _⟩ => show win0_5.index t (1 : Fin 2) * 2048 + 1 * l.val = t.val * 2048 + l.val; omega

abbrev G0_5 (c : Dev nD) : S128x32768.Idx → EReal :=
  fun i => Cert.Spec.varW (V c main_arg2 i) (V c main_arg3 i) (V c main_arg1 i)

theorem flushed0_5 (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  funext j
  obtain ⟨r, l, rfl⟩ : ∃ (r : Fin 128) (l : Fin 2048), j = ix2 r l := ⟨j 0, j 1, eq_ix2 j⟩
  show k0_pay7 (F := Ideal) (iblk0 V c 1 t) (iblk0 V c 2 t) (iblk0 V c 0 t) (ix2 r l) = G0_5 V c (((cfg0.win 5).blk t).view.emb (ix2 r l))
  rw [pay7_at, iblk0_1_at, iblk0_2_at, iblk0_0_at, emb0_5]

theorem mem_blk0_5 (t : Fin cfg0.N) (i : S128x32768.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v0_1).slice (win0_5.rect t)).set ↔ _
  rw [View.set_slice_whole, Rect.mem_set_unit]
  exact Iff.rfl

theorem cover0_5 (i : S128x32768.Idx) : ∃ t : Fin cfg0.N, (cfg0.win 5).flush t = true ∧ i ∈ ((cfg0.win 5).blk t).view.set := by
  obtain ⟨r, k, rfl⟩ : ∃ (r : Fin 128) (k : Fin 32768), i = ix2 r k := ⟨i 0, i 1, eq_ix2 i⟩
  have hk := k.isLt
  have hr := r.isLt
  refine ⟨⟨k.val / 2048, by show k.val / 2048 < 16; omega⟩, flush0_5 _, ?_⟩
  obtain ⟨e00, e01, e10, e11, e20, e21, e30, e31, e40, e41, e50, e51, e60, e61⟩ := idx_facts0 ⟨k.val / 2048, by show k.val / 2048 < 16; omega⟩
  rw [mem_blk0_5]
  intro a
  match a with
  | ⟨0, _⟩ => show win0_5.index _ (0 : Fin 2) * 128 ≤ r.val ∧ r.val < win0_5.index _ (0 : Fin 2) * 128 + 128; omega
  | ⟨1, _⟩ => show win0_5.index _ (1 : Fin 2) * 2048 ≤ k.val ∧ k.val < win0_5.index _ (1 : Fin 2) * 2048 + 2048; simp only [] at e51; omega

theorem arr0_5 (c : Dev nD) :
    (dat0 V c).arrAt 5 cfg0.N = fun i => Cert.Spec.varW (V c main_arg2 i) (V c main_arg3 i) (V c main_arg1 i) :=
  (dat0 V c).arrAt_eq_of_cover 5 (G0_5 V c) (fun t _ => flushed0_5 V c t) cover0_5

/-! ## The third output array: the accumulator as the last point leaves it -/

theorem emb0_6 (t : Fin cfg0.N) (r : Fin 128) (u : Fin 1) :
    ((cfg0.win 6).blk t).view.emb (ix2 r u) = ix2 r u := by
  obtain ⟨e00, e01, e10, e11, e20, e21, e30, e31, e40, e41, e50, e51, e60, e61⟩ := idx_facts0 t
  funext a; apply Fin.ext
  match a with
  | ⟨0, _⟩ => show win0_6.index t (0 : Fin 2) * 128 + 1 * r.val = r.val; omega
  | ⟨1, _⟩ => show win0_6.index t (1 : Fin 2) * 1 + 1 * u.val = u.val; omega

theorem last0 : 15 < cfg0.N := by decide

theorem flushed0_6 (c : Dev nD) (t : Fin cfg0.N) (hf : (cfg0.win 6).flush t = true) :
    (dat0 V c).flushed 6 t = ((cfg0.win 6).blk t).view.read (Elt Ideal) (acc0 V c 15 last0) := by
  have h15 : t.val % 16 = 15 := (flush0_6 t).mp hf
  have ht : t.val < 16 := t.isLt
  have e : t = ⟨15, last0⟩ := Fin.ext (by show t.val = 15; omega)
  show (cfg0.win 6).cut (grid0.coords t) ((dat0 V c).after 6 t) = _
  rw [after0_6_last V c t h15]
  subst e
  funext j
  obtain ⟨r, u, rfl⟩ : ∃ (r : Fin 128) (u : Fin 1), j = ix2 r u := ⟨j 0, j 1, eq_ix2 j⟩
  show acc0 V c 15 last0 (ix2 r u) = acc0 V c 15 last0 (((cfg0.win 6).blk ⟨15, last0⟩).view.emb (ix2 r u))
  rw [emb0_6]

theorem mem_blk0_6 (t : Fin cfg0.N) (i : S128x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v0_2).slice (win0_6.rect t)).set ↔ _
  rw [View.set_slice_whole, Rect.mem_set_unit]
  exact Iff.rfl

theorem cover0_6 (i : S128x1.Idx) : ∃ t : Fin cfg0.N, (cfg0.win 6).flush t = true ∧ i ∈ ((cfg0.win 6).blk t).view.set := by
  obtain ⟨r, u, rfl⟩ : ∃ (r : Fin 128) (u : Fin 1), i = ix2 r u := ⟨i 0, i 1, eq_ix2 i⟩
  have hr := r.isLt
  have hu := u.isLt
  refine ⟨⟨15, last0⟩, (flush0_6 _).mpr rfl, ?_⟩
  obtain ⟨e00, e01, e10, e11, e20, e21, e30, e31, e40, e41, e50, e51, e60, e61⟩ := idx_facts0 ⟨15, last0⟩
  rw [mem_blk0_6]
  intro a
  match a with
  | ⟨0, _⟩ => show win0_6.index _ (0 : Fin 2) * 128 ≤ r.val ∧ r.val < win0_6.index _ (0 : Fin 2) * 128 + 128; omega
  | ⟨1, _⟩ => show win0_6.index _ (1 : Fin 2) * 1 ≤ u.val ∧ u.val < win0_6.index _ (1 : Fin 2) * 1 + 1; omega

theorem arr0_6 (c : Dev nD) : (dat0 V c).arrAt 6 cfg0.N = acc0 V c 15 last0 :=
  (dat0 V c).arrAt_eq_of_cover 6 (acc0 V c 15 last0) (fun t hf => flushed0_6 V c t hf) cover0_6

end Cert.KernelIdeal.Hand

end
-- ==== Proof.K0Acc.lean ====
/-
  The first kernel's accumulator read at a row: each point adds to it the point's tile term, -1/2 times the tile's
  Gaussian sum plus the tile's Bernoulli sum, starting from the zero word.
-/
import proofs.«157670_j57638461112382_2_alg».proof.Proof.K0Value
import proofs.«157670_j57638461112382_2_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The accumulator at an index -/

/-- A lane sum with the column axis kept reads, at row `r`, the sum over the row's 2048 lanes. -/
theorem rowsum_col_at (x : FVec Ideal S128x2048 .f32) (h : S128x2048.Reduces [1] S128) (hφ : FKind.Formats .f32)
    (hacc : (0x00000000#32 : BitVec (FTy.bits .f32)) = FKind.add.neutral .f32 hφ) (hc : S128.ShapeCasts S128x1) (r : Fin 128) :
    shapeCast S128x1 (multiReduction .add [1] S128 x 0x00000000#32 h hφ hacc) hc (ix2 r (0 : Fin 1))
      = ∑ l : Fin 2048, x (ix2 r l) := by
  refine (shapeCast_apply _ hc (ix2 r (0 : Fin 1)) (ix1 r) (by
    rw [Shape.rowMajor_val_two, Shape.rowMajor_val_one]
    show r.val = r.val * 1 + 0
    omega)).trans ?_
  refine (Ideal.multiReduction_add_single x 0x00000000#32 h hφ hacc (ix1 r)).trans ?_
  refine Finset.sum_congr rfl fun l _ => congrArg x ?_
  funext a; apply Fin.ext
  match a with
  | ⟨0, _⟩ => rw [h.lift_val]; unfold Shape.Reduces.liftVal; rfl
  | ⟨1, _⟩ => rw [h.lift_val]; unfold Shape.Reduces.liftVal; rfl

/-- One point's update of the accumulator, at row `r`: the clipped probabilities' block `q`, the two parts `g`, `g'`
    of the Gaussian bracket, what the accumulator held `prev`. -/
theorem pay1_at (q g g' : FVec Ideal S128x2048 .f32) (prev : Vec Ideal S128x1 .f32) (r : Fin 128) :
    k0_pay1 (F := Ideal) q g g' prev (ix2 r (0 : Fin 1))
      = prev (ix2 r (0 : Fin 1)) + (Cert.Spec.cNegHalf * (∑ l : Fin 2048, q (ix2 r l) * (g (ix2 r l) - g' (ix2 r l)))
          + ∑ l : Fin 2048, ((Cert.Spec.cOne - q (ix2 r l)) * Ideal.log (Ideal.div (Cert.Spec.cOne - q (ix2 r l)) Cert.Spec.cNine)
              + q (ix2 r l) * Ideal.log (Ideal.div (q (ix2 r l)) Cert.Spec.cTenth))) := by
  unfold k0_pay1
  rw [shapeCast_self]
  refine congrArg (prev (ix2 r (0 : Fin 1)) + ·) ?_
  refine congrArg₂ (· + ·) (congrArg (Cert.Spec.cNegHalf * ·) ?_) ?_
  · exact rowsum_col_at _ _ _ _ _ r
  · exact rowsum_col_at _ _ _ _ _ r

/-- One point's update at row `r`, from the arrays: what was there plus the point's tile term. -/
theorem step0_at (c : Dev nD) (t : Fin cfg0.N) (prev : Vec Ideal S128x1 .f32) (r : Fin 128) :
    step0 V c t prev (ix2 r (0 : Fin 1))
      = prev (ix2 r (0 : Fin 1))
        + Cert.Alg.Tt (V c main_arg1) (V c main_arg2) (V c main_arg3) (V c main_arg4) t.val t.isLt r := by
  unfold step0
  rw [pay1_at]
  refine congrArg (prev (ix2 r (0 : Fin 1)) + ·) ?_
  unfold Cert.Alg.Tt
  refine congrArg₂ (· + ·) (congrArg (Cert.Spec.cNegHalf * ·) (Finset.sum_congr rfl fun l _ => ?_))
    (Finset.sum_congr rfl fun l _ => ?_)
  · rw [pay3_at, pay9_at, pay10_at, iblk0_0_at, iblk0_1_at, iblk0_2_at, iblk0_3_at]
    rfl
  · rw [pay3_at, iblk0_2_at]
    rfl

theorem pay2_at (r : Fin 128) : k0_pay2 (F := Ideal) (ix2 r (0 : Fin 1)) = Cert.Spec.cZero := by
  unfold k0_pay2
  rw [shapeCast_self]
  rfl

/-- The accumulator after the first point. -/
theorem acc0_zero_at (c : Dev nD) (h : 0 < cfg0.N) (r : Fin 128) :
    acc0 V c 0 h (ix2 r (0 : Fin 1))
      = Cert.Spec.cZero + Cert.Alg.Tt (V c main_arg1) (V c main_arg2) (V c main_arg3) (V c main_arg4) 0 h r := by
  show step0 V c ⟨0, h⟩ (k0_pay2 (F := Ideal)) (ix2 r (0 : Fin 1)) = _
  rw [step0_at, pay2_at]

/-- The accumulator after a later point. -/
theorem acc0_succ_at (c : Dev nD) (n : ℕ) (h : n + 1 < cfg0.N) (r : Fin 128) :
    acc0 V c (n + 1) h (ix2 r (0 : Fin 1))
      = acc0 V c n (Nat.lt_of_succ_lt h) (ix2 r (0 : Fin 1))
        + Cert.Alg.Tt (V c main_arg1) (V c main_arg2) (V c main_arg3) (V c main_arg4) (n + 1) h r := by
  show step0 V c ⟨n + 1, h⟩ (acc0 V c n (Nat.lt_of_succ_lt h)) (ix2 r (0 : Fin 1)) = _
  rw [step0_at]

/-- The accumulator's rows point by point, as a function on all the naturals (zero past the grid). -/
def accRow (c : Dev nD) (n : ℕ) (r : Fin 128) : EReal :=
  if h : n < cfg0.N then acc0 V c n h (ix2 r (0 : Fin 1)) else 0

theorem accRow_zero (c : Dev nD) (r : Fin 128) :
    accRow V c 0 r = Cert.Spec.cZero + Cert.Alg.Tt (V c main_arg1) (V c main_arg2) (V c main_arg3) (V c main_arg4) 0 (by norm_num) r := by
  unfold accRow
  rw [dif_pos (show 0 < cfg0.N by decide)]
  exact acc0_zero_at V c _ r

theorem accRow_succ (c : Dev nD) (n : ℕ) (h : n + 1 < 16) (r : Fin 128) :
    accRow V c (n + 1) r
      = accRow V c n r + Cert.Alg.Tt (V c main_arg1) (V c main_arg2) (V c main_arg3) (V c main_arg4) (n + 1) h r := by
  unfold accRow
  rw [dif_pos (show n + 1 < cfg0.N from h), dif_pos (show n < cfg0.N from Nat.lt_of_succ_lt h)]
  exact acc0_succ_at V c n h r

theorem accRow_last (c : Dev nD) (r : Fin 128) : accRow V c 15 r = acc0 V c 15 last0 (ix2 r (0 : Fin 1)) := by
  unfold accRow
  rw [dif_pos last0]

end Cert.KernelIdeal.Hand

end
-- ==== Proof.R1Value.lean ====
/- Region 1, the values: each accumulator after a grid point is this point's partial product added to what
   the point before left (to zero at a first point of a row), and the output block stored at a last point of a
   row is the two planes computed from the accumulators there and the noise block. -/
import proofs.«157670_j57638461112382_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

theorem hzero1 : (![0, 0] : Fin 2 → ℕ) = fun _ => 0 := by funext a; fin_cases a <;> rfl

/-! ## What the found stores read back as -/

theorem sout1_A_0_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) :
    sout1_A_0 c i arg2 harg2 arg3 harg3 arg4 harg4 arg5 harg5 arg6 harg6 arg7 harg7 arg8 harg8 hc0 hc1 x0 x1 x2 x3 = k1_pay3 x0 x1 k1_pay1 := by
  unfold sout1_A_0
  rw [View.read_writes_junk_eq_canon]
  unfold kernelRun1_A; dsimp only; sl_unfold_run_names
  rw [View.canon_cons_unit_zero (S := S2048x128) hzero1]
  simp only [View.readCov_unit_zero (S := S2048x128) _ hzero1, View.readAt_eq_ld, harg2.read_unread, harg3.read_unread, harg7.read_unread,
    View.ld_unit_zero (S := S2048x512) hzero1, View.ld_unit_zero (S := S128x512) hzero1, View.ld_unit_zero (S := S2048x128) hzero1]

theorem sout1_A_1_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : cond1_0 i) (hc1 : ¬cond1_1 i)
    (x0 : Vec F S2048x512 .f32) (x1 : Vec F S128x512 .bf16) (x2 : Vec F S128x512 .bf16) (x3 : Vec F S2048x128 .f32) :
    sout1_A_1 c i arg2 harg2 arg3 harg3 arg4 harg4 arg5 harg5 arg6 harg6 arg7 harg7 arg8 harg8 hc0 hc1 x0 x1 x2 x3 = k1_pay4 x0 x2 k1_pay2 := by
  unfold sout1_A_1
  rw [View.read_writes_junk_eq_canon]
  unfold kernelRun1_A; dsimp only; sl_unfold_run_names
  rw [View.canon_cons_unit_zero (S := S2048x128) hzero1]
  simp only [View.readCov_unit_zero (S := S2048x128) _ hzero1, View.readAt_eq_ld, harg2.read_unread, harg4.read_unread, harg8.read_unread,
    View.ld_unit_zero (S := S2048x512) hzero1, View.ld_unit_zero (S := S128x512) hzero1, View.ld_unit_zero (S := S2048x128) hzero1]

theorem sout1_B_0_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    sout1_B_0 c i arg2 harg2 arg3 harg3 arg4 harg4 arg5 harg5 arg6 harg6 arg7 harg7 arg8 harg8 hc0 hc1 x0 x1 x2 x3 xs0 xs1 = k1_pay3 x0 x1 xs0 := by
  unfold sout1_B_0
  rw [View.read_writes_junk_eq_canon]
  unfold kernelRun1_B; dsimp only; sl_unfold_run_names
  rw [View.canon_cons_unit_zero (S := S2048x128) hzero1]
  simp only [View.readCov_unit_zero (S := S2048x128) _ hzero1, View.readAt_eq_ld, harg2.read_unread, harg3.read_unread, harg7.read_unread,
    View.ld_unit_zero (S := S2048x512) hzero1, View.ld_unit_zero (S := S128x512) hzero1, View.ld_unit_zero (S := S2048x128) hzero1]

theorem sout1_B_1_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : ¬cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    sout1_B_1 c i arg2 harg2 arg3 harg3 arg4 harg4 arg5 harg5 arg6 harg6 arg7 harg7 arg8 harg8 hc0 hc1 x0 x1 x2 x3 xs0 xs1 = k1_pay4 x0 x2 xs1 := by
  unfold sout1_B_1
  rw [View.read_writes_junk_eq_canon]
  unfold kernelRun1_B; dsimp only; sl_unfold_run_names
  rw [View.canon_cons_unit_zero (S := S2048x128) hzero1]
  simp only [View.readCov_unit_zero (S := S2048x128) _ hzero1, View.readAt_eq_ld, harg2.read_unread, harg4.read_unread, harg8.read_unread,
    View.ld_unit_zero (S := S2048x512) hzero1, View.ld_unit_zero (S := S128x512) hzero1, View.ld_unit_zero (S := S2048x128) hzero1]

theorem sout1_C_0_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    sout1_C_0 c i arg2 harg2 arg3 harg3 arg4 harg4 arg5 harg5 arg6 harg6 arg7 harg7 arg8 harg8 hc0 hc1 x0 x1 x2 x3 xs0 xs1 = k1_pay3 x0 x1 xs0 := by
  unfold sout1_C_0
  rw [View.read_writes_junk_eq_canon]
  unfold kernelRun1_C; dsimp only; sl_unfold_run_names
  rw [View.canon_cons_unit_zero (S := S2048x128) hzero1]
  simp only [View.readCov_unit_zero (S := S2048x128) _ hzero1, View.readAt_eq_ld, harg2.read_unread, harg3.read_unread, harg7.read_unread,
    View.ld_unit_zero (S := S2048x512) hzero1, View.ld_unit_zero (S := S128x512) hzero1, View.ld_unit_zero (S := S2048x128) hzero1]

theorem sout1_C_1_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    sout1_C_1 c i arg2 harg2 arg3 harg3 arg4 harg4 arg5 harg5 arg6 harg6 arg7 harg7 arg8 harg8 hc0 hc1 x0 x1 x2 x3 xs0 xs1 = k1_pay4 x0 x2 xs1 := by
  unfold sout1_C_1
  rw [View.read_writes_junk_eq_canon]
  unfold kernelRun1_C; dsimp only; sl_unfold_run_names
  rw [View.canon_cons_unit_zero (S := S2048x128) hzero1]
  simp only [View.readCov_unit_zero (S := S2048x128) _ hzero1, View.readAt_eq_ld, harg2.read_unread, harg4.read_unread, harg8.read_unread,
    View.ld_unit_zero (S := S2048x512) hzero1, View.ld_unit_zero (S := S128x512) hzero1, View.ld_unit_zero (S := S2048x128) hzero1]

theorem out1_C_4_eq (c : Dev nD) (i : grid1.Coords) (arg2 : Memref sig .tc .vmem S2048x512 .f32) (harg2 : arg2.IsWhole) (arg3 : Memref sig .tc .vmem S128x512 .bf16) (harg3 : arg3.IsWhole) (arg4 : Memref sig .tc .vmem S128x512 .bf16) (harg4 : arg4.IsWhole) (arg5 : Memref sig .tc .vmem S2048x128 .f32) (harg5 : arg5.IsWhole) (arg6 : Memref sig .tc .vmem S2x2048x128 .f32) (harg6 : arg6.IsWhole) (arg7 : Memref sig .tc .vmem S2048x128 .f32) (harg7 : arg7.IsWhole) (arg8 : Memref sig .tc .vmem S2048x128 .f32) (harg8 : arg8.IsWhole) (hc0 : ¬cond1_0 i) (hc1 : cond1_1 i)
    (x0 : Vec F S2048x512 .f32) (x1 : Vec F S128x512 .bf16) (x2 : Vec F S128x512 .bf16) (x3 : Vec F S2048x128 .f32) (xs0 : Vec F S2048x128 .f32) (xs1 : Vec F S2048x128 .f32) :
    out1_C_4 c i arg2 harg2 arg3 harg3 arg4 harg4 arg5 harg5 arg6 harg6 arg7 harg7 arg8 harg8 hc0 hc1 x0 x1 x2 x3 xs0 xs1 = View.canon [⟨r1_hi, k1_pay7 (k1_pay3 x0 x1 xs0) (k1_pay4 x0 x2 xs1) x3⟩, ⟨r1_lo, k1_pay6 (k1_pay3 x0 x1 xs0) (k1_pay4 x0 x2 xs1) x3⟩] := by
  unfold out1_C_4
  rw [View.read_writes_junk_eq_canon]
  unfold kernelRun1_C; dsimp only; sl_unfold_run_names
  simp only [View.readCov_unit_zero (S := S2048x128) _ hzero1, View.readAt_eq_ld, harg2.read_unread, harg3.read_unread, harg4.read_unread, harg5.read_unread, harg7.read_unread, harg8.read_unread,
    View.ld_unit_zero (S := S2048x512) hzero1, View.ld_unit_zero (S := S128x512) hzero1, View.ld_unit_zero (S := S2048x128) hzero1]

/-! ## The accumulators point by point -/

/-- The first accumulator after point `n`: this point's product of the x block with the mean block, added to
    zero at a first point of a row and to what point `n - 1` left otherwise. -/
def macc1 (c : Dev nD) : (n : ℕ) → n < cfg1.N → Vec F S2048x128 .f32
  | 0, h => k1_pay3 (iblk1 V c 0 ⟨0, h⟩) (iblk1 V c 1 ⟨0, h⟩) k1_pay1
  | n + 1, h => k1_pay3 (iblk1 V c 0 ⟨n + 1, h⟩) (iblk1 V c 1 ⟨n + 1, h⟩)
      (if (n + 1) % 64 = 0 then k1_pay1 else macc1 c n (Nat.lt_of_succ_lt h))

/-- The second accumulator: the same with the squared x block and the variance block. -/
def vacc1 (c : Dev nD) : (n : ℕ) → n < cfg1.N → Vec F S2048x128 .f32
  | 0, h => k1_pay4 (iblk1 V c 0 ⟨0, h⟩) (iblk1 V c 2 ⟨0, h⟩) k1_pay2
  | n + 1, h => k1_pay4 (iblk1 V c 0 ⟨n + 1, h⟩) (iblk1 V c 2 ⟨n + 1, h⟩)
      (if (n + 1) % 64 = 0 then k1_pay2 else vacc1 c n (Nat.lt_of_succ_lt h))

theorem macc1_reset (c : Dev nD) (n : ℕ) (h : n < cfg1.N) (h0 : n % 64 = 0) :
    macc1 V c n h = k1_pay3 (iblk1 V c 0 ⟨n, h⟩) (iblk1 V c 1 ⟨n, h⟩) k1_pay1 := by
  cases n with
  | zero => rfl
  | succ n => simp only [macc1]; rw [if_pos h0]

theorem macc1_step (c : Dev nD) (n : ℕ) (h : n + 1 < cfg1.N) (h0 : (n + 1) % 64 ≠ 0) :
    macc1 V c (n + 1) h = k1_pay3 (iblk1 V c 0 ⟨n + 1, h⟩) (iblk1 V c 1 ⟨n + 1, h⟩) (macc1 V c n (Nat.lt_of_succ_lt h)) := by
  simp only [macc1]; rw [if_neg h0]

theorem vacc1_reset (c : Dev nD) (n : ℕ) (h : n < cfg1.N) (h0 : n % 64 = 0) :
    vacc1 V c n h = k1_pay4 (iblk1 V c 0 ⟨n, h⟩) (iblk1 V c 2 ⟨n, h⟩) k1_pay2 := by
  cases n with
  | zero => rfl
  | succ n => simp only [vacc1]; rw [if_pos h0]

theorem vacc1_step (c : Dev nD) (n : ℕ) (h : n + 1 < cfg1.N) (h0 : (n + 1) % 64 ≠ 0) :
    vacc1 V c (n + 1) h = k1_pay4 (iblk1 V c 0 ⟨n + 1, h⟩) (iblk1 V c 2 ⟨n + 1, h⟩) (vacc1 V c n (Nat.lt_of_succ_lt h)) := by
  simp only [vacc1]; rw [if_neg h0]

/-- The accumulators' components of `outsAt1` are `macc1` and `vacc1`: by induction on the point, through the
    three cases. -/
theorem acc1_eq (c : Dev nD) : ∀ (n : ℕ) (h : n < cfg1.N),
    (outsAt1 V c n h).2.1 = macc1 V c n h ∧ (outsAt1 V c n h).2.2 = vacc1 V c n h := by
  intro n
  induction n with
  | zero =>
    intro h
    rw [show outsAt1 V c 0 h = ptA1 V c ⟨0, h⟩ (Nat.zero_mod _) from rfl]
    unfold ptA1; dsimp only
    exact ⟨(sout1_A_0_eq _ _ _ _ _ _ _ _ _ _ _ _ _ _ _ _ _ _ _ _ _ _).trans (macc1_reset V c 0 h rfl).symm,
      (sout1_A_1_eq _ _ _ _ _ _ _ _ _ _ _ _ _ _ _ _ _ _ _ _ _ _).trans (vacc1_reset V c 0 h rfl).symm⟩
  | succ n ih =>
    intro h
    obtain ⟨ih0, ih1⟩ := ih (Nat.lt_of_succ_lt h)
    by_cases h0 : (n + 1) % 64 = 0
    · rw [show outsAt1 V c (n + 1) h = ptA1 V c ⟨n + 1, h⟩ h0 from dif_pos h0]
      unfold ptA1; dsimp only
      exact ⟨(sout1_A_0_eq _ _ _ _ _ _ _ _ _ _ _ _ _ _ _ _ _ _ _ _ _ _).trans (macc1_reset V c (n + 1) h h0).symm,
        (sout1_A_1_eq _ _ _ _ _ _ _ _ _ _ _ _ _ _ _ _ _ _ _ _ _ _).trans (vacc1_reset V c (n + 1) h h0).symm⟩
    · by_cases h1 : (n + 1) % 64 = 63
      · rw [show outsAt1 V c (n + 1) h = ptC1 V c ⟨n + 1, h⟩ h0 h1 (outsAt1 V c n (Nat.lt_of_succ_lt h)).2.1 (outsAt1 V c n (Nat.lt_of_succ_lt h)).2.2 from (dif_neg h0).trans (dif_pos h1)]
        unfold ptC1; dsimp only
        rw [sout1_C_0_eq, sout1_C_1_eq, ih0, ih1]
        exact ⟨(macc1_step V c n h h0).symm, (vacc1_step V c n h h0).symm⟩
      · rw [show outsAt1 V c (n + 1) h = ptB1 V c ⟨n + 1, h⟩ h0 h1 (outsAt1 V c n (Nat.lt_of_succ_lt h)).2.1 (outsAt1 V c n (Nat.lt_of_succ_lt h)).2.2 from (dif_neg h0).trans (dif_neg h1)]
        unfold ptB1; dsimp only
        rw [sout1_B_0_eq, sout1_B_1_eq, ih0, ih1]
        exact ⟨(macc1_step V c n h h0).symm, (vacc1_step V c n h h0).symm⟩

/-- At a last point of a row the output block holds the two planes: plane 1 (stored last) the mean accumulator
    minus, plane 0 the mean accumulator plus, the noise block times the root of the clamped variance accumulator. -/
theorem after1_4_last (c : Dev nD) (t : Fin cfg1.N) (ht : t.val % 64 = 63) :
    (dat1 V c).after 4 t = View.canon [⟨r1_hi, k1_pay7 (macc1 V c t.val t.isLt) (vacc1 V c t.val t.isLt) (iblk1 V c 3 t)⟩, ⟨r1_lo, k1_pay6 (macc1 V c t.val t.isLt) (vacc1 V c t.val t.isLt) (iblk1 V c 3 t)⟩] := by
  have h0 : ¬t.val % 64 = 0 := by omega
  obtain ⟨e0, e1⟩ := acc1_eq V c t.val t.isLt
  rw [outsAt1_C V c t h0 ht] at e0 e1
  unfold ptC1 at e0 e1; dsimp only at e0 e1
  rw [sout1_C_0_eq] at e0; rw [sout1_C_1_eq] at e1
  rw [after1_4, outsAt1_C V c t h0 ht]
  unfold ptC1; dsimp only
  rw [out1_C_4_eq, e0, e1]

end Region1

end Cert.KernelIdeal.Hand

end
-- ==== Proof.K1Blocks.lean ====
/- Region 1, the blocks as elements of the arrays: at grid point t = 64 i + k the x block is rows
   2048 i .. 2048 i + 2047 and columns 512 k .. 512 k + 511 of the x array, the two weight blocks are the
   same columns of the bf16 arrays, the noise block is the same rows of the noise array, and the output block
   is the same rows of both planes of the result. Each fact is stated at an element, the array coordinates
   as variables with their values as hypotheses. -/
import proofs.«157670_j57638461112382_2_alg».proof.Proof.R1Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Region1
variable (V : (c : Dev nD) → (b : Ref sig .tc) → Buf (Elt F) ((c : Thread nD τ).loc b))

/-! ## The windows' block indices over the grid -/

theorem kb_index1_0 : ∀ t : Fin cfg1.N, win1_0.index t 0 = t.val / 64 ∧ win1_0.index t 1 = t.val % 64 :=
  (by decide +kernel : ∀ t : Fin grid1.N, win1_0.index t 0 = t.val / 64 ∧ win1_0.index t 1 = t.val % 64)
theorem kb_index1_1 : ∀ t : Fin cfg1.N, win1_1.index t 0 = 0 ∧ win1_1.index t 1 = t.val % 64 :=
  (by decide +kernel : ∀ t : Fin grid1.N, win1_1.index t 0 = 0 ∧ win1_1.index t 1 = t.val % 64)
theorem kb_index1_2 : ∀ t : Fin cfg1.N, win1_2.index t 0 = 0 ∧ win1_2.index t 1 = t.val % 64 :=
  (by decide +kernel : ∀ t : Fin grid1.N, win1_2.index t 0 = 0 ∧ win1_2.index t 1 = t.val % 64)
theorem kb_index1_3 : ∀ t : Fin cfg1.N, win1_3.index t 0 = t.val / 64 ∧ win1_3.index t 1 = 0 :=
  (by decide +kernel : ∀ t : Fin grid1.N, win1_3.index t 0 = t.val / 64 ∧ win1_3.index t 1 = 0)
theorem kb_index1_4 : ∀ t : Fin cfg1.N, win1_4.index t 0 = 0 ∧ win1_4.index t 1 = t.val / 64 ∧ win1_4.index t 2 = 0 :=
  (by decide +kernel : ∀ t : Fin grid1.N, win1_4.index t 0 = 0 ∧ win1_4.index t 1 = t.val / 64 ∧ win1_4.index t 2 = 0)

/-! ## The input blocks at an element -/

/-- The x block: element (p, l) is x at (2048 i + p, 512 k + l). -/
theorem kb_iblk1_0_apply (c : Dev nD) (t : Fin cfg1.N) (p : Fin 2048) (l : Fin 512) (a : Fin 4096) (b : Fin 32768)
    (ha : a.val = t.val / 64 * 2048 + p.val) (hb : b.val = t.val % 64 * 512 + l.val) :
    iblk1 V c 0 t (ix2 p l) = V c main_arg0 (ix2 a b) := by
  unfold iblk1
  rw [View.read_apply]
  show V c main_arg0 _ = V c main_arg0 _
  congr 1
  funext d
  apply Fin.ext
  match d with
  | ⟨0, _⟩ => show win1_0.index t 0 * 2048 + 1 * p.val = a.val; rw [(kb_index1_0 t).1, ha]; omega
  | ⟨1, _⟩ => show win1_0.index t 1 * 512 + 1 * l.val = b.val; rw [(kb_index1_0 t).2, hb]; omega

/-- The mean block: element (r, l) is the mean array at (r, 512 k + l). -/
theorem kb_iblk1_1_apply (c : Dev nD) (t : Fin cfg1.N) (r : Fin 128) (l : Fin 512) (b : Fin 32768)
    (hb : b.val = t.val % 64 * 512 + l.val) :
    iblk1 V c 1 t (ix2 r l) = V c main_v0_0 (ix2 r b) := by
  unfold iblk1
  rw [View.read_apply]
  show V c main_v0_0 _ = V c main_v0_0 _
  congr 1
  funext d
  apply Fin.ext
  match d with
  | ⟨0, _⟩ => show win1_1.index t 0 * 128 + 1 * r.val = r.val; rw [(kb_index1_1 t).1]; omega
  | ⟨1, _⟩ => show win1_1.index t 1 * 512 + 1 * l.val = b.val; rw [(kb_index1_1 t).2, hb]; omega

/-- The variance block: element (r, l) is the variance array at (r, 512 k + l). -/
theorem kb_iblk1_2_apply (c : Dev nD) (t : Fin cfg1.N) (r : Fin 128) (l : Fin 512) (b : Fin 32768)
    (hb : b.val = t.val % 64 * 512 + l.val) :
    iblk1 V c 2 t (ix2 r l) = V c main_v0_1 (ix2 r b) := by
  unfold iblk1
  rw [View.read_apply]
  show V c main_v0_1 _ = V c main_v0_1 _
  congr 1
  funext d
  apply Fin.ext
  match d with
  | ⟨0, _⟩ => show win1_2.index t 0 * 128 + 1 * r.val = r.val; rw [(kb_index1_2 t).1]; omega
  | ⟨1, _⟩ => show win1_2.index t 1 * 512 + 1 * l.val = b.val; rw [(kb_index1_2 t).2, hb]; omega

/-- The noise block: element (p, j) is the noise array at (2048 i + p, j). -/
theorem kb_iblk1_3_apply (c : Dev nD) (t : Fin cfg1.N) (p : Fin 2048) (j : Fin 128) (a : Fin 4096)
    (ha : a.val = t.val / 64 * 2048 + p.val) :
    iblk1 V c 3 t (ix2 p j) = V c main_arg5 (ix2 a j) := by
  unfold iblk1
  rw [View.read_apply]
  show V c main_arg5 _ = V c main_arg5 _
  congr 1
  funext d
  apply Fin.ext
  match d with
  | ⟨0, _⟩ => show win1_3.index t 0 * 2048 + 1 * p.val = a.val; rw [(kb_index1_3 t).1, ha]; omega
  | ⟨1, _⟩ => show win1_3.index t 1 * 128 + 1 * j.val = j.val; rw [(kb_index1_3 t).2]; omega

/-! ## The output array after the region, at an element -/

/-- The two points that write the output back (the last of each row of the grid) write disjoint row ranges. -/
theorem kb_hdisj1_4 (c : Dev nD) : ∀ t t' : Fin cfg1.N, (cfg1.win 4).flush t = true → (cfg1.win 4).flush t' = true → t ≠ t' →
    Disjoint ((cfg1.win 4).blk t).view.set ((cfg1.win 4).blk t').view.set := by
  intro t t' hf hf' hne
  show Disjoint ((View.whole main_v1).slice (win1_4.rect t)).set ((View.whole main_v1).slice (win1_4.rect t')).set
  rw [View.set_slice_whole, View.set_slice_whole]
  refine Rect.unit_disjoint 1 ?_
  show win1_4.index t 1 * 2048 + 2048 ≤ win1_4.index t' 1 * 2048 ∨ win1_4.index t' 1 * 2048 + 2048 ≤ win1_4.index t 1 * 2048
  rw [(kb_index1_4 t).2.1, (kb_index1_4 t').2.1]
  have h1 := (flush1_4 t).mp hf
  have h2 := (flush1_4 t').mp hf'
  have h3 : t.val ≠ t'.val := fun h => hne (Fin.ext h)
  omega

/-- Element (s, row, col) of the result after the region is element (s, row mod 2048, col) of the block the
    last point of row block `row / 2048` left. -/
theorem kb_arr1_4_apply (c : Dev nD) (s : Fin 2) (row : Fin 4096) (col : Fin 128) (t : Fin cfg1.N)
    (ht : t.val = row.val / 2048 * 64 + 63) (p : Fin 2048) (hp : p.val = row.val % 2048) :
    (dat1 V c).arrAt 4 cfg1.N (ix3 s row col) = (dat1 V c).after 4 t (ix3 s p col) := by
  have hf : (cfg1.win 4).flush t = true := (flush1_4 t).mpr (by omega)
  have hemb : ((cfg1.win 4).blk t).view.emb (ix3 s p col) = ix3 s row col := by
    funext d
    apply Fin.ext
    match d with
    | ⟨0, _⟩ => show win1_4.index t 0 * 2 + 1 * s.val = s.val; rw [(kb_index1_4 t).1]; omega
    | ⟨1, _⟩ => show win1_4.index t 1 * 2048 + 1 * p.val = row.val; rw [(kb_index1_4 t).2.1, hp, ht]; omega
    | ⟨2, _⟩ => show win1_4.index t 2 * 128 + 1 * col.val = col.val; rw [(kb_index1_4 t).2.2]; omega
  have h := (dat1 V c).arrAt_emb_eq_flushed 4 (kb_hdisj1_4 c) t hf (ix3 s p col)
  rw [hemb] at h
  exact h

/-! ## The stored block at an element -/

/-- Two plane stores into a [2, 2048, 128] block, the plane-1 store last: plane 1 reads the last store's
    payload, -/
theorem kb_canon_plane1 (A B : Vec F S1x2048x128 .f32) (p : Fin 2048) (j : Fin 128) :
    View.canon [⟨r1_hi, A⟩, ⟨r1_lo, B⟩] (ix3 (1 : Fin 2) p j) = A (ix3 (0 : Fin 1) p j) := by
  have e : r1_hi.emb (ix3 (0 : Fin 1) p j) = ix3 (1 : Fin 2) p j := by
    funext d
    apply Fin.ext
    match d with
    | ⟨0, _⟩ => rfl
    | ⟨1, _⟩ => show 0 + 1 * p.val = p.val; omega
    | ⟨2, _⟩ => show 0 + 1 * j.val = j.val; omega
  exact (congrArg (View.canon _) e.symm).trans (View.canon_cons_emb r1_hi _ _ _)

/-- and plane 0, which the last store does not reach, the earlier store's. -/
theorem kb_canon_plane0 (A B : Vec F S1x2048x128 .f32) (p : Fin 2048) (j : Fin 128) :
    View.canon [⟨r1_hi, A⟩, ⟨r1_lo, B⟩] (ix3 (0 : Fin 2) p j) = B (ix3 (0 : Fin 1) p j) := by
  have hnm : ix3 (0 : Fin 2) p j ∉ r1_hi.set := by
    rw [Rect.mem_set_unit]
    intro h
    have h0 : (1 : ℕ) ≤ 0 := (h 0).1
    omega
  have e : r1_lo.emb (ix3 (0 : Fin 1) p j) = ix3 (0 : Fin 2) p j := by
    funext d
    apply Fin.ext
    match d with
    | ⟨0, _⟩ => rfl
    | ⟨1, _⟩ => show 0 + 1 * p.val = p.val; omega
    | ⟨2, _⟩ => show 0 + 1 * j.val = j.val; omega
  have h1 : View.canon [⟨r1_hi, A⟩, ⟨r1_lo, B⟩] (ix3 (0 : Fin 2) p j) = View.canon [⟨r1_lo, B⟩] (ix3 (0 : Fin 2) p j) :=
    View.canon_cons_of_not_mem _ _ hnm
  exact h1.trans ((congrArg (View.canon _) e.symm).trans (View.canon_cons_emb r1_lo _ _ _))

/-- Plane 1 of the block a last point of a row stores: the second payload at the same row and column. -/
theorem kb_after1_4_plane1 (c : Dev nD) (t : Fin cfg1.N) (ht : t.val % 64 = 63) (p : Fin 2048) (j : Fin 128) :
    (dat1 V c).after 4 t (ix3 (1 : Fin 2) p j)
      = k1_pay7 (macc1 V c t.val t.isLt) (vacc1 V c t.val t.isLt) (iblk1 V c 3 t) (ix3 (0 : Fin 1) p j) := by
  rw [after1_4_last V c t ht]
  exact kb_canon_plane1 _ _ p j

/-- Plane 0: the first payload. -/
theorem kb_after1_4_plane0 (c : Dev nD) (t : Fin cfg1.N) (ht : t.val % 64 = 63) (p : Fin 2048) (j : Fin 128) :
    (dat1 V c).after 4 t (ix3 (0 : Fin 2) p j)
      = k1_pay6 (macc1 V c t.val t.isLt) (vacc1 V c t.val t.isLt) (iblk1 V c 3 t) (ix3 (0 : Fin 1) p j) := by
  rw [after1_4_last V c t ht]
  exact kb_canon_plane0 _ _ p j

end Region1

end Cert.KernelIdeal.Hand

end
-- ==== Proof.LibDotRowsRows.lean ====
/-
  Cert.Lib.DotRowsRows: a matrix product with the right operand in the [out, in] layout (y = x @ W.T), as a plain sum.

  For a contraction record over [M, K] x [N, K] -> [M, N] with ONE contracted axis, the second axis of each operand,
  the sum over the record's contraction indices of left (lhsIdx j q) * right (rhsIdx j q) at the output index
  j = (p, c) is the sum over k : Fin K of left (p, k) * right (c, k): row p of the left operand against row c of the
  right one. The record enters only through six facts — its contraction shape has rank one and extent K, and the four
  coordinates of the two operand indices — so one lemma serves a kernel's tpu.matmul with dimension numbers
  [1], [1], [0], [0] and a host dot_general contracting [1] x [1]. The values may be of any type with a product and a
  commutative sum; no law of arithmetic beyond re-indexing the sum is used.
-/
import Idealize.ShloMosaic.Lib.ValueIdx

namespace Cert.Lib.DotRowsRows

open Idealize.ShloMosaic Idealize.ShloMosaic.ValueIdx

/-- Row `p` of the left operand against row `c` of the right operand: the contraction over the record's index type
    re-indexed by the one coordinate of that index. -/
theorem sum_rows_rows {α : Type} [AddCommMonoid α] [Mul α] {M K N : Nat}
    (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (j 0).val)
    (hl1 : ∀ (j : (⟨2, ![M, N]⟩ : Shape).Idx) (q : D.contr.Idx), (D.lhsIdx j q ⟨1, Nat.one_lt_two⟩).val = (q ⟨0, by omega⟩).val)
    (hr0 : ∀ (j : (⟨2, ![M, N]⟩ : Shape).Idx) (q : D.contr.Idx), (D.rhsIdx j q ⟨0, Nat.zero_lt_two⟩).val = (j 1).val)
    (hr1 : ∀ (j : (⟨2, ![M, N]⟩ : Shape).Idx) (q : D.contr.Idx), (D.rhsIdx j q ⟨1, Nat.one_lt_two⟩).val = (q ⟨0, by omega⟩).val)
    (L : (⟨2, ![M, K]⟩ : Shape).Idx → α) (R : (⟨2, ![N, K]⟩ : Shape).Idx → α) (p : Fin M) (c : Fin N) :
    ∑ q : D.contr.Idx, L (D.lhsIdx (ix2 p c) q) * R (D.rhsIdx (ix2 p c) q) = ∑ k : Fin K, L (ix2 p k) * R (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.DotRowsRows
-- ==== Proof.K1Pay.lean ====
/- Region 1's payloads read at an index, at the extended reals: the accumulator updates are the carried value plus
   this point's row-against-row products over the 512 places of the blocks, and the two stored planes are the mean
   accumulator plus and minus the noise times the root of the variance accumulator clamped at zero. -/
import proofs.«157670_j57638461112382_2_alg».proof.Proof.Gen.KernelIdeal.Skeleton
import proofs.«157670_j57638461112382_2_alg».proof.Proof.LibDotRowsRows
import proofs.«157670_j57638461112382_2_alg».proof.Proof.Spec
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! ## The contraction record's index maps -/

theorem dot1_lhs0 (i : S2048x128.Idx) (q : dot_S2048x512_S128x512_S2048x128_1_1_0_0_n_n.contr.Idx) :
    (dot_S2048x512_S128x512_S2048x128_1_1_0_0_n_n.lhsIdx i q ⟨0, Nat.zero_lt_two⟩).val = (i 0).val := by
  unfold DotDims.lhsIdx
  rw [dif_neg (show ¬(⟨0, Nat.zero_lt_two⟩ : Fin S2048x512.rank) ∈ dot_S2048x512_S128x512_S2048x128_1_1_0_0_n_n.lhsBatch by decide), dif_pos (show (⟨0, Nat.zero_lt_two⟩ : Fin S2048x512.rank) ∈ dot_S2048x512_S128x512_S2048x128_1_1_0_0_n_n.lhsNonContracting by decide)]
  rfl
theorem dot1_lhs1 (i : S2048x128.Idx) (q : dot_S2048x512_S128x512_S2048x128_1_1_0_0_n_n.contr.Idx) :
    (dot_S2048x512_S128x512_S2048x128_1_1_0_0_n_n.lhsIdx i q ⟨1, Nat.one_lt_two⟩).val = (q ⟨0, by decide⟩).val :=
  dot_S2048x512_S128x512_S2048x128_1_1_0_0_n_n.lhsIdx_val_of_single rfl i q
theorem dot1_rhs0 (i : S2048x128.Idx) (q : dot_S2048x512_S128x512_S2048x128_1_1_0_0_n_n.contr.Idx) :
    (dot_S2048x512_S128x512_S2048x128_1_1_0_0_n_n.rhsIdx i q ⟨0, Nat.zero_lt_two⟩).val = (i 1).val := by
  unfold DotDims.rhsIdx
  rw [dif_neg (show ¬(⟨0, Nat.zero_lt_two⟩ : Fin S128x512.rank) ∈ dot_S2048x512_S128x512_S2048x128_1_1_0_0_n_n.rhsBatch by decide), dif_pos (show (⟨0, Nat.zero_lt_two⟩ : Fin S128x512.rank) ∈ dot_S2048x512_S128x512_S2048x128_1_1_0_0_n_n.rhsNonContracting by decide)]
  rfl
theorem dot1_rhs1 (i : S2048x128.Idx) (q : dot_S2048x512_S128x512_S2048x128_1_1_0_0_n_n.contr.Idx) :
    (dot_S2048x512_S128x512_S2048x128_1_1_0_0_n_n.rhsIdx i q ⟨1, Nat.one_lt_two⟩).val = (q ⟨0, by decide⟩).val :=
  dot_S2048x512_S128x512_S2048x128_1_1_0_0_n_n.rhsIdx_val_of_single rfl i q

/-- The matrix unit's product into the zero accumulator, at (p, j): row p of the left block against row j of the right. -/
theorem matmul1_apply {φ₁ φ₂ : FTy} (L : FVec Ideal S2048x512 φ₁) (R : FVec Ideal S128x512 φ₂) (p : Fin 2048) (j : Fin 128) :
    matmul dot_S2048x512_S128x512_S2048x128_1_1_0_0_n_n none L R (constant S2048x128 .f32 0x00000000#32) (ix2 p j)
      = ∑ l : Fin 512, L (ix2 p l) * R (ix2 j l) := by
  show FloatOps.matmul dot_S2048x512_S128x512_S2048x128_1_1_0_0_n_n none L R (constant S2048x128 .f32 0x00000000#32) (ix2 p j) = _
  rw [Ideal.matmul_constant_zero_apply]
  exact Cert.Lib.DotRowsRows.sum_rows_rows dot_S2048x512_S128x512_S2048x128_1_1_0_0_n_n rfl rfl
    dot1_lhs0 dot1_lhs1 dot1_rhs0 dot1_rhs1 L R p j

/-! ## The payloads -/

theorem k1_pay1_apply (i : S2048x128.Idx) : k1_pay1 (F := Ideal) i = 0 := by
  unfold k1_pay1
  simp only [shapeCast_self]
  show Ideal.ofBits .f32 0x00000000#32 = 0
  exact Ideal.ofBits_zero_f32

theorem k1_pay2_apply (i : S2048x128.Idx) : k1_pay2 (F := Ideal) i = 0 := by
  unfold k1_pay2
  simp only [shapeCast_self]
  show Ideal.ofBits .f32 0x00000000#32 = 0
  exact Ideal.ofBits_zero_f32

theorem k1_pay3_apply (v3 : Vec Ideal S2048x512 .f32) (v7 : Vec Ideal S128x512 .bf16) (v13 : Vec Ideal S2048x128 .f32)
    (p : Fin 2048) (j : Fin 128) :
    k1_pay3 v3 v7 v13 (ix2 p j) = v13 (ix2 p j) + ∑ l : Fin 512, v3 (ix2 p l) * v7 (ix2 j l) := by
  unfold k1_pay3
  simp only [shapeCast_self]
  rw [addf_apply, matmul1_apply]
  rfl

theorem k1_pay4_apply (v3 : Vec Ideal S2048x512 .f32) (v9 : Vec Ideal S128x512 .bf16) (v18 : Vec Ideal S2048x128 .f32)
    (p : Fin 2048) (j : Fin 128) :
    k1_pay4 v3 v9 v18 (ix2 p j) = v18 (ix2 p j) + ∑ l : Fin 512, (v3 (ix2 p l) * v3 (ix2 p l)) * v9 (ix2 j l) := by
  unfold k1_pay4
  simp only [shapeCast_self]
  rw [addf_apply, matmul1_apply]
  rfl

theorem k1_pay5_apply (v27 v30 : Vec Ideal S2048x128 .f32) (i : S2048x128.Idx) :
    k1_pay5 v27 v30 i = v30 i * Ideal.sqrt (max (v27 i) Cert.Spec.cZero) := rfl

theorem ix3_succ {n0 n1 n2 : Nat} (z : Fin n0) (p : Fin n1) (j : Fin n2) :
    (fun a : Fin 2 => (ix3 z p j) a.succ) = ix2 p j := by
  funext a; match a with | ⟨0, _⟩ => rfl | ⟨1, _⟩ => rfl

theorem k1_pay6_apply (v26 v27 v30 : Vec Ideal S2048x128 .f32) (z : Fin 1) (p : Fin 2048) (j : Fin 128) :
    k1_pay6 v26 v27 v30 (ix3 z p j) = v26 (ix2 p j) + v30 (ix2 p j) * Ideal.sqrt (max (v27 (ix2 p j)) Cert.Spec.cZero) := by
  unfold k1_pay6
  rw [shapeCast_addUnit_apply ![2048, 128], ix3_succ, addf_apply, k1_pay5_apply]

theorem k1_pay7_apply (v26 v27 v30 : Vec Ideal S2048x128 .f32) (z : Fin 1) (p : Fin 2048) (j : Fin 128) :
    k1_pay7 v26 v27 v30 (ix3 z p j) = v26 (ix2 p j) - v30 (ix2 p j) * Ideal.sqrt (max (v27 (ix2 p j)) Cert.Spec.cZero) := by
  unfold k1_pay7
  rw [shapeCast_addUnit_apply ![2048, 128], ix3_succ, subf_apply, k1_pay5_apply]

end Cert.KernelIdeal.Hand

end
-- ==== Proof.K1Value.lean ====
/- Region 1's values at the extended reals: the two accumulators at the last point of a row of the grid are the
   whole sums over the 32768 places, and the output array holds, plane by plane, the mean sum plus and minus the
   noise times the root of the variance sum clamped at zero. -/
import proofs.«157670_j57638461112382_2_alg».proof.Proof.K1Blocks
import proofs.«157670_j57638461112382_2_alg».proof.Proof.K1Pay
import proofs.«157670_j57638461112382_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

open scoped BigOperators

variable (V : (c : Dev nD) → (b : Ref sig .tc) → Buf (Elt Ideal) ((c : Thread nD τ).loc b))

/-- x, the mean weights, the variance weights and the noise as region 1 finds them, on literal index types. -/
abbrev kv_X (c : Dev nD) : S4096x32768.Idx → EReal := V c main_arg0
abbrev kv_Mw (c : Dev nD) : S128x32768.Idx → EReal := V c main_v0_0
abbrev kv_Vw (c : Dev nD) : S128x32768.Idx → EReal := V c main_v0_1
abbrev kv_Ee (c : Dev nD) : S4096x128.Idx → EReal := V c main_arg5

/-- A point below 128 is a point of the grid. -/
theorem kv_lt {n : ℕ} (hn : n < 128) : n < cfg1.N := lt_of_lt_of_eq hn N_1.symm

/-! ## An accumulator over a row's 64 points -/

/-- A value reset to this point's partial sum at the first of a row's 64 points, and increased by the point's partial
    sum at each of the others, is at the row's last point the whole sum over the 32768 places. -/
theorem kv_acc_rows (i : ℕ) (M : ℕ → EReal) (f : Fin 32768 → EReal)
    (h0 : M (i * 64) = 0 + ∑ l : Fin 512, f ⟨0 * 512 + l.val, by omega⟩)
    (hs : ∀ k (hk : k + 1 < 64), M (i * 64 + (k + 1)) = M (i * 64 + k) + ∑ l : Fin 512, f ⟨(k + 1) * 512 + l.val, by omega⟩) :
    M (i * 64 + 63) = ∑ k, f k := by
  have h := Cert.Alg.acc_63 (0 : EReal) f (fun k => if hk : k < 64 then ∑ l : Fin 512, f ⟨k * 512 + l.val, by omega⟩ else 0)
    (fun n => M (i * 64 + n)) (fun k hk => dif_pos hk)
    (by show M (i * 64 + 0) = 0 + _; rw [dif_pos (by decide : 0 < 64)]; exact h0)
    (fun k hk => by show M (i * 64 + (k + 1)) = M (i * 64 + k) + _; rw [dif_pos hk]; exact hs k hk)
  rw [show M (i * 64 + 63) = _ from h, zero_add]

/-! ## The accumulators point by point, read at an index -/

theorem kv_macc_reset_at (c : Dev nD) (t : Fin cfg1.N) (h0 : t.val % 64 = 0) (p : Fin 2048) (j : Fin 128)
    (a : Fin 4096) (ha : a.val = t.val / 64 * 2048 + p.val) (b : Fin 512 → Fin 32768) (hb : ∀ l, (b l).val = t.val % 64 * 512 + l.val) :
    @Eq EReal (macc1 V c t.val t.isLt (ix2 p j)) (0 + ∑ l : Fin 512, kv_X V c (ix2 a (b l)) * kv_Mw V c (ix2 j (b l))) := by
  refine ((congrFun (macc1_reset V c t.val t.isLt h0) (ix2 p j)).trans (k1_pay3_apply _ _ _ p j)).trans ?_
  rw [k1_pay1_apply]
  refine congrArg (0 + ·) (Finset.sum_congr rfl fun l _ => ?_)
  have ex : @Eq EReal (iblk1 V c 0 t (ix2 p l)) (kv_X V c (ix2 a (b l))) := kb_iblk1_0_apply V c t p l a (b l) ha (hb l)
  have ey : @Eq EReal (iblk1 V c 1 t (ix2 j l)) (kv_Mw V c (ix2 j (b l))) := kb_iblk1_1_apply V c t j l (b l) (hb l)
  exact congrArg₂ (· * ·) ex ey

theorem kv_macc_step_at (c : Dev nD) (n : ℕ) (h : n + 1 < cfg1.N) (h0 : (n + 1) % 64 ≠ 0) (p : Fin 2048) (j : Fin 128)
    (a : Fin 4096) (ha : a.val = (n + 1) / 64 * 2048 + p.val) (b : Fin 512 → Fin 32768) (hb : ∀ l, (b l).val = (n + 1) % 64 * 512 + l.val) :
    @Eq EReal (macc1 V c (n + 1) h (ix2 p j))
      (macc1 V c n (Nat.lt_of_succ_lt h) (ix2 p j) + ∑ l : Fin 512, kv_X V c (ix2 a (b l)) * kv_Mw V c (ix2 j (b l))) := by
  refine ((congrFun (macc1_step V c n h h0) (ix2 p j)).trans (k1_pay3_apply _ _ _ p j)).trans ?_
  refine congrArg (_ + ·) (Finset.sum_congr rfl fun l _ => ?_)
  have ex : @Eq EReal (iblk1 V c 0 ⟨n + 1, h⟩ (ix2 p l)) (kv_X V c (ix2 a (b l))) := kb_iblk1_0_apply V c ⟨n + 1, h⟩ p l a (b l) ha (hb l)
  have ey : @Eq EReal (iblk1 V c 1 ⟨n + 1, h⟩ (ix2 j l)) (kv_Mw V c (ix2 j (b l))) := kb_iblk1_1_apply V c ⟨n + 1, h⟩ j l (b l) (hb l)
  exact congrArg₂ (· * ·) ex ey

theorem kv_vacc_reset_at (c : Dev nD) (t : Fin cfg1.N) (h0 : t.val % 64 = 0) (p : Fin 2048) (j : Fin 128)
    (a : Fin 4096) (ha : a.val = t.val / 64 * 2048 + p.val) (b : Fin 512 → Fin 32768) (hb : ∀ l, (b l).val = t.val % 64 * 512 + l.val) :
    @Eq EReal (vacc1 V c t.val t.isLt (ix2 p j))
      (0 + ∑ l : Fin 512, (kv_X V c (ix2 a (b l)) * kv_X V c (ix2 a (b l))) * kv_Vw V c (ix2 j (b l))) := by
  refine ((congrFun (vacc1_reset V c t.val t.isLt h0) (ix2 p j)).trans (k1_pay4_apply _ _ _ p j)).trans ?_
  rw [k1_pay2_apply]
  refine congrArg (0 + ·) (Finset.sum_congr rfl fun l _ => ?_)
  have ex : @Eq EReal (iblk1 V c 0 t (ix2 p l)) (kv_X V c (ix2 a (b l))) := kb_iblk1_0_apply V c t p l a (b l) ha (hb l)
  have ey : @Eq EReal (iblk1 V c 2 t (ix2 j l)) (kv_Vw V c (ix2 j (b l))) := kb_iblk1_2_apply V c t j l (b l) (hb l)
  exact congrArg₂ (· * ·) (congrArg₂ (· * ·) ex ex) ey

theorem kv_vacc_step_at (c : Dev nD) (n : ℕ) (h : n + 1 < cfg1.N) (h0 : (n + 1) % 64 ≠ 0) (p : Fin 2048) (j : Fin 128)
    (a : Fin 4096) (ha : a.val = (n + 1) / 64 * 2048 + p.val) (b : Fin 512 → Fin 32768) (hb : ∀ l, (b l).val = (n + 1) % 64 * 512 + l.val) :
    @Eq EReal (vacc1 V c (n + 1) h (ix2 p j))
      (vacc1 V c n (Nat.lt_of_succ_lt h) (ix2 p j)
        + ∑ l : Fin 512, (kv_X V c (ix2 a (b l)) * kv_X V c (ix2 a (b l))) * kv_Vw V c (ix2 j (b l))) := by
  refine ((congrFun (vacc1_step V c n h h0) (ix2 p j)).trans (k1_pay4_apply _ _ _ p j)).trans ?_
  refine congrArg (_ + ·) (Finset.sum_congr rfl fun l _ => ?_)
  have ex : @Eq EReal (iblk1 V c 0 ⟨n + 1, h⟩ (ix2 p l)) (kv_X V c (ix2 a (b l))) := kb_iblk1_0_apply V c ⟨n + 1, h⟩ p l a (b l) ha (hb l)
  have ey : @Eq EReal (iblk1 V c 2 ⟨n + 1, h⟩ (ix2 j l)) (kv_Vw V c (ix2 j (b l))) := kb_iblk1_2_apply V c ⟨n + 1, h⟩ j l (b l) (hb l)
  exact congrArg₂ (· * ·) (congrArg₂ (· * ·) ex ex) ey

/-! ## The two accumulators at a row's last point -/

/-- The mean accumulator at the last point of row block `i`, at (p, j): row `i·2048 + p` of x against row `j` of the
    mean weights, over all 32768 places. -/
theorem macc_closed (c : Dev nD) (i : ℕ) (hi : i < 2) (p : Fin 2048) (j : Fin 128) (a : Fin 4096) (ha : a.val = i * 2048 + p.val) :
    @Eq EReal (macc1 V c (i * 64 + 63) (kv_lt (by omega)) (ix2 p j))
      (∑ k : Fin 32768, kv_X V c (ix2 a k) * kv_Mw V c (ix2 j k)) := by
  obtain ⟨M, hM⟩ : ∃ M : ℕ → EReal, ∀ n (hn : n < cfg1.N), M n = macc1 V c n hn (ix2 p j) :=
    ⟨fun n => if hn : n < cfg1.N then macc1 V c n hn (ix2 p j) else 0, fun n hn => dif_pos hn⟩
  rw [← hM _ (kv_lt (by omega))]
  refine kv_acc_rows i M (fun k => kv_X V c (ix2 a k) * kv_Mw V c (ix2 j k)) ?_ ?_
  · rw [hM _ (kv_lt (by omega : i * 64 < 128))]
    exact kv_macc_reset_at V c ⟨i * 64, kv_lt (by omega)⟩ (by show i * 64 % 64 = 0; omega) p j a
      (by show a.val = i * 64 / 64 * 2048 + p.val; omega) (fun l => ⟨0 * 512 + l.val, by omega⟩)
      (fun l => by show 0 * 512 + l.val = i * 64 % 64 * 512 + l.val; omega)
  · intro k hk
    rw [hM _ (kv_lt (by omega : i * 64 + (k + 1) < 128)), hM _ (kv_lt (by omega : i * 64 + k < 128))]
    exact kv_macc_step_at V c (i * 64 + k) (kv_lt (by omega)) (by omega) p j a (by omega)
      (fun l => ⟨(k + 1) * 512 + l.val, by omega⟩)
      (fun l => by show (k + 1) * 512 + l.val = (i * 64 + k + 1) % 64 * 512 + l.val; omega)

/-- The variance accumulator there: the squares of that row of x against row `j` of the variance weights. -/
theorem vacc_closed (c : Dev nD) (i : ℕ) (hi : i < 2) (p : Fin 2048) (j : Fin 128) (a : Fin 4096) (ha : a.val = i * 2048 + p.val) :
    @Eq EReal (vacc1 V c (i * 64 + 63) (kv_lt (by omega)) (ix2 p j))
      (∑ k : Fin 32768, (kv_X V c (ix2 a k) * kv_X V c (ix2 a k)) * kv_Vw V c (ix2 j k)) := by
  obtain ⟨M, hM⟩ : ∃ M : ℕ → EReal, ∀ n (hn : n < cfg1.N), M n = vacc1 V c n hn (ix2 p j) :=
    ⟨fun n => if hn : n < cfg1.N then vacc1 V c n hn (ix2 p j) else 0, fun n hn => dif_pos hn⟩
  rw [← hM _ (kv_lt (by omega))]
  refine kv_acc_rows i M (fun k => (kv_X V c (ix2 a k) * kv_X V c (ix2 a k)) * kv_Vw V c (ix2 j k)) ?_ ?_
  · rw [hM _ (kv_lt (by omega : i * 64 < 128))]
    exact kv_vacc_reset_at V c ⟨i * 64, kv_lt (by omega)⟩ (by show i * 64 % 64 = 0; omega) p j a
      (by show a.val = i * 64 / 64 * 2048 + p.val; omega) (fun l => ⟨0 * 512 + l.val, by omega⟩)
      (fun l => by show 0 * 512 + l.val = i * 64 % 64 * 512 + l.val; omega)
  · intro k hk
    rw [hM _ (kv_lt (by omega : i * 64 + (k + 1) < 128)), hM _ (kv_lt (by omega : i * 64 + k < 128))]
    exact kv_vacc_step_at V c (i * 64 + k) (kv_lt (by omega)) (by omega) p j a (by omega)
      (fun l => ⟨(k + 1) * 512 + l.val, by omega⟩)
      (fun l => by show (k + 1) * 512 + l.val = (i * 64 + k + 1) % 64 * 512 + l.val; omega)

/-! ## The output array -/

/-- The point that writes back the block holding row `b`, and the row's place in that block. -/
def kv_tb (b : Fin 4096) : Fin cfg1.N := ⟨b.val / 2048 * 64 + 63, kv_lt (by omega)⟩
def kv_pb (b : Fin 4096) : Fin 2048 := ⟨b.val % 2048, by omega⟩

/-- The pre-activation's mean and variance sums of the kernel, at batch row `b` and unit `j`. -/
abbrev kv_Mm (c : Dev nD) (b : Fin 4096) (j : Fin 128) : EReal := ∑ k : Fin 32768, kv_X V c (ix2 b k) * kv_Mw V c (ix2 j k)
abbrev kv_Vv (c : Dev nD) (b : Fin 4096) (j : Fin 128) : EReal :=
  ∑ k : Fin 32768, (kv_X V c (ix2 b k) * kv_X V c (ix2 b k)) * kv_Vw V c (ix2 j k)

theorem kv_arr1_4_plane0 (c : Dev nD) (b : Fin 4096) (j : Fin 128) :
    @Eq EReal ((dat1 V c).arrAt 4 cfg1.N (ix3 (0 : Fin 2) b j))
      (kv_Mm V c b j + kv_Ee V c (ix2 b j) * Ideal.sqrt (max (kv_Vv V c b j) Cert.Spec.cZero)) := by
  refine (kb_arr1_4_apply V c 0 b j (kv_tb b) rfl (kv_pb b) rfl).trans ?_
  refine (kb_after1_4_plane0 V c (kv_tb b) (by show (b.val / 2048 * 64 + 63) % 64 = 63; omega) (kv_pb b) j).trans ?_
  refine (k1_pay6_apply _ _ _ 0 (kv_pb b) j).trans ?_
  have e1 := macc_closed V c (b.val / 2048) (by omega) (kv_pb b) j b (by show b.val = b.val / 2048 * 2048 + b.val % 2048; omega)
  have e2 := vacc_closed V c (b.val / 2048) (by omega) (kv_pb b) j b (by show b.val = b.val / 2048 * 2048 + b.val % 2048; omega)
  have e3 : @Eq EReal (iblk1 V c 3 (kv_tb b) (ix2 (kv_pb b) j)) (kv_Ee V c (ix2 b j)) :=
    kb_iblk1_3_apply V c (kv_tb b) (kv_pb b) j b (by show b.val = (b.val / 2048 * 64 + 63) / 64 * 2048 + b.val % 2048; omega)
  exact congrArg₂ (· + ·) e1 (congrArg₂ (· * ·) e3 (congrArg (fun v => Ideal.sqrt (max v Cert.Spec.cZero)) e2))

theorem kv_arr1_4_plane1 (c : Dev nD) (b : Fin 4096) (j : Fin 128) :
    @Eq EReal ((dat1 V c).arrAt 4 cfg1.N (ix3 (1 : Fin 2) b j))
      (kv_Mm V c b j - kv_Ee V c (ix2 b j) * Ideal.sqrt (max (kv_Vv V c b j) Cert.Spec.cZero)) := by
  refine (kb_arr1_4_apply V c 1 b j (kv_tb b) rfl (kv_pb b) rfl).trans ?_
  refine (kb_after1_4_plane1 V c (kv_tb b) (by show (b.val / 2048 * 64 + 63) % 64 = 63; omega) (kv_pb b) j).trans ?_
  refine (k1_pay7_apply _ _ _ 0 (kv_pb b) j).trans ?_
  have e1 := macc_closed V c (b.val / 2048) (by omega) (kv_pb b) j b (by show b.val = b.val / 2048 * 2048 + b.val % 2048; omega)
  have e2 := vacc_closed V c (b.val / 2048) (by omega) (kv_pb b) j b (by show b.val = b.val / 2048 * 2048 + b.val % 2048; omega)
  have e3 : @Eq EReal (iblk1 V c 3 (kv_tb b) (ix2 (kv_pb b) j)) (kv_Ee V c (ix2 b j)) :=
    kb_iblk1_3_apply V c (kv_tb b) (kv_pb b) j b (by show b.val = (b.val / 2048 * 64 + 63) / 64 * 2048 + b.val % 2048; omega)
  exact congrArg₂ (· - ·) e1 (congrArg₂ (· * ·) e3 (congrArg (fun v => Ideal.sqrt (max v Cert.Spec.cZero)) e2))

/-- The whole output array after region 1: plane 0 the mean sum plus, plane 1 the mean sum minus, the noise times
    the root of the variance sum clamped at zero. -/
theorem kv_arr1_4 (c : Dev nD) :
    @Eq (S2x4096x128.Idx → EReal) ((dat1 V c).arrAt 4 cfg1.N) (fun a =>
      if (a 0).val = 0 then
        kv_Mm V c (a 1) (a 2) + kv_Ee V c (ix2 (a 1) (a 2)) * Ideal.sqrt (max (kv_Vv V c (a 1) (a 2)) Cert.Spec.cZero)
      else
        kv_Mm V c (a 1) (a 2) - kv_Ee V c (ix2 (a 1) (a 2)) * Ideal.sqrt (max (kv_Vv V c (a 1) (a 2)) Cert.Spec.cZero)) := by
  funext a
  obtain ⟨s, b, j, rfl⟩ : ∃ (s : Fin 2) (b : Fin 4096) (j : Fin 128), a = ix3 s b j := ⟨a 0, a 1, a 2, eq_ix3 a⟩
  match s with
  | ⟨0, _⟩ => exact (kv_arr1_4_plane0 V c b j).trans (if_pos rfl).symm
  | ⟨1, _⟩ => exact (kv_arr1_4_plane1 V c b j).trans (if_neg Nat.one_ne_zero).symm

end Cert.KernelIdeal.Hand

end
-- ==== Proof.KValue.lean ====
import proofs.«157670_j57638461112382_2_alg».proof.Proof.Tail
import proofs.«157670_j57638461112382_2_alg».proof.Proof.Spec
import proofs.«157670_j57638461112382_2_alg».proof.Proof.Consts
import proofs.«157670_j57638461112382_2_alg».proof.Proof.Bridge
import proofs.«157670_j57638461112382_2_alg».proof.Proof.K0Value
import proofs.«157670_j57638461112382_2_alg».proof.Proof.K0Acc
import proofs.«157670_j57638461112382_2_alg».proof.Proof.K1Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the idealized kernel's two results hold, as the specification's functions

  Under the precondition every input entry is a real number. Region 0 leaves the weights' means and variances and the
  divergence's row sums; region 1 accumulates the two products over the reduction axis and forms the two samples; the host
  tail totals the row sums. The clamp before the square root is the identity on a nonnegative variance, and the factor
  -1/2 moves across the tile sums because no Gaussian term is +∞. -/

variable (m : (ℓ : Loc nD τ sig) → Buf (Elt Idealize.ShloMosaic.Ideal) ℓ)

/-- Every entry of the six argument arrays of core `c` is a real number. -/
def RealArgs (c : Dev nD) : Prop :=
  (∀ i, ∃ r : ℝ, (m ((c : Thread nD τ).loc main_arg0) : IArr S4096x32768) i = (r : EReal))
  ∧ (∀ i, ∃ r : ℝ, (m ((c : Thread nD τ).loc main_arg1) : IArr S128x32768) i = (r : EReal))
  ∧ (∀ i, ∃ r : ℝ, (m ((c : Thread nD τ).loc main_arg2) : IArr S128x32768) i = (r : EReal))
  ∧ (∀ i, ∃ r : ℝ, (m ((c : Thread nD τ).loc main_arg3) : IArr S128x32768) i = (r : EReal))
  ∧ (∀ i, ∃ r : ℝ, (m ((c : Thread nD τ).loc main_arg4) : IArr S128x32768) i = (r : EReal))
  ∧ (∀ i, ∃ r : ℝ, (m ((c : Thread nD τ).loc main_arg5) : IArr S4096x128) i = (r : EReal))

theorem kernel_out (c : Dev nD) (hr : RealArgs m c) :
    ((dat1 (E1 m) c).arrAt 4 cfg1.N : IArr S2x4096x128)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg5)) := by
  -- what region 1 is entered with: the input and the noise as launched, the two weight arrays as region 0 left them
  have hX : kv_X (E1 m) c = m ((c : Thread nD τ).loc main_arg0) := E1_main_arg0 m c
  have hE : kv_Ee (E1 m) c = m ((c : Thread nD τ).loc main_arg5) := E1_main_arg5 m c
  have hM : kv_Mw (E1 m) c = fun i => Cert.Spec.meanW (m ((c : Thread nD τ).loc main_arg3) i) (m ((c : Thread nD τ).loc main_arg1) i) :=
    (E1_main_v0_0 m c).trans (arr0_4 (E0 m) c)
  have hV : kv_Vw (E1 m) c = fun i => Cert.Spec.varW (m ((c : Thread nD τ).loc main_arg2) i) (m ((c : Thread nD τ).loc main_arg3) i)
      (m ((c : Thread nD τ).loc main_arg1) i) :=
    (E1_main_v0_1 m c).trans (arr0_5 (E0 m) c)
  -- so the two accumulated products are the specification's mean and variance
  have hMm : ∀ b j, kv_Mm (E1 m) c b j = Cert.Spec.meanAt (m ((c : Thread nD τ).loc main_arg0)) (m ((c : Thread nD τ).loc main_arg1))
      (m ((c : Thread nD τ).loc main_arg3)) b j := fun b j => by
    unfold Cert.Spec.meanAt
    show (∑ k : Fin 32768, kv_X (E1 m) c (Idealize.ShloMosaic.ValueIdx.ix2 b k) * kv_Mw (E1 m) c (Idealize.ShloMosaic.ValueIdx.ix2 j k)) = _
    rw [hX, hM]
  have hVv : ∀ b j, kv_Vv (E1 m) c b j = Cert.Spec.varAt (m ((c : Thread nD τ).loc main_arg0)) (m ((c : Thread nD τ).loc main_arg1))
      (m ((c : Thread nD τ).loc main_arg2)) (m ((c : Thread nD τ).loc main_arg3)) b j := fun b j => by
    unfold Cert.Spec.varAt
    show (∑ k : Fin 32768, (kv_X (E1 m) c (Idealize.ShloMosaic.ValueIdx.ix2 b k) * kv_X (E1 m) c (Idealize.ShloMosaic.ValueIdx.ix2 b k))
      * kv_Vw (E1 m) c (Idealize.ShloMosaic.ValueIdx.ix2 j k)) = _
    rw [hX, hV]
  rw [kv_arr1_4 (E1 m) c]
  funext a
  obtain ⟨h, b, j, rfl⟩ : ∃ (h : Fin 2) (b : Fin 4096) (j : Fin 128), a = Idealize.ShloMosaic.ValueIdx.ix3 h b j :=
    ⟨a 0, a 1, a 2, Idealize.ShloMosaic.ValueIdx.eq_ix3 a⟩
  unfold Cert.Spec.out
  dsimp only
  -- the variance is a sum of nonnegative reals: the clamp before the square root does nothing
  rw [hMm b j, hVv b j, hE, Cert.Alg.sqrt_clamp _ _ _ _ hr.1 hr.2.1 hr.2.2.1 hr.2.2.2.1]

theorem kernel_kl (c : Dev nD) (hr : RealArgs m c) (i : S_.Idx) :
    (W3 (F := Idealize.ShloMosaic.Ideal) m c (Proc.devRef .tc main_v3) : IArr S_) i
      = Cert.Spec.kl (m ((c : Thread nD τ).loc main_arg1)) (m ((c : Thread nD τ).loc main_arg2)) (m ((c : Thread nD τ).loc main_arg3))
          (m ((c : Thread nD τ).loc main_arg4)) := by
  rw [W3_main_v3]
  -- the row sums are the carried accumulator after the last tile, one entry per row
  have hrows : (∑ j : S128x1.Idx, klRows m c j) = ∑ r : Fin 128, accRow (E0 m) c 15 r := by
    unfold klRows
    rw [arr0_6 (E0 m) c, Idealize.ShloMosaic.ValueIdx.sum_idx2]
    refine Finset.sum_congr rfl fun r _ => ?_
    rw [Fin.sum_univ_one]
    exact (accRow_last (E0 m) c r).symm
  rw [hrows]
  exact Cert.Alg.kl_bridge _ _ _ _ hr.2.1 hr.2.2.1 hr.2.2.2.1 hr.2.2.2.2.1 (accRow (E0 m) c) (accRow_zero (E0 m) c) (accRow_succ (E0 m) c)

end Cert.KernelIdeal.Hand

end
-- ==== Proof.RefElt.lean ====
/-
  The reference's per-weight stages, read at an index: the floored deviation, the clipped inclusion probability,
  the weight's posterior mean and variance are the specification's scalar functions of the arguments' entries.
-/
import proofs.«157670_j57638461112382_2_alg».proof.Proof.Gen.ReferenceIdeal.Read
import proofs.«157670_j57638461112382_2_alg».proof.Proof.Spec

noncomputable section

namespace Cert.RefSide

open Cert.ReferenceIdeal Cert.ReferenceIdeal.Gen Cert.ReferenceIdeal.Read Idealize.ShloMosaic Cert.Spec

/-- The arrays of the weights' shape, at the extended reals. -/
abbrev WArr : Type := (⟨S128x32768, .f32⟩ : BufTy).Contents (Elt Ideal)

/-- The clipped inclusion probability at a weight. -/
theorem clip_at (x3 : WArr) (j : S128x32768.Idx) : val_main_v3 (F := Ideal) x3 j = clip (x3 j) := by
  rw [val_main_v3_apply, val_main_call1_v4_apply, val_main_call1_v3_apply, val_main_cst_1_apply,
    val_main_call1_v2_apply, val_main_call1_v1_apply, val_main_call1_v0_apply, val_main_cst_0_apply]
  rfl

/-- The floored deviation at a weight. -/
theorem sg_at (x2 : WArr) (j : S128x32768.Idx) : val_main_v2 (F := Ideal) x2 j = sg (x2 j) := by
  rw [val_main_v2_apply, val_main_v0_apply, val_main_call0_v0_apply, val_main_call0_cst_apply,
    val_main_v1_apply, val_main_cst_apply]
  rfl

/-- The weight's posterior mean. -/
theorem meanW_at (x1 x3 : WArr) (j : S128x32768.Idx) :
    val_main_v4 (F := Ideal) x1 x3 j = meanW (x3 j) (x1 j) := by
  rw [val_main_v4_apply, clip_at]
  rfl

/-- The weight's posterior variance. -/
theorem varW_at (x1 x2 x3 : WArr) (j : S128x32768.Idx) :
    val_main_v11 (F := Ideal) x1 x2 x3 j = varW (x2 j) (x3 j) (x1 j) := by
  rw [val_main_v11_apply, val_main_v9_apply, val_main_v6_apply, val_main_v8_apply, val_main_v10_apply,
    val_main_v5_apply, val_main_v7_apply, meanW_at, clip_at, sg_at]
  rfl

end Cert.RefSide

end
-- ==== Proof.RefOut.lean ====
/-
  The reference's array result is the specification's: the two samples m ± e √v stacked on a leading axis of extent 2,
  the mean m and the variance v each a contraction over the 32768 inputs of the per-weight mean and variance.
-/
import proofs.«157670_j57638461112382_2_alg».proof.Proof.RefElt

noncomputable section

namespace Cert.RefSide

open Cert.ReferenceIdeal Cert.ReferenceIdeal.Gen Cert.ReferenceIdeal.Read Idealize.ShloMosaic
open Idealize.ShloMosaic.ValueIdx Cert.Spec

/-- The input array and the noise array at the extended reals. -/
abbrev XArr : Type := (⟨S4096x32768, .f32⟩ : BufTy).Contents (Elt Ideal)
abbrev EArr : Type := (⟨S4096x128, .f32⟩ : BufTy).Contents (Elt Ideal)

/-! ## The index maps of the contractions and the transposes, at coordinates -/

theorem lidx13 (b : Fin 4096) (c : Fin 128) (k : Fin 32768) : lidx_main_v13 (ix2 b c) k = ix2 b k :=
  funext fun a => Fin.ext (by match a with | ⟨0, _⟩ => rfl | ⟨1, _⟩ => rfl)
theorem ridx13 (b : Fin 4096) (c : Fin 128) (k : Fin 32768) : ridx_main_v13 (ix2 b c) k = ix2 k c :=
  funext fun a => Fin.ext (by match a with | ⟨0, _⟩ => rfl | ⟨1, _⟩ => rfl)
theorem lidx16 (b : Fin 4096) (c : Fin 128) (k : Fin 32768) : lidx_main_v16 (ix2 b c) k = ix2 b k :=
  funext fun a => Fin.ext (by match a with | ⟨0, _⟩ => rfl | ⟨1, _⟩ => rfl)
theorem ridx16 (b : Fin 4096) (c : Fin 128) (k : Fin 32768) : ridx_main_v16 (ix2 b c) k = ix2 k c :=
  funext fun a => Fin.ext (by match a with | ⟨0, _⟩ => rfl | ⟨1, _⟩ => rfl)
theorem idx12 (k : Fin 32768) (c : Fin 128) : idx_main_v12 (ix2 k c) = ix2 c k :=
  funext fun a => Fin.ext (by match a with | ⟨0, _⟩ => rfl | ⟨1, _⟩ => rfl)
theorem idx15 (k : Fin 32768) (c : Fin 128) : idx_main_v15 (ix2 k c) = ix2 c k :=
  funext fun a => Fin.ext (by match a with | ⟨0, _⟩ => rfl | ⟨1, _⟩ => rfl)
theorem idx21 (a : Fin 1) (b : Fin 4096) (c : Fin 128) : idx_main_v21 (ix3 a b c) = ix2 b c :=
  funext fun d => Fin.ext (by match d with | ⟨0, _⟩ => rfl | ⟨1, _⟩ => rfl)
theorem idx22 (a : Fin 1) (b : Fin 4096) (c : Fin 128) : idx_main_v22 (ix3 a b c) = ix2 b c :=
  funext fun d => Fin.ext (by match d with | ⟨0, _⟩ => rfl | ⟨1, _⟩ => rfl)

/-! ## The mean and the variance of the pre-activation -/

/-- The first contraction is the pre-activation's mean. -/
theorem mean_at (x0 : XArr) (x1 x3 : WArr) (b : Fin 4096) (c : Fin 128) :
    val_main_v13 (F := Ideal) x0 x1 x3 (ix2 b c) = meanAt x0 x1 x3 b c := by
  rw [val_main_v13_apply]
  unfold meanAt
  refine Finset.sum_congr rfl fun k _ => ?_
  rw [lidx13, ridx13, val_main_v12_apply, idx12, meanW_at]

/-- The second contraction is the pre-activation's variance. -/
theorem var_at (x0 : XArr) (x1 x2 x3 : WArr) (b : Fin 4096) (c : Fin 128) :
    val_main_v16 (F := Ideal) x0 x1 x2 x3 (ix2 b c) = varAt x0 x1 x2 x3 b c := by
  rw [val_main_v16_apply]
  unfold varAt
  refine Finset.sum_congr rfl fun k _ => ?_
  rw [lidx16, ridx16, val_main_v14_apply, val_main_v15_apply, idx15, varW_at]
  rfl

/-- The noise scaled by the deviation. -/
theorem noise_at (x0 : XArr) (x1 x2 x3 : WArr) (x5 : EArr) (b : Fin 4096) (c : Fin 128) :
    val_main_v18 (F := Ideal) x0 x1 x2 x3 x5 (ix2 b c) = x5 (ix2 b c) * Ideal.sqrt (varAt x0 x1 x2 x3 b c) := by
  rw [val_main_v18_apply, val_main_v17_apply, var_at, Ideal.mulf_def, Ideal.hostUnary_sqrt_def]

/-! ## The stacked result -/

/-- The leading coordinate 0: the first piece, m + e √v. -/
theorem out_at_zero (x0 : XArr) (x1 x2 x3 : WArr) (x5 : EArr) (b : Fin 4096) (c : Fin 128) :
    val_main_v23 (F := Ideal) x0 x1 x2 x3 x5 (ix3 0 b c)
      = meanAt x0 x1 x3 b c + x5 (ix2 b c) * Ideal.sqrt (varAt x0 x1 x2 x3 b c) := by
  unfold val_main_v23
  rw [concatenate_pair_apply_left 0 _ _ concatenates_S1x4096x128_S1x4096x128_S2x4096x128_d0 (ix3 0 b c) rfl
    (ix3 0 b c) (fun d => by match d with | ⟨0, _⟩ => rfl | ⟨1, _⟩ => rfl | ⟨2, _⟩ => rfl)]
  rw [val_main_v21_apply, idx21, val_main_v19_apply, mean_at, noise_at]
  rfl

/-- The leading coordinate 1: the second piece, m − e √v. -/
theorem out_at_one (x0 : XArr) (x1 x2 x3 : WArr) (x5 : EArr) (b : Fin 4096) (c : Fin 128) :
    val_main_v23 (F := Ideal) x0 x1 x2 x3 x5 (ix3 1 b c)
      = meanAt x0 x1 x3 b c - x5 (ix2 b c) * Ideal.sqrt (varAt x0 x1 x2 x3 b c) := by
  unfold val_main_v23
  rw [concatenate_pair_apply_right 0 _ _ concatenates_S1x4096x128_S1x4096x128_S2x4096x128_d0 (ix3 1 b c) rfl rfl
    (ix3 0 b c)
    (fun d hd => by
      match d with
      | ⟨0, _⟩ => exact absurd rfl hd
      | ⟨1, _⟩ => rfl
      | ⟨2, _⟩ => rfl)
    rfl]
  rw [val_main_v22_apply, idx22, val_main_v20_apply, mean_at, noise_at]
  rfl

/-- The reference's array result is the specification's, as functions of the index: the input (first argument), the
    weights' means (second), deviations (third), inclusion probabilities (fourth) and the noise (sixth). -/
theorem ref_out (x0 : XArr) (x1 x2 x3 : WArr) (x5 : EArr) :
    val_main_v23 (F := Ideal) x0 x1 x2 x3 x5 = out x0 x1 x2 x3 x5 := by
  funext i
  obtain ⟨a, b, c, rfl⟩ : ∃ (a : Fin 2) (b : Fin 4096) (c : Fin 128), i = ix3 a b c := ⟨i 0, i 1, i 2, eq_ix3 i⟩
  match a with
  | ⟨0, _⟩ => exact (out_at_zero x0 x1 x2 x3 x5 b c).trans (if_pos rfl).symm
  | ⟨1, _⟩ => exact (out_at_one x0 x1 x2 x3 x5 b c).trans (if_neg Nat.one_ne_zero).symm

end Cert.RefSide

end
-- ==== Proof.RefKl.lean ====
/-
  The reference's divergence is the specification's: each of its two parts is one sum, from the zero word, over all
  the weights of the per-weight term, the Gaussian part scaled by -1/2, the total divided by the sample count.
-/
import proofs.«157670_j57638461112382_2_alg».proof.Proof.RefElt

noncomputable section

namespace Cert.RefSide

open Cert.ReferenceIdeal Cert.ReferenceIdeal.Gen Cert.ReferenceIdeal.Read Idealize.ShloMosaic Cert.Spec

/-- The Gaussian part of one weight's term, the variance as the exponential of its logarithm. -/
theorem gauss_at (x1 x2 x3 x4 : WArr) (j : S128x32768.Idx) :
    val_main_v37 (F := Ideal) x1 x2 x3 x4 j = gaussExpLog (x2 j) (x3 j) (x1 j) (x4 j) := by
  rw [val_main_v37_apply, val_main_v36_apply, val_main_v33_apply, val_main_v30_apply, val_main_v29_apply,
    val_main_v28_apply, val_main_cst_2_apply, val_main_v27_apply, val_main_v26_apply, val_main_v25_apply,
    val_main_v24_apply, val_main_v32_apply, val_main_v31_apply, val_main_v35_apply, val_main_v34_apply,
    val_main_v27_apply, val_main_v26_apply, val_main_v24_apply, clip_at, sg_at]
  rfl

/-- The Bernoulli part of one weight's term. -/
theorem spike_at (x3 : WArr) (j : S128x32768.Idx) : val_main_v52 (F := Ideal) x3 j = spikeT (x3 j) := by
  rw [val_main_v52_apply, val_main_v47_apply, val_main_v41_apply, val_main_v40_apply, val_main_cst_5_apply,
    val_main_v46_apply, val_main_v45_apply, val_main_v43_apply, val_main_v42_apply, val_main_cst_6_apply,
    val_main_v44_apply, val_main_cst_7_apply, val_main_v51_apply, val_main_v50_apply, val_main_v49_apply,
    val_main_v48_apply, val_main_cst_8_apply, clip_at]
  rfl

/-- The reference's scalar result is the specification's divergence of the weights' means (second argument),
    deviations (third), inclusion probabilities (fourth) and prior deviations (fifth). -/
theorem ref_kl (x1 x2 x3 x4 : WArr) :
    val_main_v55 (F := Ideal) x1 x2 x3 x4 = fun _ => kl x1 x2 x3 x4 := by
  funext i
  rw [val_main_v55_apply, val_main_v54_apply, val_main_v39_apply, val_main_v38_apply, val_main_v53_apply,
    val_main_cst_3_apply, val_main_cst_9_apply, val_main_cst_4_apply, val_main_cst_10_apply,
    Finset.sum_congr rfl (fun j _ => gauss_at x1 x2 x3 x4 j), Finset.sum_congr rfl (fun j _ => spike_at x3 j)]
  rfl

end Cert.RefSide

end
-- ==== Proof.Finite.lean ====
/-
  The printed precondition says that every entry of the six argument arrays has an absolute value below +∞; on the
  extended reals that makes every entry a real number.  The predicate is a conjunction, one whole-array `and`-reduction
  per argument, of the comparisons |x| < +∞ against the float word of +∞.
-/
import proofs.«157670_j57638461112382_2_alg».proof.Proof.Gen.Pre_finite_inputs
import Idealize.ShloMosaic.Lib.ReduceAll
import Idealize.ShloMosaic.Lib.ValueIdx
import Idealize.ShloMosaic.PureOps.Ideal.Laws

noncomputable section

namespace Cert.RefSide

open Idealize.ShloMosaic Cert.Pre_finite_inputs

/-- The scalar shape has one index. -/
instance subsingleton_scalar_idx : Subsingleton S_.Idx := ⟨fun _ _ => funext fun d => d.elim0⟩

/-- The float word 0x7F800000 denotes the top of the extended reals. -/
abbrev InfWord : Prop := Ideal.ofBits .f32 0x7F800000#32 = (⊤ : EReal)

/-- An extended real whose absolute value compares below the word of +∞ is a real number. -/
theorem real_of_abs_lt (hinf : InfWord) (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : max x (-x) < (⊤ : EReal) := by
    have h2 : BitVec.ofBool (decide (max x (-x) < Ideal.ofBits .f32 0x7F800000#32)) = 1#1 := h
    rw [hinf] at h2
    by_contra hn
    rw [decide_eq_false hn] at h2
    exact absurd h2 (by decide)
  induction x using EReal.rec with
  | bot => simp at h'
  | coe r => exact ⟨r, rfl⟩
  | top => simp at h'

/-- One argument: the whole-array `and` of the comparisons being 1 makes every entry real. -/
theorem real_of_all (hinf : InfWord) {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi (cmpf .olt (Host.absf a) (broadcastInDim s ![] hb (constant (F := Ideal) S_ .f32 0x7F800000#32)))
      (constantI S_ 1 1#1) hr hu j = 1#1) (i : s.Idx) : ∃ r : ℝ, a i = (r : EReal) := by
  have hi := Host.reduce_andi_all _ _ hr hu j e i
  exact real_of_abs_lt hinf (a i) hi

/-- The printed precondition at the extended reals: every entry of every argument is a real number. -/
theorem finite_of_pre [Facts] (hinf : InfWord) (a0 : FVec Ideal S4096x32768 .f32) (a1 a2 a3 a4 : FVec Ideal S128x32768 .f32)
    (a5 : FVec Ideal S4096x128 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all hinf a0 _ _ _ _ h0', real_of_all hinf a1 _ _ _ _ h1, real_of_all hinf a2 _ _ _ _ h2,
    real_of_all hinf a3 _ _ _ _ h3, real_of_all hinf a4 _ _ _ _ h4, real_of_all hinf a5 _ _ _ _ h5⟩

end Cert.RefSide

end
-- ==== Proof.lean ====
/-
  Two programs for one Bayesian linear layer with a spike-and-slab posterior, equal at the exact extended reals.

  The kernel is two pipelined regions and a short host tail. Region 0 walks the 16 column tiles of the four weight
  arrays once: it writes each tile's posterior means  clip s · w  and variances  s σ² + s w² − (s w)², and keeps, in a scratch
  column carried from tile to tile, each row's running sum of  -½ · (the tile's Gaussian terms) + (the tile's Bernoulli
  terms), which the last tile copies out. Region 1 walks, for each half of the batch, the 64 column tiles of the input:
  two scratch accumulators carry the partial products  x · meanᵀ  and  x² · varᵀ ; the last tile forms  m ± e · √(max v 0).
  The host tail adds up the 128 row sums and divides by the sample count.

  The reference computes the same mean and variance arrays, ONE product each over all 32768 columns, m ± e · √v without
  the clamp, and ONE sum over all weights of each part of the divergence, the Gaussian one multiplied by -½ afterwards, with
  the slab's variance written exp (log σ²).

  At the exact values the two agree whenever every input entry is a real number: a sum over 32768 columns is the sum over
  its tiles in any grouping; the variance sum is a sum of nonnegative reals, so the clamp does nothing and the square
  root is the same; exp (log σ²) = σ² because the floored deviation is positive; and -½ moves across the tile sums because a
  Gaussian term is a real number or −∞ (when the prior deviation is 0), never +∞, so no sum met mixes infinities.

  The frames (both programs of the kernel run to the end, fault nowhere and leave the arguments as launched) come from one
  run of @main's three segments in which every buffer's final contents are named; the word-level program's frame is the
  same argument read at the word-level instance.
-/
import proofs.«157670_j57638461112382_2_alg».proof.Defs
import proofs.«157670_j57638461112382_2_alg».proof.Proof.Gen.Kernel
import proofs.«157670_j57638461112382_2_alg».proof.Proof.Gen.KernelIdeal
import proofs.«157670_j57638461112382_2_alg».proof.Proof.Gen.ReferenceIdeal
import proofs.«157670_j57638461112382_2_alg».proof.Proof.Gen.Pre_finite_inputs
import proofs.«157670_j57638461112382_2_alg».proof.Proof.Gen.ReferenceIdeal.Run
import proofs.«157670_j57638461112382_2_alg».proof.Proof.Gen.ReferenceIdeal.Read
import proofs.«157670_j57638461112382_2_alg».proof.Proof.Frames
import proofs.«157670_j57638461112382_2_alg».proof.Proof.WFrames
import proofs.«157670_j57638461112382_2_alg».proof.Proof.KValue
import proofs.«157670_j57638461112382_2_alg».proof.Proof.RefOut
import proofs.«157670_j57638461112382_2_alg».proof.Proof.RefKl
import proofs.«157670_j57638461112382_2_alg».proof.Proof.Finite
import Idealize.ShloMosaic.Adequacy
import Idealize.ShloMosaic.Init

noncomputable section

namespace Cert.Proof

open Idealize.ShloMosaic Idealize.ShloMosaic.TcCoe Idealize.SL.Sem

section Claims
variable [hK : Cert.Kernel.Facts] [hKI : Cert.KernelIdeal.Facts] [hRI : Cert.ReferenceIdeal.Facts] [hP : Cert.Pre_finite_inputs.Facts]

/-- The word-level kernel runs to the end and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Idealize.ShloMosaic.Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Idealize.ShloMosaic.Ideal) m ρ)

/-- The ideal pass rewrote nothing. -/
theorem preserves : Cert.preserves_Kernel_KernelIdeal := trivial

/-- The precondition says every argument entry of every core is a real number. -/
theorem real_of_pre (m : (ℓ : Loc Cert.KernelIdeal.nD Cert.KernelIdeal.τ Cert.KernelIdeal.sig) → Buf (Elt Idealize.ShloMosaic.Ideal) ℓ)
    (hpre : Cert.Pre_KernelIdeal m) (c : Dev Cert.KernelIdeal.nD) : Cert.KernelIdeal.Hand.RealArgs m c :=
  Cert.RefSide.finite_of_pre Cert.Alg.cInf _ _ _ _ _ _ (hpre c)

/-- Both idealized programs end with the specification's two functions of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)),
    fun c => fun _ => Cert.Spec.kl (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel: every buffer's final contents are the fold's; the two results are read off it
    refine (θ_run Cert.KernelIdeal.defs _ _).mono (fun r h c => ?_) (Cert.KernelIdeal.Hand.run_all (F := Idealize.ShloMosaic.Ideal) m ρ)
    have hr := real_of_pre m hpre c
    refine ⟨?_, ?_, ?_, ?_, ?_, ?_, ?_, ?_⟩
    · exact (h c _ (Cert.KernelIdeal.Hand.mem_uc Cert.KernelIdeal.main_v1 (by decide))).trans
        ((Cert.KernelIdeal.Hand.W3_main_v1 m c).trans (Cert.KernelIdeal.Hand.kernel_out m c hr))
    · exact (h c _ (Cert.KernelIdeal.Hand.mem_uc Cert.KernelIdeal.main_v3 (by decide))).trans
        (funext fun i => Cert.KernelIdeal.Hand.kernel_kl m c hr i)
    · exact (h c _ (Cert.KernelIdeal.Hand.mem_uc Cert.KernelIdeal.main_arg0 (by decide))).trans (Cert.KernelIdeal.Hand.W3_main_arg0 m c)
    · exact (h c _ (Cert.KernelIdeal.Hand.mem_uc Cert.KernelIdeal.main_arg1 (by decide))).trans (Cert.KernelIdeal.Hand.W3_main_arg1 m c)
    · exact (h c _ (Cert.KernelIdeal.Hand.mem_uc Cert.KernelIdeal.main_arg2 (by decide))).trans (Cert.KernelIdeal.Hand.W3_main_arg2 m c)
    · exact (h c _ (Cert.KernelIdeal.Hand.mem_uc Cert.KernelIdeal.main_arg3 (by decide))).trans (Cert.KernelIdeal.Hand.W3_main_arg3 m c)
    · exact (h c _ (Cert.KernelIdeal.Hand.mem_uc Cert.KernelIdeal.main_arg4 (by decide))).trans (Cert.KernelIdeal.Hand.W3_main_arg4 m c)
    · exact (h c _ (Cert.KernelIdeal.Hand.mem_uc Cert.KernelIdeal.main_arg5 (by decide))).trans (Cert.KernelIdeal.Hand.W3_main_arg5 m c)
  · -- the reference: its generated run, each result's term read as the specification's function of arguments that agree
    refine (θ_run Cert.ReferenceIdeal.defs _ _).mono (fun r h c => ⟨?_, ?_, (h c).2.2⟩)
      (Cert.ReferenceIdeal.Value.run (F := Idealize.ShloMosaic.Ideal) m' ρ')
    · rw [(h c).1, Cert.ReferenceIdeal.Read.val_main_v23_eq, Cert.RefSide.ref_out,
        (hagree c).1, (hagree c).2.1, (hagree c).2.2.1, (hagree c).2.2.2.1, (hagree c).2.2.2.2.2]
    · rw [(h c).2.1, Cert.ReferenceIdeal.Read.val_main_v55_eq, Cert.RefSide.ref_kl,
        (hagree c).2.1, (hagree c).2.2.1, (hagree c).2.2.2.1, (hagree c).2.2.2.2.1]
      rfl

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
